-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512 : Shape := ⟨1, ![512]⟩
abbrev S4x1024 : Shape := ⟨2, ![4, 1024]⟩
abbrev S4 : Shape := ⟨1, ![4]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4096x512 .f32) (main_arg1 : IVec S512 32) (main_arg2 : FVec F S4x1024 .f32) (main_arg3 : FVec F S4 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4x1024 .f32 := Host.absf main_arg2
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S4096x512 : Shape := ⟨2, ![4096, 512]⟩
abbrev S512 : Shape := ⟨1, ![512]⟩
abbrev S4x1024 : Shape := ⟨2, ![4, 1024]⟩
abbrev S4 : Shape := ⟨1, ![4]⟩
abbrev S_ : Shape := ⟨0, ![]⟩
abbrev S512x1 : Shape := ⟨2, ![512, 1]⟩
abbrev S512x512 : Shape := ⟨2, ![512, 512]⟩
abbrev S4x512 : Shape := ⟨2, ![4, 512]⟩
abbrev S512x4 : Shape := ⟨2, ![512, 4]⟩
abbrev S1x4 : Shape := ⟨2, ![1, 4]⟩
abbrev S512x4x512 : Shape := ⟨3, ![512, 4, 512]⟩
abbrev S256x4 : Shape := ⟨2, ![256, 4]⟩
abbrev S256x4x512 : Shape := ⟨3, ![256, 4, 512]⟩
abbrev S256x1 : Shape := ⟨2, ![256, 1]⟩
abbrev S1x512 : Shape := ⟨2, ![1, 512]⟩
abbrev S1x1 : Shape := ⟨2, ![1, 1]⟩
abbrev S256x512 : Shape := ⟨2, ![256, 512]⟩
abbrev S256x1x512 : Shape := ⟨3, ![256, 1, 512]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x2 : Shape := ⟨2, ![130816, 2]⟩
abbrev S130816x4 : Shape := ⟨2, ![130816, 4]⟩

abbrev nBuf : Space → Nat
  | .hbm => 154
  | .vmem => 11
  | .smem => 0
  | _ => 0

abbrev hbmTy0_0 (i : Nat) : BufTy := match i % 128 with
  | 0 => ⟨S4096x512, .f32⟩
  | 1 => ⟨S512, .i32⟩
  | 2 => ⟨S4x1024, .f32⟩
  | 3 => ⟨S4, .f32⟩
  | 4 => ⟨S_, .i32⟩
  | 5 => ⟨S512, .i32⟩
  | 6 => ⟨S512, .i1⟩
  | 7 => ⟨S_, .i32⟩
  | 8 => ⟨S512, .i32⟩
  | 9 => ⟨S512, .i32⟩
  | 10 => ⟨S512, .i32⟩
  | 11 => ⟨S512x1, .i32⟩
  | 12 => ⟨S512x512, .f32⟩
  | 13 => ⟨S4x512, .f32⟩
  | 14 => ⟨S4x512, .f32⟩
  | 15 => ⟨S512x4, .f32⟩
  | 16 => ⟨S512x4, .f32⟩
  | 17 => ⟨S1x4, .f32⟩
  | 18 => ⟨S512x4x512, .f32⟩
  | 19 => ⟨S_, .f32⟩
  | 20 => ⟨S512x512, .f32⟩
  | 21 => ⟨S512x512, .i32⟩
  | 22 => ⟨S_, .i32⟩
  | 23 => ⟨S512x512, .i32⟩
  | 24 => ⟨S512x512, .i32⟩
  | 25 => ⟨S512x512, .i32⟩
  | 26 => ⟨S512x512, .i1⟩
  | 27 => ⟨S_, .f32⟩
  | 28 => ⟨S512x512, .f32⟩
  | 29 => ⟨S512x512, .f32⟩
  | 30 => ⟨S_, .f32⟩
  | 31 => ⟨S512x512, .f32⟩
  | 32 => ⟨S512x512, .i1⟩
  | 33 => ⟨S262144, .i1⟩
  | 34 => ⟨S262144, .i32⟩
  | 35 => ⟨S_, .i32⟩
  | 36 => ⟨S_, .i32⟩
  | 37 => ⟨S262144, .i32⟩
  | 38 => ⟨S_, .i32⟩
  | 39 => ⟨S130816, .i32⟩
  | 40 => ⟨S_, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i1⟩
  | 47 => ⟨S_, .i32⟩
  | 48 => ⟨S262144, .i32⟩
  | 49 => ⟨S262144, .i32⟩
  | 50 => ⟨S262144, .i32⟩
  | 51 => ⟨S262144x1, .i32⟩
  | 52 => ⟨S_, .i32⟩
  | 53 => ⟨S262144, .i32⟩
  | 54 => ⟨S130816, .i32⟩
  | 55 => ⟨S_, .i32⟩
  | 56 => ⟨S_, .i32⟩
  | 57 => ⟨S130816, .i32⟩
  | 58 => ⟨S_, .i32⟩
  | 59 => ⟨S130816, .i32⟩
  | 60 => ⟨S130816, .i32⟩
  | 61 => ⟨S130816, .i32⟩
  | 62 => ⟨S_, .i32⟩
  | 63 => ⟨S130816, .i32⟩
  | 64 => ⟨S130816, .i1⟩
  | 65 => ⟨S130816, .i32⟩
  | 66 => ⟨S130816, .i32⟩
  | 67 => ⟨S_, .i32⟩
  | 68 => ⟨S130816, .i32⟩
  | 69 => ⟨S130816, .i1⟩
  | 70 => ⟨S130816, .i1⟩
  | 71 => ⟨S_, .i32⟩
  | 72 => ⟨S130816, .i32⟩
  | 73 => ⟨S130816, .i32⟩
  | 74 => ⟨S130816, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S130816, .i32⟩
  | 82 => ⟨S130816, .i32⟩
  | 83 => ⟨S_, .i32⟩
  | 84 => ⟨S130816, .i32⟩
  | 85 => ⟨S130816, .i1⟩
  | 86 => ⟨S_, .i32⟩
  | 87 => ⟨S130816, .i32⟩
  | 88 => ⟨S130816, .i1⟩
  | 89 => ⟨S_, .i32⟩
  | 90 => ⟨S_, .i1⟩
  | 91 => ⟨S130816, .i1⟩
  | 92 => ⟨S130816, .i1⟩
  | 93 => ⟨S130816, .i1⟩
  | 94 => ⟨S130816, .i32⟩
  | 95 => ⟨S130816, .i32⟩
  | 96 => ⟨S130816, .i32⟩
  | 97 => ⟨S_, .i32⟩
  | 98 => ⟨S130816, .i32⟩
  | 99 => ⟨S130816, .i32⟩
  | 100 => ⟨S130816, .i32⟩
  | 101 => ⟨S_, .i32⟩
  | 102 => ⟨S130816, .i32⟩
  | 103 => ⟨S130816, .i1⟩
  | 104 => ⟨S130816, .i32⟩
  | 105 => ⟨S130816, .i32⟩
  | 106 => ⟨S_, .i32⟩
  | 107 => ⟨S130816, .i32⟩
  | 108 => ⟨S130816, .i1⟩
  | 109 => ⟨S130816, .i1⟩
  | 110 => ⟨S_, .i32⟩
  | 111 => ⟨S130816, .i32⟩
  | 112 => ⟨S130816, .i32⟩
  | 113 => ⟨S130816, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S130816, .i32⟩
  | 121 => ⟨S130816, .i32⟩
  | 122 => ⟨S_, .i32⟩
  | 123 => ⟨S130816, .i32⟩
  | 124 => ⟨S130816, .i1⟩
  | 125 => ⟨S_, .i32⟩
  | 126 => ⟨S130816, .i32⟩
  | 127 => ⟨S130816, .i1⟩
  | _ => ⟨S4096x512, .f32⟩

abbrev hbmTy0_1 (i : Nat) : BufTy := match i % 128 with
  | 0 => ⟨S_, .i32⟩
  | 1 => ⟨S_, .i1⟩
  | 2 => ⟨S130816, .i1⟩
  | 3 => ⟨S130816, .i1⟩
  | 4 => ⟨S130816, .i1⟩
  | 5 => ⟨S130816, .i32⟩
  | 6 => ⟨S130816, .i32⟩
  | 7 => ⟨S130816, .i32⟩
  | 8 => ⟨S_, .i32⟩
  | 9 => ⟨S130816, .i32⟩
  | 10 => ⟨S130816, .i1⟩
  | 11 => ⟨S_, .i32⟩
  | 12 => ⟨S130816, .i32⟩
  | 13 => ⟨S130816, .i32⟩
  | 14 => ⟨S130816, .i32⟩
  | 15 => ⟨S_, .i32⟩
  | 16 => ⟨S130816, .i32⟩
  | 17 => ⟨S130816, .i1⟩
  | 18 => ⟨S_, .i32⟩
  | 19 => ⟨S130816, .i32⟩
  | 20 => ⟨S130816, .i32⟩
  | 21 => ⟨S130816, .i32⟩
  | 22 => ⟨S130816x1, .i32⟩
  | 23 => ⟨S130816x1, .i32⟩
  | 24 => ⟨S130816x2, .i32⟩
  | 25 => ⟨S130816x4, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S4x512, .f32⟩
  | .local _ .vmem, ⟨2, _⟩ => ⟨S4x512, .f32⟩
  | .local _ .vmem, ⟨3, _⟩ => ⟨S512x4, .f32⟩
  | .local _ .vmem, ⟨4, _⟩ => ⟨S512x4, .f32⟩
  | .local _ .vmem, ⟨5, _⟩ => ⟨S256x4, .f32⟩
  | .local _ .vmem, ⟨6, _⟩ => ⟨S256x4, .f32⟩
  | .local _ .vmem, ⟨7, _⟩ => ⟨S512x4, .f32⟩
  | .local _ .vmem, ⟨8, _⟩ => ⟨S1x4, .f32⟩
  | .local _ .vmem, ⟨9, _⟩ => ⟨S256x4x512, .f32⟩
  | .local _ .vmem, ⟨10, _⟩ => ⟨S256x4x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_call0_c : Ref sig .tc := ⟨.hbm, 35, rfl⟩
abbrev main_call1_call0_v0 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_6 : Ref sig .tc := ⟨.hbm, 52, rfl⟩
abbrev main_v25 : Ref sig .tc := ⟨.hbm, 53, rfl⟩
abbrev main_v26 : Ref sig .tc := ⟨.hbm, 54, rfl⟩
abbrev main_call3_call0_c : Ref sig .tc := ⟨.hbm, 55, rfl⟩
abbrev main_call3_call0_v0 : Ref sig .tc := ⟨.hbm, 56, rfl⟩
abbrev main_v27 : Ref sig .tc := ⟨.hbm, 57, rfl⟩
abbrev main_c_7 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_v6 : Ref sig .tc := ⟨.hbm, 65, rfl⟩
abbrev main_call4_v7 : Ref sig .tc := ⟨.hbm, 66, rfl⟩
abbrev main_call4_c : Ref sig .tc := ⟨.hbm, 67, rfl⟩
abbrev main_call4_v8 : Ref sig .tc := ⟨.hbm, 68, rfl⟩
abbrev main_call4_v9 : Ref sig .tc := ⟨.hbm, 69, rfl⟩
abbrev main_call4_v10 : Ref sig .tc := ⟨.hbm, 70, rfl⟩
abbrev main_call4_c_0 : Ref sig .tc := ⟨.hbm, 71, rfl⟩
abbrev main_call4_v11 : Ref sig .tc := ⟨.hbm, 72, rfl⟩
abbrev main_call4_v12 : Ref sig .tc := ⟨.hbm, 73, rfl⟩
abbrev main_v28 : Ref sig .tc := ⟨.hbm, 74, rfl⟩
abbrev main_c_8 : Ref sig .tc := ⟨.hbm, 75, rfl⟩
abbrev main_call5_v0 : Ref sig .tc := ⟨.hbm, 76, rfl⟩
abbrev main_call5_c : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_c_1 : Ref sig .tc := ⟨.hbm, 83, rfl⟩
abbrev main_call5_v5 : Ref sig .tc := ⟨.hbm, 84, rfl⟩
abbrev main_call5_v6 : Ref sig .tc := ⟨.hbm, 85, rfl⟩
abbrev main_call5_c_2 : Ref sig .tc := ⟨.hbm, 86, rfl⟩
abbrev main_call5_v7 : Ref sig .tc := ⟨.hbm, 87, rfl⟩
abbrev main_call5_v8 : Ref sig .tc := ⟨.hbm, 88, rfl⟩
abbrev main_call5_c_3 : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_v12 : Ref sig .tc := ⟨.hbm, 93, rfl⟩
abbrev main_call5_v13 : Ref sig .tc := ⟨.hbm, 94, rfl⟩
abbrev main_call5_v14 : Ref sig .tc := ⟨.hbm, 95, rfl⟩
abbrev main_v29 : Ref sig .tc := ⟨.hbm, 96, rfl⟩
abbrev main_c_9 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_v6 : Ref sig .tc := ⟨.hbm, 104, rfl⟩
abbrev main_call6_v7 : Ref sig .tc := ⟨.hbm, 105, rfl⟩
abbrev main_call6_c : Ref sig .tc := ⟨.hbm, 106, rfl⟩
abbrev main_call6_v8 : Ref sig .tc := ⟨.hbm, 107, rfl⟩
abbrev main_call6_v9 : Ref sig .tc := ⟨.hbm, 108, rfl⟩
abbrev main_call6_v10 : Ref sig .tc := ⟨.hbm, 109, rfl⟩
abbrev main_call6_c_0 : Ref sig .tc := ⟨.hbm, 110, rfl⟩
abbrev main_call6_v11 : Ref sig .tc := ⟨.hbm, 111, rfl⟩
abbrev main_call6_v12 : Ref sig .tc := ⟨.hbm, 112, rfl⟩
abbrev main_v30 : Ref sig .tc := ⟨.hbm, 113, rfl⟩
abbrev main_c_10 : Ref sig .tc := ⟨.hbm, 114, rfl⟩
abbrev main_call7_v0 : Ref sig .tc := ⟨.hbm, 115, rfl⟩
abbrev main_call7_c : Ref sig .tc := ⟨.hbm, 116, rfl⟩
abbrev main_call7_v1 : Ref sig .tc := ⟨.hbm, 117, rfl⟩
abbrev main_call7_c_0 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_c_1 : Ref sig .tc := ⟨.hbm, 122, rfl⟩
abbrev main_call7_v5 : Ref sig .tc := ⟨.hbm, 123, rfl⟩
abbrev main_call7_v6 : Ref sig .tc := ⟨.hbm, 124, rfl⟩
abbrev main_call7_c_2 : Ref sig .tc := ⟨.hbm, 125, rfl⟩
abbrev main_call7_v7 : Ref sig .tc := ⟨.hbm, 126, rfl⟩
abbrev main_call7_v8 : Ref sig .tc := ⟨.hbm, 127, rfl⟩
abbrev main_call7_c_3 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_v12 : Ref sig .tc := ⟨.hbm, 132, rfl⟩
abbrev main_call7_v13 : Ref sig .tc := ⟨.hbm, 133, rfl⟩
abbrev main_call7_v14 : Ref sig .tc := ⟨.hbm, 134, rfl⟩
abbrev main_v31 : Ref sig .tc := ⟨.hbm, 135, rfl⟩
abbrev main_c_11 : Ref sig .tc := ⟨.hbm, 136, rfl⟩
abbrev main_v32 : Ref sig .tc := ⟨.hbm, 137, rfl⟩
abbrev main_v33 : Ref sig .tc := ⟨.hbm, 138, rfl⟩
abbrev main_c_12 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_c_13 : Ref sig .tc := ⟨.hbm, 143, rfl⟩
abbrev main_v37 : Ref sig .tc := ⟨.hbm, 144, rfl⟩
abbrev main_v38 : Ref sig .tc := ⟨.hbm, 145, rfl⟩
abbrev main_c_14 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  slices_S4x1024_S4x512_0_0 : S4x1024.Slices ![0, 0] S4x512
  slices_S4x1024_S4x512_0_512 : S4x1024.Slices ![0, 512] S4x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  shapeCasts_S4x512_S4x512 : S4x512.ShapeCasts S4x512
  transposes_S4x512_p1_0_S512x4 : S4x512.Transposes [1, 0] S512x4
  inb_S512x4_S512x4_0_0 : ∀ a, (![0, 0] : Fin 2 → Nat) a + S512x4.size a ≤ S512x4.size a
  h_S512x4 : 0 < S512x4.numel
  shapeCasts_S4_S1x4 : S4.ShapeCasts S1x4
  shapeCasts_S512x4_S512x4 : S512x4.ShapeCasts S512x4
  transposes_S512x4_p1_0_S4x512 : S512x4.Transposes [1, 0] S4x512
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S256x4_S256x1_0_0 : ∀ a, (![0, 0] : Fin 2 → Nat) a + S256x1.size a ≤ S256x4.size a
  h_S256x1 : 0 < S256x1.numel
  shapeCasts_S256x1_S256x1 : S256x1.ShapeCasts S256x1
  slices_S4x512_o0_0_S1x512 : S4x512.Slices ![0, 0] S1x512
  slices_S1x4_o0_0_S1x1 : S1x4.Slices ![0, 0] S1x1
  inpos_S1x1_p0_0 : ∀ a, (![0, 0] : Fin 2 → Nat) a < S1x1.size a
  broadcasts_S256x1_S256x512 : S256x1.Broadcasts S256x512
  shapeCasts_S1x512_S1x512 : S1x512.ShapeCasts S1x512
  broadcasts_S1x512_S256x512 : S1x512.Broadcasts S256x512
  inb_S256x4_S256x1_0_1 : ∀ a, (![0, 1] : Fin 2 → Nat) a + S256x1.size a ≤ S256x4.size a
  slices_S4x512_o1_0_S1x512 : S4x512.Slices ![1, 0] S1x512
  slices_S1x4_o0_1_S1x1 : S1x4.Slices ![0, 1] S1x1
  inb_S256x4_S256x1_0_2 : ∀ a, (![0, 2] : Fin 2 → Nat) a + S256x1.size a ≤ S256x4.size a
  slices_S4x512_o2_0_S1x512 : S4x512.Slices ![2, 0] S1x512
  slices_S1x4_o0_2_S1x1 : S1x4.Slices ![0, 2] S1x1
  inb_S256x4_S256x1_0_3 : ∀ a, (![0, 3] : Fin 2 → Nat) a + S256x1.size a ≤ S256x4.size a
  slices_S4x512_o3_0_S1x512 : S4x512.Slices ![3, 0] S1x512
  slices_S1x4_o0_3_S1x1 : S1x4.Slices ![0, 3] S1x1
  inb_S256x4x512_S256x1x512_0_0_0 : ∀ a, (![0, 0, 0] : Fin 3 → Nat) a + S256x1x512.size a ≤ S256x4x512.size a
  h_S256x1x512 : 0 < S256x1x512.numel
  shapeCasts_S256x1x512_S256x512 : S256x1x512.ShapeCasts S256x512
  shapeCasts_S256x512_S256x1x512 : S256x512.ShapeCasts S256x1x512
  inb_S256x4x512_S256x1x512_0_1_0 : ∀ a, (![0, 1, 0] : Fin 3 → Nat) a + S256x1x512.size a ≤ S256x4x512.size a
  inb_S256x4x512_S256x1x512_0_2_0 : ∀ a, (![0, 2, 0] : Fin 3 → Nat) a + S256x1x512.size a ≤ S256x4x512.size a
  inb_S256x4x512_S256x1x512_0_3_0 : ∀ a, (![0, 3, 0] : Fin 3 → Nat) a + S256x1x512.size a ≤ S256x4x512.size a
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x1_S130816x1_S130816x2_d1 : Shape.Concatenates [S130816x1, S130816x1] S130816x2 1
  gather_S4096x512_S512x1_S512x512_1_0_n_n_0_1_1512_wf : GatherDims.WF S4096x512 S512x1 S512x512 [1] [0] [] [0] [] 1 ![1, 512]
  dot_S512x512_S512x4_S512x4_1_0_0_1_n_n_wf : DotDims.WF S512x512 S512x4 S512x4 [1] [0] [0] [1] [] []
  scatter_S130816_S262144x1_S262144_n_0_0_1_wf : ScatterDims.WF S130816 S262144x1 S262144 [] [0] [0] 1
  gather_S512x4x512_S130816x2_S130816x4_1_02_n_n_02_1_141_wf : GatherDims.WF S512x4x512 S130816x2 S130816x4 [1] [0, 2] [] [0, 2] [] 1 ![1, 4, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x512.size a
  hwx0_1 : ∀ i : grid0.Coords, EltTy.bits .f32 = 32 ∨ (Rect.block (s := S4x512) S4x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S512x4.size a
  hwx0_3 : ∀ i : grid0.Coords, EltTy.bits .f32 = 32 ∨ (Rect.block (s := S512x4) S512x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4.size a ≤ S512x4.size a
  hwx0_4 : ∀ i : grid0.Coords, EltTy.bits .f32 = 32 ∨ (Rect.block (s := S512x4) S512x4.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4.size a ≤ S512x4.size a
  hwx1_0 : ∀ i : grid1.Coords, EltTy.bits .f32 = 32 ∨ (Rect.block (s := S512x4) S256x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4.size a ≤ S512x4.size a
  hwx1_1 : ∀ i : grid1.Coords, EltTy.bits .f32 = 32 ∨ (Rect.block (s := S512x4) S512x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4.size a ≤ S1x4.size a
  hwx1_2 : ∀ i : grid1.Coords, EltTy.bits .f32 = 32 ∨ (Rect.block (s := S1x4) S1x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4x512.size a ≤ S512x4x512.size a
  hwx1_3 : ∀ i : grid1.Coords, EltTy.bits .f32 = 32 ∨ (Rect.block (s := S512x4x512) S256x4x512.size (cc1_transform_3 i) (hinb1_3 i)).WholeWords (EltTy.packing .f32)

variable [Facts₀]

def gather_S4096x512_S512x1_S512x512_1_0_n_n_0_1_1512 : GatherDims S4096x512 S512x1 S512x512 where
  offsetDims := [1]
  collapsedSliceDims := [0]
  operandBatchingDims := []
  startIndicesBatchingDims := []
  startIndexMap := [0]
  indexVectorDim := 1
  sliceSizes := ![1, 512]
  wf := gather_S4096x512_S512x1_S512x512_1_0_n_n_0_1_1512_wf
def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x4x512_S130816x2_S130816x4_1_02_n_n_02_1_141 : GatherDims S512x4x512 S130816x2 S130816x4 where
  offsetDims := [1]
  collapsedSliceDims := [0, 2]
  operandBatchingDims := []
  startIndicesBatchingDims := []
  startIndexMap := [0, 2]
  indexVectorDim := 1
  sliceSizes := ![1, 4, 1]
  wf := gather_S512x4x512_S130816x2_S130816x4_1_02_n_n_02_1_141_wf

abbrev win0_0 : Pipeline.Window sig grid0 :=
  Pipeline.Window.ofSpec (Memref.whole main_v6) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S512x4.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S512x4.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9_0) S256x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S512x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S256x4x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x512 : Shape := ⟨2, ![4096, 512]⟩
abbrev S512 : Shape := ⟨1, ![512]⟩
abbrev S4x1024 : Shape := ⟨2, ![4, 1024]⟩
abbrev S4 : Shape := ⟨1, ![4]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S512x1 : Shape := ⟨2, ![512, 1]⟩
abbrev S130816x1 : Shape := ⟨2, ![130816, 1]⟩
abbrev S130816x512 : Shape := ⟨2, ![130816, 512]⟩
abbrev S130816x1024 : Shape := ⟨2, ![130816, 1024]⟩
abbrev S1024x4 : Shape := ⟨2, ![1024, 4]⟩
abbrev S130816x4 : Shape := ⟨2, ![130816, 4]⟩
abbrev S1x4 : Shape := ⟨2, ![1, 4]⟩

abbrev nBuf : Space → Nat
  | .hbm => 169
  | .vmem => 0
  | .smem => 0
  | _ => 0

abbrev hbmTy0_0 (i : Nat) : BufTy := match i % 128 with
  | 0 => ⟨S4096x512, .f32⟩
  | 1 => ⟨S512, .i32⟩
  | 2 => ⟨S4x1024, .f32⟩
  | 3 => ⟨S4, .f32⟩
  | 4 => ⟨S_, .f32⟩
  | 5 => ⟨S512x512, .f32⟩
  | 6 => ⟨S512x512, .i32⟩
  | 7 => ⟨S_, .i32⟩
  | 8 => ⟨S512x512, .i32⟩
  | 9 => ⟨S512x512, .i32⟩
  | 10 => ⟨S512x512, .i32⟩
  | 11 => ⟨S512x512, .i1⟩
  | 12 => ⟨S_, .f32⟩
  | 13 => ⟨S512x512, .f32⟩
  | 14 => ⟨S512x512, .f32⟩
  | 15 => ⟨S_, .f32⟩
  | 16 => ⟨S512x512, .f32⟩
  | 17 => ⟨S512x512, .i1⟩
  | 18 => ⟨S262144, .i1⟩
  | 19 => ⟨S262144, .i32⟩
  | 20 => ⟨S_, .i32⟩
  | 21 => ⟨S_, .i32⟩
  | 22 => ⟨S262144, .i32⟩
  | 23 => ⟨S_, .i32⟩
  | 24 => ⟨S130816, .i32⟩
  | 25 => ⟨S_, .i32⟩
  | 26 => ⟨S_, .i32⟩
  | 27 => ⟨S262144, .i32⟩
  | 28 => ⟨S262144, .i32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S_, .i32⟩
  | 38 => ⟨S262144, .i32⟩
  | 39 => ⟨S130816, .i32⟩
  | 40 => ⟨S_, .i32⟩
  | 41 => ⟨S_, .i32⟩
  | 42 => ⟨S130816, .i32⟩
  | 43 => ⟨S_, .i32⟩
  | 44 => ⟨S130816, .i32⟩
  | 45 => ⟨S130816, .i32⟩
  | 46 => ⟨S130816, .i32⟩
  | 47 => ⟨S_, .i32⟩
  | 48 => ⟨S130816, .i32⟩
  | 49 => ⟨S130816, .i1⟩
  | 50 => ⟨S130816, .i32⟩
  | 51 => ⟨S130816, .i32⟩
  | 52 => ⟨S_, .i32⟩
  | 53 => ⟨S130816, .i32⟩
  | 54 => ⟨S130816, .i1⟩
  | 55 => ⟨S130816, .i1⟩
  | 56 => ⟨S_, .i32⟩
  | 57 => ⟨S130816, .i32⟩
  | 58 => ⟨S130816, .i32⟩
  | 59 => ⟨S130816, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S130816, .i32⟩
  | 67 => ⟨S130816, .i32⟩
  | 68 => ⟨S_, .i32⟩
  | 69 => ⟨S130816, .i32⟩
  | 70 => ⟨S130816, .i1⟩
  | 71 => ⟨S_, .i32⟩
  | 72 => ⟨S130816, .i32⟩
  | 73 => ⟨S130816, .i1⟩
  | 74 => ⟨S_, .i32⟩
  | 75 => ⟨S_, .i1⟩
  | 76 => ⟨S130816, .i1⟩
  | 77 => ⟨S130816, .i1⟩
  | 78 => ⟨S130816, .i1⟩
  | 79 => ⟨S130816, .i32⟩
  | 80 => ⟨S130816, .i32⟩
  | 81 => ⟨S130816, .i32⟩
  | 82 => ⟨S_, .i32⟩
  | 83 => ⟨S130816, .i32⟩
  | 84 => ⟨S130816, .i32⟩
  | 85 => ⟨S130816, .i32⟩
  | 86 => ⟨S_, .i32⟩
  | 87 => ⟨S130816, .i32⟩
  | 88 => ⟨S130816, .i1⟩
  | 89 => ⟨S130816, .i32⟩
  | 90 => ⟨S130816, .i32⟩
  | 91 => ⟨S_, .i32⟩
  | 92 => ⟨S130816, .i32⟩
  | 93 => ⟨S130816, .i1⟩
  | 94 => ⟨S130816, .i1⟩
  | 95 => ⟨S_, .i32⟩
  | 96 => ⟨S130816, .i32⟩
  | 97 => ⟨S130816, .i32⟩
  | 98 => ⟨S130816, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S130816, .i32⟩
  | 106 => ⟨S130816, .i32⟩
  | 107 => ⟨S_, .i32⟩
  | 108 => ⟨S130816, .i32⟩
  | 109 => ⟨S130816, .i1⟩
  | 110 => ⟨S_, .i32⟩
  | 111 => ⟨S130816, .i32⟩
  | 112 => ⟨S130816, .i1⟩
  | 113 => ⟨S_, .i32⟩
  | 114 => ⟨S_, .i1⟩
  | 115 => ⟨S130816, .i1⟩
  | 116 => ⟨S130816, .i1⟩
  | 117 => ⟨S130816, .i1⟩
  | 118 => ⟨S130816, .i32⟩
  | 119 => ⟨S130816, .i32⟩
  | 120 => ⟨S130816, .i32⟩
  | 121 => ⟨S_, .i32⟩
  | 122 => ⟨S512, .i32⟩
  | 123 => ⟨S512, .i1⟩
  | 124 => ⟨S_, .i32⟩
  | 125 => ⟨S512, .i32⟩
  | 126 => ⟨S512, .i32⟩
  | 127 => ⟨S512, .i32⟩
  | _ => ⟨S4096x512, .f32⟩

abbrev hbmTy0_1 (i : Nat) : BufTy := match i % 128 with
  | 0 => ⟨S512x1, .i32⟩
  | 1 => ⟨S512x512, .f32⟩
  | 2 => ⟨S_, .i32⟩
  | 3 => ⟨S130816, .i32⟩
  | 4 => ⟨S130816, .i1⟩
  | 5 => ⟨S_, .i32⟩
  | 6 => ⟨S130816, .i32⟩
  | 7 => ⟨S130816, .i32⟩
  | 8 => ⟨S130816, .i32⟩
  | 9 => ⟨S130816x1, .i32⟩
  | 10 => ⟨S130816x512, .f32⟩
  | 11 => ⟨S_, .i32⟩
  | 12 => ⟨S130816, .i32⟩
  | 13 => ⟨S130816, .i1⟩
  | 14 => ⟨S_, .i32⟩
  | 15 => ⟨S130816, .i32⟩
  | 16 => ⟨S130816, .i32⟩
  | 17 => ⟨S130816, .i32⟩
  | 18 => ⟨S130816x1, .i32⟩
  | 19 => ⟨S130816x512, .f32⟩
  | 20 => ⟨S130816x1024, .f32⟩
  | 21 => ⟨S1024x4, .f32⟩
  | 22 => ⟨S130816x4, .f32⟩
  | 23 => ⟨S1x4, .f32⟩
  | 24 => ⟨S130816x4, .f32⟩
  | 25 => ⟨S130816x4, .f32⟩
  | 26 => ⟨S_, .f32⟩
  | 27 => ⟨S130816, .f32⟩
  | 28 => ⟨S_, .f32⟩
  | 29 => ⟨S130816, .f32⟩
  | 30 => ⟨S130816, .f32⟩
  | 31 => ⟨S130816x1, .f32⟩
  | 32 => ⟨S130816x4, .f32⟩
  | 33 => ⟨S130816x4, .f32⟩
  | 34 => ⟨S130816x4, .f32⟩
  | 35 => ⟨S_, .f32⟩
  | 36 => ⟨S130816, .f32⟩
  | 37 => ⟨S130816x1, .f32⟩
  | 38 => ⟨S130816x1, .f32⟩
  | 39 => ⟨S130816x4, .f32⟩
  | 40 => ⟨S130816x4, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_call1_v0 : Ref sig .tc := ⟨.hbm, 18, rfl⟩
abbrev main_call1_v1 : Ref sig .tc := ⟨.hbm, 19, rfl⟩
abbrev main_call1_call0_c : Ref sig .tc := ⟨.hbm, 20, rfl⟩
abbrev main_call1_call0_v0 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_v6 : Ref sig .tc := ⟨.hbm, 28, rfl⟩
abbrev main_c_2 : Ref sig .tc := ⟨.hbm, 29, rfl⟩
abbrev main_v7 : Ref sig .tc := ⟨.hbm, 30, rfl⟩
abbrev main_v8 : Ref sig .tc := ⟨.hbm, 31, rfl⟩
abbrev main_c_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_4 : Ref sig .tc := ⟨.hbm, 37, rfl⟩
abbrev main_v13 : Ref sig .tc := ⟨.hbm, 38, rfl⟩
abbrev main_v14 : Ref sig .tc := ⟨.hbm, 39, rfl⟩
abbrev main_call3_call0_c : Ref sig .tc := ⟨.hbm, 40, rfl⟩
abbrev main_call3_call0_v0 : Ref sig .tc := ⟨.hbm, 41, rfl⟩
abbrev main_v15 : Ref sig .tc := ⟨.hbm, 42, rfl⟩
abbrev main_c_5 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_call4_v5 : Ref sig .tc := ⟨.hbm, 49, rfl⟩
abbrev main_call4_v6 : Ref sig .tc := ⟨.hbm, 50, rfl⟩
abbrev main_call4_v7 : Ref sig .tc := ⟨.hbm, 51, rfl⟩
abbrev main_call4_c : Ref sig .tc := ⟨.hbm, 52, rfl⟩
abbrev main_call4_v8 : Ref sig .tc := ⟨.hbm, 53, rfl⟩
abbrev main_call4_v9 : Ref sig .tc := ⟨.hbm, 54, rfl⟩
abbrev main_call4_v10 : Ref sig .tc := ⟨.hbm, 55, rfl⟩
abbrev main_call4_c_0 : Ref sig .tc := ⟨.hbm, 56, rfl⟩
abbrev main_call4_v11 : Ref sig .tc := ⟨.hbm, 57, rfl⟩
abbrev main_call4_v12 : Ref sig .tc := ⟨.hbm, 58, rfl⟩
abbrev main_v16 : Ref sig .tc := ⟨.hbm, 59, rfl⟩
abbrev main_c_6 : Ref sig .tc := ⟨.hbm, 60, rfl⟩
abbrev main_call5_v0 : Ref sig .tc := ⟨.hbm, 61, rfl⟩
abbrev main_call5_c : Ref sig .tc := ⟨.hbm, 62, rfl⟩
abbrev main_call5_v1 : Ref sig .tc := ⟨.hbm, 63, rfl⟩
abbrev main_call5_c_0 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_c_1 : Ref sig .tc := ⟨.hbm, 68, rfl⟩
abbrev main_call5_v5 : Ref sig .tc := ⟨.hbm, 69, rfl⟩
abbrev main_call5_v6 : Ref sig .tc := ⟨.hbm, 70, rfl⟩
abbrev main_call5_c_2 : Ref sig .tc := ⟨.hbm, 71, rfl⟩
abbrev main_call5_v7 : Ref sig .tc := ⟨.hbm, 72, rfl⟩
abbrev main_call5_v8 : Ref sig .tc := ⟨.hbm, 73, rfl⟩
abbrev main_call5_c_3 : Ref sig .tc := ⟨.hbm, 74, rfl⟩
abbrev main_call5_v9 : Ref sig .tc := ⟨.hbm, 75, rfl⟩
abbrev main_call5_v10 : Ref sig .tc := ⟨.hbm, 76, rfl⟩
abbrev main_call5_v11 : Ref sig .tc := ⟨.hbm, 77, rfl⟩
abbrev main_call5_v12 : Ref sig .tc := ⟨.hbm, 78, rfl⟩
abbrev main_call5_v13 : Ref sig .tc := ⟨.hbm, 79, rfl⟩
abbrev main_call5_v14 : Ref sig .tc := ⟨.hbm, 80, rfl⟩
abbrev main_v17 : Ref sig .tc := ⟨.hbm, 81, rfl⟩
abbrev main_c_7 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_call6_v6 : Ref sig .tc := ⟨.hbm, 89, rfl⟩
abbrev main_call6_v7 : Ref sig .tc := ⟨.hbm, 90, rfl⟩
abbrev main_call6_c : Ref sig .tc := ⟨.hbm, 91, rfl⟩
abbrev main_call6_v8 : Ref sig .tc := ⟨.hbm, 92, rfl⟩
abbrev main_call6_v9 : Ref sig .tc := ⟨.hbm, 93, rfl⟩
abbrev main_call6_v10 : Ref sig .tc := ⟨.hbm, 94, rfl⟩
abbrev main_call6_c_0 : Ref sig .tc := ⟨.hbm, 95, rfl⟩
abbrev main_call6_v11 : Ref sig .tc := ⟨.hbm, 96, rfl⟩
abbrev main_call6_v12 : Ref sig .tc := ⟨.hbm, 97, rfl⟩
abbrev main_v18 : Ref sig .tc := ⟨.hbm, 98, rfl⟩
abbrev main_c_8 : Ref sig .tc := ⟨.hbm, 99, rfl⟩
abbrev main_call7_v0 : Ref sig .tc := ⟨.hbm, 100, rfl⟩
abbrev main_call7_c : Ref sig .tc := ⟨.hbm, 101, rfl⟩
abbrev main_call7_v1 : Ref sig .tc := ⟨.hbm, 102, rfl⟩
abbrev main_call7_c_0 : Ref sig .tc := ⟨.hbm, 103, rfl⟩
abbrev main_call7_v2 : Ref sig .tc := ⟨.hbm, 104, rfl⟩
abbrev main_call7_v3 : Ref sig .tc := ⟨.hbm, 105, rfl⟩
abbrev main_call7_v4 : Ref sig .tc := ⟨.hbm, 106, rfl⟩
abbrev main_call7_c_1 : Ref sig .tc := ⟨.hbm, 107, rfl⟩
abbrev main_call7_v5 : Ref sig .tc := ⟨.hbm, 108, rfl⟩
abbrev main_call7_v6 : Ref sig .tc := ⟨.hbm, 109, rfl⟩
abbrev main_call7_c_2 : Ref sig .tc := ⟨.hbm, 110, rfl⟩
abbrev main_call7_v7 : Ref sig .tc := ⟨.hbm, 111, rfl⟩
abbrev main_call7_v8 : Ref sig .tc := ⟨.hbm, 112, rfl⟩
abbrev main_call7_c_3 : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_v12 : Ref sig .tc := ⟨.hbm, 117, rfl⟩
abbrev main_call7_v13 : Ref sig .tc := ⟨.hbm, 118, rfl⟩
abbrev main_call7_v14 : Ref sig .tc := ⟨.hbm, 119, rfl⟩
abbrev main_v19 : Ref sig .tc := ⟨.hbm, 120, rfl⟩
abbrev main_c_9 : Ref sig .tc := ⟨.hbm, 121, rfl⟩
abbrev main_v20 : Ref sig .tc := ⟨.hbm, 122, rfl⟩
abbrev main_v21 : Ref sig .tc := ⟨.hbm, 123, rfl⟩
abbrev main_c_10 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_c_11 : Ref sig .tc := ⟨.hbm, 130, rfl⟩
abbrev main_v27 : Ref sig .tc := ⟨.hbm, 131, rfl⟩
abbrev main_v28 : Ref sig .tc := ⟨.hbm, 132, rfl⟩
abbrev main_c_12 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_c_13 : Ref sig .tc := ⟨.hbm, 139, rfl⟩
abbrev main_v34 : Ref sig .tc := ⟨.hbm, 140, rfl⟩
abbrev main_v35 : Ref sig .tc := ⟨.hbm, 141, rfl⟩
abbrev main_c_14 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_call8_cst : Ref sig .tc := ⟨.hbm, 154, rfl⟩
abbrev main_call8_v0 : Ref sig .tc := ⟨.hbm, 155, rfl⟩
abbrev main_call8_cst_0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_v6 : Ref sig .tc := ⟨.hbm, 162, rfl⟩
abbrev main_call8_cst_1 : Ref sig .tc := ⟨.hbm, 163, rfl⟩
abbrev main_call8_v7 : Ref sig .tc := ⟨.hbm, 164, rfl⟩
abbrev main_call8_v8 : Ref sig .tc := ⟨.hbm, 165, rfl⟩
abbrev main_call8_v9 : Ref sig .tc := ⟨.hbm, 166, rfl⟩
abbrev main_call8_v10 : Ref sig .tc := ⟨.hbm, 167, rfl⟩
abbrev main_v47 : Ref sig .tc := ⟨.hbm, 168, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S_S512 : S_.BroadcastsInDim S512 (![] : Fin 0 → Fin S512.rank)
  bcast_S512_S512x1_0 : S512.BroadcastsInDim S512x1 (![0] : Fin 1 → Fin S512x1.rank)
  bcast_S130816_S130816x1_0 : S130816.BroadcastsInDim S130816x1 (![0] : Fin 1 → Fin S130816x1.rank)
  concatenates_S130816x512_S130816x512_S130816x1024_d1 : Shape.Concatenates [S130816x512, S130816x512] S130816x1024 1
  transposes_S4x1024_S1024x4_1_0 : S4x1024.Transposes [1, 0] S1024x4
  bcast_S4_S1x4_1 : S4.BroadcastsInDim S1x4 (![1] : Fin 1 → Fin S1x4.rank)
  bcast_S1x4_S130816x4_0_1 : S1x4.BroadcastsInDim S130816x4 (![0, 1] : Fin 2 → Fin S130816x4.rank)
  reducesTo_S130816x4_S130816_d1 : S130816x4.ReducesTo [1] S130816
  bcast_S130816x1_S130816x4_0_1 : S130816x1.BroadcastsInDim S130816x4 (![0, 1] : Fin 2 → Fin S130816x4.rank)
  scatter_S130816_S262144x1_S262144_n_0_0_1_wf : ScatterDims.WF S130816 S262144x1 S262144 [] [0] [0] 1
  gather_S4096x512_S512x1_S512x512_1_0_n_n_0_1_1512_wf : GatherDims.WF S4096x512 S512x1 S512x512 [1] [0] [] [0] [] 1 ![1, 512]
  gather_S512x512_S130816x1_S130816x512_1_0_n_n_0_1_1512_wf : GatherDims.WF S512x512 S130816x1 S130816x512 [1] [0] [] [0] [] 1 ![1, 512]
  dot_S130816x1024_S1024x4_S130816x4_1_0_0_1_n_n_wf : DotDims.WF S130816x1024 S1024x4 S130816x4 [1] [0] [0] [1] [] []

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S4096x512_S512x1_S512x512_1_0_n_n_0_1_1512 : GatherDims S4096x512 S512x1 S512x512 where
  offsetDims := [1]
  collapsedSliceDims := [0]
  operandBatchingDims := []
  startIndicesBatchingDims := []
  startIndexMap := [0]
  indexVectorDim := 1
  sliceSizes := ![1, 512]
  wf := gather_S4096x512_S512x1_S512x512_1_0_n_n_0_1_1512_wf
def gather_S512x512_S130816x1_S130816x512_1_0_n_n_0_1_1512 : GatherDims S512x512 S130816x1 S130816x512 where
  offsetDims := [1]
  collapsedSliceDims := [0]
  operandBatchingDims := []
  startIndicesBatchingDims := []
  startIndexMap := [0]
  indexVectorDim := 1
  sliceSizes := ![1, 512]
  wf := gather_S512x512_S130816x1_S130816x512_1_0_n_n_0_1_1512_wf
def dot_S130816x1024_S1024x4_S130816x4_1_0_0_1_n_n : DotDims S130816x1024 S1024x4 S130816x4 where
  lhsContracting := [1]
  rhsContracting := [0]
  lhsNonContracting := [0]
  rhsNonContracting := [1]
  lhsBatch := []
  rhsBatch := []
  wf := dot_S130816x1024_S1024x4_S130816x4_1_0_0_1_n_n_wf

class Facts : Prop extends Facts₀ where

variable [Facts]
-- ==== Proof.KRun.lean ====
/-
  The idealized kernel's run with its result named.

  Every weakly fair execution of the kernel's program terminates without a fault; in the final state the result
  buffer holds what the program's last stretch of host operations leaves there — the contents `W21 m ρ c` at the
  result's reference, the fold of the program's stretches and of its two regions' write-backs from the launch
  memory — and the four argument arrays are as launched.
-/
import proofs.«160593_j4922032521468_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel's program from any memory with zero counters: it terminates, nothing faults, the result
    buffer ends at the last boundary's contents and the arguments end as launched. -/
theorem run_named : θ_run defs (onTc (τ := τ) (main (F := F))) ⟨m, fun _ => 0, ρ⟩ (fun r => ∀ c : Dev nD,
      r.2.mem ((c.tc : Thread nD τ).loc main_v45) = W21 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v45 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c)⟩)

end Cert.KernelIdeal.RunValue

end
-- ==== Proof.Spec.lean ====
/-
  The mathematics shared by both programs, over the extended reals.

  From 512 selected rows `A` of an embedding table, a weight matrix `W : [4, 1024]` and a bias `b : [4]`, a pair
  `(i, j)` of rows gets four logits: the dot product of row `i` with the first 512 columns of row `c` of `W`, plus
  the dot product of row `j` with the last 512 columns, plus `b c`; the result is their log-softmax over the four
  classes. Nothing here mentions a program.
-/
import Idealize.ShloMosaic.PureOps.Ideal
import Idealize.ShloMosaic.Lib.ValueIdx

noncomputable section

open scoped BigOperators

namespace Cert.PairSpec

open Idealize.ShloMosaic Idealize.ShloMosaic.ValueIdx

/-- A signed 32-bit index word read as a row number and clamped into `0 … 511` (a gather of one row out of 512). -/
def row (w : BitVec 32) : Fin 512 := ⟨min w.toInt.toNat (512 - 1), by omega⟩

/-- Entry `(i, c)` of `A · Hᵀ` for `A : [512, 512]`, `H : [4, 512]`: the dot product of row `i` of `A` with row `c` of `H`. -/
def mmAt (A : (⟨2, ![512, 512]⟩ : Shape).Idx → EReal) (H : (⟨2, ![4, 512]⟩ : Shape).Idx → EReal)
    (i : Fin 512) (c : Fin 4) : EReal :=
  ∑ k : Fin 512, A (ix2 i k) * H (ix2 c k)

/-- The largest of four numbers, taken left to right. -/
def max4 (l : Fin 4 → EReal) : EReal := max (max (max (l 0) (l 1)) (l 2)) (l 3)

/-- The log-softmax of four logits at class `c`: the logit minus the maximum, minus the logarithm of the sum of the
    four exponentials of (logit minus maximum), the sum taken left to right. -/
def lsm4 (l : Fin 4 → EReal) (c : Fin 4) : EReal :=
  (l c - max4 l)
    - Ideal.log (Ideal.exp (l 0 - max4 l) + Ideal.exp (l 1 - max4 l) + Ideal.exp (l 2 - max4 l) + Ideal.exp (l 3 - max4 l))

/-- The pair table at `(i, c, j)` from the two projections `lp, rp : [512, 4]` and the bias row `b2 : [1, 4]`:
    the log-softmax over `c'` of `lp[i, c'] + rp[j, c'] + b2[0, c']`, at class `c`. -/
def pairAt (lp rp : (⟨2, ![512, 4]⟩ : Shape).Idx → EReal) (b2 : (⟨2, ![1, 4]⟩ : Shape).Idx → EReal)
    (i : Fin 512) (c : Fin 4) (j : Fin 512) : EReal :=
  lsm4 (fun c' => lp (ix2 i c') + rp (ix2 j c') + b2 (ix2 (0 : Fin 1) c')) c

/-- The result for the pair of rows `(i, j)` at class `c`, from the selected rows `A`, the weights `W` and the bias `b`. -/
def outAt (A : (⟨2, ![512, 512]⟩ : Shape).Idx → EReal) (W : (⟨2, ![4, 1024]⟩ : Shape).Idx → EReal)
    (b : (⟨1, ![4]⟩ : Shape).Idx → EReal) (i j : Fin 512) (c : Fin 4) : EReal :=
  lsm4 (fun c' =>
    (∑ k : Fin 512, A (ix2 i k) * W (ix2 c' (⟨k.val, by omega⟩ : Fin 1024)))
      + (∑ k : Fin 512, A (ix2 j k) * W (ix2 c' (⟨512 + k.val, by omega⟩ : Fin 1024)))
      + b (ix1 c')) c

end Cert.PairSpec

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibGatherPairs.lean ====
/-
  A gather of single entries along the first and last axes of a three-axis array, read at an index.

  The operand is `[N, C, K]`, the start indices are `[M, 2]` (row `j` holds a pair of signed index words) and the
  result is `[M, C]`: entry `(j, c)` of the result is the operand at `(n, c, k)`, where `n` is the first word of row
  `j` read signed and clamped into `[0, N − 1]` and `k` is the second word clamped into `[0, K − 1]`. This is the
  dimension record of `x[ii, :, jj]` for two index vectors `ii, jj` stacked side by side.
-/
import Idealize.ShloMosaic.PureOps.Ideal
import Idealize.ShloMosaic.Lib.ValueIdx
import Idealize.ShloMosaic.Lib.Pipeline.Value

noncomputable section

namespace Cert.LibGatherPairs

open Idealize.ShloMosaic Idealize.ShloMosaic.ValueIdx

/-- The dimension numbers of the gather: the result's axis 1 is the offset axis (the operand's axis 1, slice size
    `C`), the operand's axes 0 and 2 are collapsed (slice size 1) and named, in this order, by the two components of
    the index vector. -/
abbrev gathPairs (N C K M : Nat)
    (wf : GatherDims.WF ⟨3, ![N, C, K]⟩ ⟨2, ![M, 2]⟩ ⟨2, ![M, C]⟩ [1] [0, 2] [] [0, 2] [] 1 ![1, C, 1]) :
    GatherDims ⟨3, ![N, C, K]⟩ ⟨2, ![M, 2]⟩ ⟨2, ![M, C]⟩ where
  offsetDims := [1]
  collapsedSliceDims := [0, 2]
  operandBatchingDims := []
  startIndicesBatchingDims := []
  startIndexMap := [0, 2]
  indexVectorDim := 1
  sliceSizes := ![1, C, 1]
  wf := wf

/-- THE PAIR GATHER READ AT `(j, c)`: the operand at the clamped first word of row `j`, at `c`, and at the clamped
    second word of row `j`. -/
theorem gatherPairs_apply {α : Type} {N C K M w : Nat} (hN : 0 < N) (hK : 0 < K)
    (wf : GatherDims.WF ⟨3, ![N, C, K]⟩ ⟨2, ![M, 2]⟩ ⟨2, ![M, C]⟩ [1] [0, 2] [] [0, 2] [] 1 ![1, C, 1])
    (x : (⟨3, ![N, C, K]⟩ : Shape).Idx → α) (idx : IVec ⟨2, ![M, 2]⟩ w) (j : Fin M) (c : Fin C) :
    Host.gather (gathPairs N C K M wf) x idx (ix2 j c)
      = x (ix3 (⟨min (idx (ix2 j (0 : Fin 2))).toInt.toNat (N - 1), by omega⟩ : Fin N) c
            (⟨min (idx (ix2 j (1 : Fin 2))).toInt.toNat (K - 1), by omega⟩ : Fin K)) := by
  unfold Host.gather
  congr 1
  funext a
  match a with
  | ⟨0, _⟩ =>
    refine Fin.ext ?_
    show (gathPairs N C K M wf).start (ix2 j c) idx 0 + (gathPairs N C K M wf).batchCoord (ix2 j c) 0
      + (gathPairs N C K M wf).offCoord (ix2 j c) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 3) ∈ (gathPairs N C K M wf).startIndexMap by simp)]
    have hsi : (gathPairs N C K M wf).siIdx (ix2 j c) ⟨List.idxOf (0 : Fin 3) (gathPairs N C K M wf).startIndexMap,
        List.idxOf_lt_length_iff.2 (by simp)⟩ = ix2 j (0 : Fin 2) := by
      funext b; refine Fin.ext ?_
      match b with
      | ⟨0, _⟩ => rfl
      | ⟨1, _⟩ => rfl
    rw [hsi]
    rfl
  | ⟨1, _⟩ =>
    refine Fin.ext ?_
    show (gathPairs N C K M wf).start (ix2 j c) idx 1 + (gathPairs N C K M wf).batchCoord (ix2 j c) 1
      + (gathPairs N C K M wf).offCoord (ix2 j c) 1 = c.val
    rw [GatherDims.batchCoord_eq_zero _ _ _ List.not_mem_nil]
    have hst : (gathPairs N C K M wf).start (ix2 j c) idx 1 = 0 := by
      unfold GatherDims.start
      rw [dif_neg]
      simp
    have hoff : (gathPairs N C K M wf).offCoord (ix2 j c) 1 = c.val := by
      unfold GatherDims.offCoord
      split
      · rfl
      · next h => exact absurd ((GatherDims.mem_sKept _ _).2 ⟨by simp, List.not_mem_nil⟩) h
    rw [hst, hoff]
    simp
  | ⟨2, _⟩ =>
    refine Fin.ext ?_
    show (gathPairs N C K M wf).start (ix2 j c) idx 2 + (gathPairs N C K M wf).batchCoord (ix2 j c) 2
      + (gathPairs N C K M wf).offCoord (ix2 j c) 2 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (2 : Fin 3) ∈ (gathPairs N C K M wf).startIndexMap by simp)]
    have hsi : (gathPairs N C K M wf).siIdx (ix2 j c) ⟨List.idxOf (2 : Fin 3) (gathPairs N C K M wf).startIndexMap,
        List.idxOf_lt_length_iff.2 (by simp)⟩ = ix2 j (1 : Fin 2) := by
      funext b; refine Fin.ext ?_
      match b with
      | ⟨0, _⟩ => rfl
      | ⟨1, _⟩ => rfl
    rw [hsi]
    rfl

/-- A record spelt with the literal lists and its own conditions is, by definition, `gathPairs` at those conditions. -/
example (wf : GatherDims.WF ⟨3, ![512, 4, 512]⟩ ⟨2, ![130816, 2]⟩ ⟨2, ![130816, 4]⟩ [1] [0, 2] [] [0, 2] [] 1 ![1, 4, 1]) :
    ({ offsetDims := [1], collapsedSliceDims := [0, 2], operandBatchingDims := [], startIndicesBatchingDims := [],
       startIndexMap := [0, 2], indexVectorDim := 1, sliceSizes := ![1, 4, 1], wf := wf } :
        GatherDims ⟨3, ![512, 4, 512]⟩ ⟨2, ![130816, 2]⟩ ⟨2, ![130816, 4]⟩)
      = gathPairs 512 4 512 130816 wf := rfl

end Cert.LibGatherPairs

end
-- ==== Proof.KTail.lean ====
/-
  The result array of the idealized kernel's program, read at an entry.

  The program's last stretch of host operations turns the two vectors of row numbers into columns (a negative
  number first moved up by 512), sets the columns side by side into an array of pairs, and gathers from the pair
  table `full : [512, 4, 512]` the entries `full[i, :, j]` for each pair `(i, j)`. So entry `(p, c)` of the result
  is `full` at `(i, c, j)` with `i`, `j` the two index words of row `p`, each read signed and clamped to `0 … 511`.
-/
import proofs.«160593_j4922032521468_2_alg».proof.Proof.Gen.KernelIdeal.Frame
import proofs.«160593_j4922032521468_2_alg».proof.Proof.Spec
import proofs.«160593_j4922032521468_2_alg».proof.Proof.LibIndexOps
import proofs.«160593_j4922032521468_2_alg».proof.Proof.LibGatherPairs
import Idealize.ShloMosaic.Lib.StableHlo.Run
import Idealize.ShloMosaic.Lib.Pipeline.Value
import Idealize.ShloMosaic.Lib.ValueIdx

set_option maxRecDepth 16384

noncomputable section

namespace Cert.KernelIdeal.TailValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The column of first row numbers after the last stretch: the vector `main_v29` with negatives moved up by 512. -/
theorem v42_eq (U : Valuation τ sig (Elt F)) : after hostOps2_16 U (Proc.devRef .tc main_v42) =
    broadcastInDim S130816x1 ![0] bcast_S130816_S130816x1_0
      (select
        (cmpi CmpIPredicate.slt (U (Proc.tc.devRef main_v29))
          (broadcastInDim S130816 ![] bcast_S_S130816 (constantI S_ 32 0#32)))
        (addi (U (Proc.tc.devRef main_v29))
          (broadcastInDim S130816 ![] bcast_S_S130816 (constantI S_ 32 512#32)))
        (U (Proc.tc.devRef main_v29))) := by
  dsimp only [hostOps2_16]
  after_results

/-- The column of second row numbers after the last stretch: the vector `main_v31` with negatives moved up by 512. -/
theorem v43_eq (U : Valuation τ sig (Elt F)) : after hostOps2_16 U (Proc.devRef .tc main_v43) =
    broadcastInDim S130816x1 ![0] bcast_S130816_S130816x1_0
      (select
        (cmpi CmpIPredicate.slt (U (Proc.tc.devRef main_v31))
          (broadcastInDim S130816 ![] bcast_S_S130816 (constantI S_ 32 0#32)))
        (addi (U (Proc.tc.devRef main_v31))
          (broadcastInDim S130816 ![] bcast_S_S130816 (constantI S_ 32 512#32)))
        (U (Proc.tc.devRef main_v31))) := by
  dsimp only [hostOps2_16]
  after_results

/-- The result array after the last stretch: the pair gather of the pair table at the two columns set side by side. -/
theorem v45_eq (U : Valuation τ sig (Elt F)) : after hostOps2_16 U (Proc.devRef .tc main_v45) =
    Host.gather gather_S512x4x512_S130816x2_S130816x4_1_02_n_n_02_1_141 (U (Proc.tc.devRef main_v11))
      (concatenate S130816x2 1
        [⟨S130816x1, after hostOps2_16 U (Proc.devRef .tc main_v42)⟩, ⟨S130816x1, after hostOps2_16 U (Proc.devRef .tc main_v43)⟩]
        concatenates_S130816x1_S130816x1_S130816x2_d1) := by
  rw [v42_eq, v43_eq]
  dsimp only [hostOps2_16]
  after_results

/-- ENTRY `(p, cl)` OF THE RESULT: the pair table at `(i, cl, j)`, with `i` and `j` the clamped words of row `p` in the
    two columns. -/
theorem out_read (U : Valuation τ sig (Elt F)) (p : Fin 130816) (cl : Fin 4) :
    after hostOps2_16 U (Proc.devRef .tc main_v45) (ix2 p cl)
      = U (Proc.devRef .tc main_v11)
          (ix3 (Cert.PairSpec.row (after hostOps2_16 U (Proc.devRef .tc main_v42) (ix2 p (0 : Fin 1)))) cl
            (Cert.PairSpec.row (after hostOps2_16 U (Proc.devRef .tc main_v43) (ix2 p (0 : Fin 1))))) := by
  rw [v45_eq]
  generalize after hostOps2_16 U (Proc.devRef .tc main_v42) = a
  generalize after hostOps2_16 U (Proc.devRef .tc main_v43) = b
  generalize U (Proc.devRef .tc main_v11) = x
  refine (Cert.LibGatherPairs.gatherPairs_apply (N := 512) (C := 4) (K := 512) (M := 130816) (by decide) (by decide)
    gather_S512x4x512_S130816x2_S130816x4_1_02_n_n_02_1_141.wf x _ p cl).trans ?_
  have h0 := Cert.LibIndexOps.concatCols_apply 130816 a b concatenates_S130816x1_S130816x1_S130816x2_d1 p 0
  have h1 := Cert.LibIndexOps.concatCols_apply 130816 a b concatenates_S130816x1_S130816x1_S130816x2_d1 p 1
  have hA : (⟨min (concatenate S130816x2 1 [⟨S130816x1, a⟩, ⟨S130816x1, b⟩] concatenates_S130816x1_S130816x1_S130816x2_d1
      (ix2 p (0 : Fin 2))).toInt.toNat (512 - 1), by omega⟩ : Fin 512) = Cert.PairSpec.row (a (ix2 p (0 : Fin 1))) :=
    Fin.ext (by show min _ _ = min _ _; rw [h0]; rfl)
  have hB : (⟨min (concatenate S130816x2 1 [⟨S130816x1, a⟩, ⟨S130816x1, b⟩] concatenates_S130816x1_S130816x1_S130816x2_d1
      (ix2 p (1 : Fin 2))).toInt.toNat (512 - 1), by omega⟩ : Fin 512) = Cert.PairSpec.row (b (ix2 p (0 : Fin 1))) :=
    Fin.ext (by show min _ _ = min _ _; rw [h1]; rfl)
  exact congrArg x (congrArg₂ (fun u v => ix3 u cl v) hA hB)

end Cert.KernelIdeal.TailValue

end
-- ==== Proof.KLinks.lean ====
/-
  The contents of the kernel program's buffers at the boundaries of its two regions, read through the stretches of host
  operations between them.

  A stretch leaves every buffer it does not write as it found it; a region leaves in each of its arrays what its
  write-backs fold to and every other buffer as entered. So the second region's output array is still what that region
  left when the last stretch begins; the two projection arrays enter the second region as the first region left them;
  the bias row is the bias argument recast to one row; the selected rows are the gather of the embedding argument at the
  wrapped index argument; and the two halves of the weights are the two column slices of the weight argument.
-/
import proofs.«160593_j4922032521468_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Links

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F] (m : (ℓ : Loc nD τ sig) → Buf (Elt F) ℓ) (ρ : Dev nD → PrngReg)

/-- A stretch of host operations leaves a buffer that none of its operations writes as it found it: the buffer is
    compared with each operation's result buffer. -/
local macro "keep_step " ops:ident buf:ident : tactic =>
  `(tactic| exact StableHlo.after_of_forall_not_mem (b := Proc.devRef .tc $buf) _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The second region's output is untouched until the last stretch -/

/-- No host operation between the second region and the last stretch writes the second region's output array: when
    the last stretch begins it holds what the region's write-backs fold to. -/
theorem v11_kept (c : Dev nD) : W20 m ρ c (Proc.devRef .tc main_v11) = (dat1 (V3 m ρ) c).arrAt 3 cfg1.N :=
  calc W20 m ρ c (Proc.devRef .tc main_v11)
    _ = W19 m ρ c (Proc.devRef .tc main_v11) := by keep_step hostOps2_15 main_v11
    _ = W18 m ρ c (Proc.devRef .tc main_v11) := by keep_step hostOps2_14 main_v11
    _ = W17 m ρ c (Proc.devRef .tc main_v11) := by keep_step hostOps2_13 main_v11
    _ = W16 m ρ c (Proc.devRef .tc main_v11) := by keep_step hostOps2_12 main_v11
    _ = W15 m ρ c (Proc.devRef .tc main_v11) := by keep_step hostOps2_11 main_v11
    _ = W14 m ρ c (Proc.devRef .tc main_v11) := by keep_step hostOps2_10 main_v11
    _ = W13 m ρ c (Proc.devRef .tc main_v11) := by keep_step hostOps2_9 main_v11
    _ = W12 m ρ c (Proc.devRef .tc main_v11) := by keep_step hostOps2_8 main_v11
    _ = W11 m ρ c (Proc.devRef .tc main_v11) := by keep_step hostOps2_7 main_v11
    _ = W10 m ρ c (Proc.devRef .tc main_v11) := by keep_step hostOps2_6 main_v11
    _ = W9 m ρ c (Proc.devRef .tc main_v11) := by keep_step hostOps2_5 main_v11
    _ = W8 m ρ c (Proc.devRef .tc main_v11) := by keep_step hostOps2_4 main_v11
    _ = W7 m ρ c (Proc.devRef .tc main_v11) := by keep_step hostOps2_3 main_v11
    _ = W6 m ρ c (Proc.devRef .tc main_v11) := by keep_step hostOps2_2 main_v11
    _ = W5 m ρ c (Proc.devRef .tc main_v11) := by keep_step hostOps2_1 main_v11
    _ = W4 m ρ c (Proc.devRef .tc main_v11) := by keep_step hostOps2 main_v11
    _ = (dat1 (V3 m ρ) c).arrAt 3 cfg1.N := W4_arr m ρ c 3

/-! ## What the second region finds in its input arrays -/

/-- The left projection enters the second region as the first region left it. -/
theorem v9_0_eq (c : Dev nD) : V3 m ρ c main_v9_0 = (dat0 (V1 m ρ) c).arrAt 3 cfg0.N :=
  (show W3 m ρ c (Proc.devRef .tc main_v9_0) = W2 m ρ c (Proc.devRef .tc main_v9_0) by keep_step hostOps1 main_v9_0).trans
    (W2_arr m ρ c 3)

/-- The right projection enters the second region as the first region left it. -/
theorem v9_1_eq (c : Dev nD) : V3 m ρ c main_v9_1 = (dat0 (V1 m ρ) c).arrAt 4 cfg0.N :=
  (show W3 m ρ c (Proc.devRef .tc main_v9_1) = W2 m ρ c (Proc.devRef .tc main_v9_1) by keep_step hostOps1 main_v9_1).trans
    (W2_arr m ρ c 4)

/-- The bias argument is as launched when the first region has run: no operation before it and no region writes it. -/
theorem arg3_kept (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by keep_step hostOps0 main_arg3
    _ = m ((c : Thread nD τ).loc main_arg3) := rfl

/-- The bias row the second region reads is the bias argument recast from four entries to one row of four: its entry
    `(0, cl)` is the argument's entry `cl`. -/
theorem v10_at (c : Dev nD) (cl : Fin 4) :
    V3 m ρ c main_v10 (ix2 (0 : Fin 1) cl) = m ((c : Thread nD τ).loc main_arg3) (ix1 cl) := by
  show StableHlo.after hostOps1 (W2 m ρ c) (Proc.devRef .tc main_v10) (ix2 (0 : Fin 1) cl) = _
  dsimp only [hostOps1]
  after_results
  show shapeCast S1x4 (W2 m ρ c (Proc.devRef .tc main_arg3)) shapeCasts_S4_S1x4 (ix2 (0 : Fin 1) cl) = _
  refine (shapeCast_apply _ _ (ix2 (0 : Fin 1) cl) (ix1 cl) ?_).trans (congrFun (arg3_kept m ρ c) (ix1 cl))
  rw [Shape.rowMajor_val_two, Shape.rowMajor_val_one]
  show cl.val = 0 * 4 + cl.val
  omega

/-! ## What the first region finds in its input arrays -/

/-- The selected rows: the gather of the embedding argument at the index argument, a negative index wrapped by the
    table's 4096 rows, as one column of start indices. -/
theorem v6_eq (c : Dev nD) :
    V1 m ρ c main_v6
      = Host.gather gather_S4096x512_S512x1_S512x512_1_0_n_n_0_1_1512 (m ((c : Thread nD τ).loc main_arg0))
          (broadcastInDim S512x1 ![0] bcast_S512_S512x1_0
            (select (cmpi .slt (m ((c : Thread nD τ).loc main_arg1)) (broadcastInDim S512 ![] bcast_S_S512 (constantI S_ 32 0#32)))
              (addi (m ((c : Thread nD τ).loc main_arg1)) (broadcastInDim S512 ![] bcast_S_S512 (constantI S_ 32 4096#32)))
              (m ((c : Thread nD τ).loc main_arg1)))) := by
  show StableHlo.after hostOps0 (W0 m ρ c) (Proc.devRef .tc main_v6) = _
  dsimp only [hostOps0]
  after_results

/-- The left half of the weights: columns `0 … 511` of the weight argument. -/
theorem v7_at (c : Dev nD) (cl : Fin 4) (k : Fin 512) :
    V1 m ρ c main_v7 (ix2 cl k) = m ((c : Thread nD τ).loc main_arg2) (ix2 cl (⟨k.val, by omega⟩ : Fin 1024)) := by
  show StableHlo.after hostOps0 (W0 m ρ c) (Proc.devRef .tc main_v7) (ix2 cl k) = _
  dsimp only [hostOps0]
  after_results
  exact extractStridedSlice_apply ![0, 0] _ slices_S4x1024_S4x512_0_0 (ix2 cl k) (ix2 cl (⟨k.val, by omega⟩ : Fin 1024))
    (fun a => by
      match a with
      | ⟨0, _⟩ => show cl.val = 0 + cl.val; omega
      | ⟨1, _⟩ => show k.val = 0 + k.val; omega)

/-- The right half of the weights: columns `512 … 1023` of the weight argument. -/
theorem v8_at (c : Dev nD) (cl : Fin 4) (k : Fin 512) :
    V1 m ρ c main_v8 (ix2 cl k) = m ((c : Thread nD τ).loc main_arg2) (ix2 cl (⟨512 + k.val, by omega⟩ : Fin 1024)) := by
  show StableHlo.after hostOps0 (W0 m ρ c) (Proc.devRef .tc main_v8) (ix2 cl k) = _
  dsimp only [hostOps0]
  after_results
  exact extractStridedSlice_apply ![0, 512] _ slices_S4x1024_S4x512_0_512 (ix2 cl k) (ix2 cl (⟨512 + k.val, by omega⟩ : Fin 1024))
    (fun a => by
      match a with
      | ⟨0, _⟩ => show cl.val = 0 + cl.val; omega
      | ⟨1, _⟩ => rfl)

end Cert.KernelIdeal.Links

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibTransposeMatrix.lean ====
import Idealize.ShloMosaic.Lib.ValueIdx
import Idealize.ShloMosaic.Lib.Pipeline.Value

/-!
# A matrix transpose read at an entry

The transpose of a matrix `[a, b]` with the permutation `[1, 0]` is the matrix `[b, a]` whose entry `(p, q)` is the
operand's entry `(q, p)`, for any extents (a column `[a, 1]` and a row `[1, b]` included). No proof enumerates an extent.
-/

namespace Cert.LibTransposeMatrix

open Idealize.ShloMosaic Idealize.ShloMosaic.ValueIdx

/-- The transpose of `w : [a, b]` reads, at `(p, q)`, the operand at `(q, p)`. -/
theorem transpose_ab_ba_apply {α : Type} {a b : ℕ} (w : (⟨2, ![a, b]⟩ : Shape).Idx → α)
    (h : (⟨2, ![a, b]⟩ : Shape).Transposes [1, 0] ⟨2, ![b, a]⟩) (p : Fin b) (q : Fin a) :
    transpose ⟨2, ![b, a]⟩ [1, 0] w h (ix2 p q) = w (ix2 q p) := by
  refine transpose_apply [1, 0] w h (ix2 p q) (ix2 q p) fun i => ?_
  match i with
  | ⟨0, _⟩ => rfl
  | ⟨1, _⟩ => rfl

end Cert.LibTransposeMatrix
-- ==== Proof.KRegion0.lean ====
/-
  The two projections the first region leaves behind, over the extended reals.

  The first region has one grid point and every window's block is its whole array. Its body multiplies the 512 selected
  rows `A : [512, 512]` by the transpose of each half `H : [4, 512]` of the weights, into a zero accumulator; narrowing
  the operands' format is the identity on extended reals. So each result array holds, at `(i, c)`,
  `Σₖ A(i, k) · H(c, k)`: the dot product of row `i` of `A` with row `c` of `H`.

  The steps: the stored value at an entry (the matrix product into zero as a sum, the transpose read at an entry); each
  input block read at an entry is the array there (every block index is zero); what the one point writes back is the
  block of one function of the entry; that block covers the array; hence the array after the region.
-/
import proofs.«160593_j4922032521468_2_alg».proof.Proof.Gen.KernelIdeal.Frame
import proofs.«160593_j4922032521468_2_alg».proof.Proof.Spec
import proofs.«160593_j4922032521468_2_alg».proof.Proof.LibMatmulRowsByCols
import proofs.«160593_j4922032521468_2_alg».proof.Proof.LibTransposeMatrix
import Idealize.ShloMosaic.Lib.Pipeline.Value

noncomputable section

open scoped BigOperators

namespace Cert.KernelIdeal.Region0

open Cert.KernelIdeal Cert.KernelIdeal.Gen Idealize.ShloMosaic Idealize.ShloMosaic.ValueIdx
open Idealize.ShloMosaic.TcCoe
open Idealize.ShloMosaic.Pipeline (Dat)

/-- The zero offsets of a rank-2 rectangle, as a constant function. -/
theorem zero2 : (![0, 0] : Fin 2 → Nat) = fun _ => 0 := funext fun a => by fin_cases a <;> rfl

/-- The product's dimension numbers contract the left operand's columns with the right operand's rows. -/
theorem dot_is : Cert.RowsByCols.Is (N := 512) (K := 512) (M := 4) dot_S512x512_S512x4_S512x4_1_0_0_1_n_n :=
  ⟨rfl, rfl, rfl, rfl, rfl, rfl⟩

/-- The value stored into the first result at `(i, c)`: the rows `x0` times the transpose of `x1`, into zero, is
    `Σₖ x0(i, k) · x1(c, k)`; the format changes on the way in are the identity. -/
theorem proj_left_at (x0 : Vec Ideal S512x512 .f32) (x1 : Vec Ideal S4x512 .f32) (i : Fin 512) (cl : Fin 4) :
    k0_pay2 (F := Ideal) x0 x1 (ix2 i cl) = ∑ k : Fin 512, x0 (ix2 i k) * x1 (ix2 cl k) := by
  unfold k0_pay2 k0_pay1
  refine (Cert.RowsByCols.matmul_zero_apply _ dot_is none _ _ i cl).trans ?_
  refine Finset.sum_congr rfl fun k _ => ?_
  rw [Cert.LibTransposeMatrix.transpose_ab_ba_apply, truncf_apply, truncf_apply, shapeCast_self, shapeCast_self]

/-- The value stored into the second result at `(i, c)`: the same sum with the other half of the weights. -/
theorem proj_right_at (x0 : Vec Ideal S512x512 .f32) (x2 : Vec Ideal S4x512 .f32) (i : Fin 512) (cl : Fin 4) :
    k0_pay3 (F := Ideal) x0 x2 (ix2 i cl) = ∑ k : Fin 512, x0 (ix2 i k) * x2 (ix2 cl k) := by
  unfold k0_pay3 k0_pay1
  refine (Cert.RowsByCols.matmul_zero_apply _ dot_is none _ _ i cl).trans ?_
  refine Finset.sum_congr rfl fun k _ => ?_
  rw [Cert.LibTransposeMatrix.transpose_ab_ba_apply, truncf_apply, truncf_apply, shapeCast_self, shapeCast_self]

/-- Every window's block index is zero on both axes at the region's one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- The block of the selected rows at an entry is the array there. -/
theorem blk0_0_at (c : Dev nD) (t : Fin cfg0.N) (i k : Fin 512) :
    (iblk0 (F := Ideal) V c 0 t : S512x512.Idx → EReal) (ix2 i k) = (V c main_v6 : S512x512.Idx → EReal) (ix2 i k) := by
  obtain ⟨e0, e1, -⟩ := idx0 t
  unfold iblk0
  rw [View.read_apply]
  show V c main_v6 (((cfg0.win 0).blk t).view.emb (ix2 i k)) = V c main_v6 (ix2 i k)
  refine congrArg _ (funext fun a => Fin.ext ?_)
  match a with
  | ⟨0, _⟩ => show win0_0.index t (0 : Fin 2) * 512 + 1 * i.val = i.val; omega
  | ⟨1, _⟩ => show win0_0.index t (1 : Fin 2) * 512 + 1 * k.val = k.val; omega

/-- The block of the left half of the weights at an entry is the array there. -/
theorem blk0_1_at (c : Dev nD) (t : Fin cfg0.N) (cl : Fin 4) (k : Fin 512) :
    (iblk0 (F := Ideal) V c 1 t : S4x512.Idx → EReal) (ix2 cl k) = (V c main_v7 : S4x512.Idx → EReal) (ix2 cl k) := by
  obtain ⟨-, -, e0, e1, -⟩ := idx0 t
  unfold iblk0
  rw [View.read_apply]
  show V c main_v7 (((cfg0.win 1).blk t).view.emb (ix2 cl k)) = V c main_v7 (ix2 cl k)
  refine congrArg _ (funext fun a => Fin.ext ?_)
  match a with
  | ⟨0, _⟩ => show win0_1.index t (0 : Fin 2) * 4 + 1 * cl.val = cl.val; omega
  | ⟨1, _⟩ => show win0_1.index t (1 : Fin 2) * 512 + 1 * k.val = k.val; omega

/-- The block of the right half of the weights at an entry is the array there. -/
theorem blk0_2_at (c : Dev nD) (t : Fin cfg0.N) (cl : Fin 4) (k : Fin 512) :
    (iblk0 (F := Ideal) V c 2 t : S4x512.Idx → EReal) (ix2 cl k) = (V c main_v8 : S4x512.Idx → EReal) (ix2 cl k) := by
  obtain ⟨-, -, -, -, e0, e1, -⟩ := idx0 t
  unfold iblk0
  rw [View.read_apply]
  show V c main_v8 (((cfg0.win 2).blk t).view.emb (ix2 cl k)) = V c main_v8 (ix2 cl k)
  refine congrArg _ (funext fun a => Fin.ext ?_)
  match a with
  | ⟨0, _⟩ => show win0_2.index t (0 : Fin 2) * 4 + 1 * cl.val = cl.val; omega
  | ⟨1, _⟩ => show win0_2.index t (1 : Fin 2) * 512 + 1 * k.val = k.val; omega

/-! ## The left projection -/

/-- The left projection as one function of the entry `(i, c)`. -/
def lpFun (c : Dev nD) : S512x4.Idx → EReal := fun j =>
  Cert.PairSpec.mmAt (V c main_v6) (V c main_v7) ⟨(j 0).val, idx2_lt0 j⟩ ⟨(j 1).val, idx2_lt1 j⟩

/-- What the point writes back into the first result is the block of `lpFun`. -/
theorem flushed_lp (c : Dev nD) (t : Fin cfg0.N) :
    (dat0 (F := Ideal) V c).flushed 3 t = ((cfg0.win 3).blk t).view.read (Elt Ideal) (lpFun V c) := by
  show (cfg0.win 3).cut (grid0.coords t) ((dat0 V c).after 3 t) = _
  rw [after0_3]
  unfold out0_3
  rw [View.canon_unit_zero zero2]
  simp only [View.ld_unit_zero (S := S512x512) zero2, View.ld_unit_zero (S := S4x512) zero2]
  obtain ⟨-, -, -, -, -, -, e0, e1, -⟩ := idx0 t
  funext j
  obtain ⟨p, q, rfl⟩ : ∃ (p : Fin 512) (q : Fin 4), j = ix2 p q := ⟨j 0, j 1, eq_ix2 j⟩
  refine (proj_left_at _ _ p q).trans ?_
  rw [View.read_apply]
  show _ = lpFun V c (((cfg0.win 3).blk t).view.emb (ix2 p q))
  have h : ((cfg0.win 3).blk t).view.emb (ix2 p q) = ix2 p q := by
    funext a; apply Fin.ext
    match a with
    | ⟨0, _⟩ => show win0_3.index t (0 : Fin 2) * 512 + 1 * p.val = p.val; omega
    | ⟨1, _⟩ => show win0_3.index t (1 : Fin 2) * 4 + 1 * q.val = q.val; omega
  rw [h]
  show _ = Cert.PairSpec.mmAt (V c main_v6) (V c main_v7) p q
  unfold Cert.PairSpec.mmAt
  exact Finset.sum_congr rfl fun k _ => congrArg₂ (· * ·) (blk0_0_at V c t p k) (blk0_1_at V c t q k)

/-- An entry is in the point's block of the first result iff each coordinate is in the block's range. -/
theorem mem_blk_lp (t : Fin cfg0.N) (i : S512x4.Idx) :
    i ∈ ((cfg0.win 3).blk t).view.set ↔ ∀ a : Fin 2, win0_3.index t a * S512x4.size a ≤ (i a).val ∧ (i a).val < win0_3.index t a * S512x4.size a + S512x4.size a := by
  show i ∈ ((View.whole main_v9_0).slice (win0_3.rect t)).set ↔ _
  rw [View.set_slice_whole, Rect.mem_set_unit]
  exact Iff.rfl

/-- The one point's block is the whole first result. -/
theorem cover_lp (i : S512x4.Idx) :
    ∃ t : Fin cfg0.N, (cfg0.win 3).flush t = true ∧ i ∈ ((cfg0.win 3).blk t).view.set := by
  have hN : cfg0.N = 1 := N_0
  refine ⟨⟨0, by omega⟩, flush0_3 _, ?_⟩
  rw [mem_blk_lp]
  obtain ⟨-, -, -, -, -, -, e0, e1, -⟩ := idx0 ⟨0, by omega⟩
  have h0 : (i 0).val < 512 := (i 0).isLt
  have h1 : (i 1).val < 4 := (i 1).isLt
  intro a
  match a with
  | ⟨0, _⟩ => show win0_3.index ⟨0, _⟩ (0 : Fin 2) * 512 ≤ (i 0).val ∧ (i 0).val < win0_3.index ⟨0, _⟩ (0 : Fin 2) * 512 + 512; omega
  | ⟨1, _⟩ => show win0_3.index ⟨0, _⟩ (1 : Fin 2) * 4 ≤ (i 1).val ∧ (i 1).val < win0_3.index ⟨0, _⟩ (1 : Fin 2) * 4 + 4; omega

/-- The first result array after the region is `lpFun`. -/
theorem final_lp (c : Dev nD) : (dat0 (F := Ideal) V c).arrAt 3 cfg0.N = lpFun V c :=
  (dat0 (F := Ideal) V c).arrAt_eq_of_cover 3 (lpFun V c) (fun t _ => flushed_lp V c t) cover_lp

/-! ## The right projection -/

/-- The right projection as one function of the entry `(i, c)`. -/
def rpFun (c : Dev nD) : S512x4.Idx → EReal := fun j =>
  Cert.PairSpec.mmAt (V c main_v6) (V c main_v8) ⟨(j 0).val, idx2_lt0 j⟩ ⟨(j 1).val, idx2_lt1 j⟩

/-- What the point writes back into the second result is the block of `rpFun`. -/
theorem flushed_rp (c : Dev nD) (t : Fin cfg0.N) :
    (dat0 (F := Ideal) V c).flushed 4 t = ((cfg0.win 4).blk t).view.read (Elt Ideal) (rpFun V c) := by
  show (cfg0.win 4).cut (grid0.coords t) ((dat0 V c).after 4 t) = _
  rw [after0_4]
  unfold out0_4
  rw [View.canon_unit_zero zero2]
  simp only [View.ld_unit_zero (S := S512x512) zero2, View.ld_unit_zero (S := S4x512) zero2]
  obtain ⟨-, -, -, -, -, -, -, -, e0, e1⟩ := idx0 t
  funext j
  obtain ⟨p, q, rfl⟩ : ∃ (p : Fin 512) (q : Fin 4), j = ix2 p q := ⟨j 0, j 1, eq_ix2 j⟩
  refine (proj_right_at _ _ p q).trans ?_
  rw [View.read_apply]
  show _ = rpFun V c (((cfg0.win 4).blk t).view.emb (ix2 p q))
  have h : ((cfg0.win 4).blk t).view.emb (ix2 p q) = ix2 p q := by
    funext a; apply Fin.ext
    match a with
    | ⟨0, _⟩ => show win0_4.index t (0 : Fin 2) * 512 + 1 * p.val = p.val; omega
    | ⟨1, _⟩ => show win0_4.index t (1 : Fin 2) * 4 + 1 * q.val = q.val; omega
  rw [h]
  show _ = Cert.PairSpec.mmAt (V c main_v6) (V c main_v8) p q
  unfold Cert.PairSpec.mmAt
  exact Finset.sum_congr rfl fun k _ => congrArg₂ (· * ·) (blk0_0_at V c t p k) (blk0_2_at V c t q k)

/-- An entry is in the point's block of the second result iff each coordinate is in the block's range. -/
theorem mem_blk_rp (t : Fin cfg0.N) (i : S512x4.Idx) :
    i ∈ ((cfg0.win 4).blk t).view.set ↔ ∀ a : Fin 2, win0_4.index t a * S512x4.size a ≤ (i a).val ∧ (i a).val < win0_4.index t a * S512x4.size a + S512x4.size a := by
  show i ∈ ((View.whole main_v9_1).slice (win0_4.rect t)).set ↔ _
  rw [View.set_slice_whole, Rect.mem_set_unit]
  exact Iff.rfl

/-- The one point's block is the whole second result. -/
theorem cover_rp (i : S512x4.Idx) :
    ∃ t : Fin cfg0.N, (cfg0.win 4).flush t = true ∧ i ∈ ((cfg0.win 4).blk t).view.set := by
  have hN : cfg0.N = 1 := N_0
  refine ⟨⟨0, by omega⟩, flush0_4 _, ?_⟩
  rw [mem_blk_rp]
  obtain ⟨-, -, -, -, -, -, -, -, e0, e1⟩ := idx0 ⟨0, by omega⟩
  have h0 : (i 0).val < 512 := (i 0).isLt
  have h1 : (i 1).val < 4 := (i 1).isLt
  intro a
  match a with
  | ⟨0, _⟩ => show win0_4.index ⟨0, _⟩ (0 : Fin 2) * 512 ≤ (i 0).val ∧ (i 0).val < win0_4.index ⟨0, _⟩ (0 : Fin 2) * 512 + 512; omega
  | ⟨1, _⟩ => show win0_4.index ⟨0, _⟩ (1 : Fin 2) * 4 ≤ (i 1).val ∧ (i 1).val < win0_4.index ⟨0, _⟩ (1 : Fin 2) * 4 + 4; omega

/-- The second result array after the region is `rpFun`. -/
theorem final_rp (c : Dev nD) : (dat0 (F := Ideal) V c).arrAt 4 cfg0.N = rpFun V c :=
  (dat0 (F := Ideal) V c).arrAt_eq_of_cover 4 (rpFun V c) (fun t _ => flushed_rp V c t) cover_rp

end Cert.KernelIdeal.Region0

namespace Cert.KernelIdeal.RegionValue

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The first result array holds, at `(i, c)`, the dot product of row `i` of the selected rows with row `c` of the
    left half of the weights. -/
theorem lp_at (c : Dev nD) (i : Fin 512) (cl : Fin 4) :
    (dat0 (F := Ideal) V c).arrAt 3 cfg0.N (ix2 i cl) = Cert.PairSpec.mmAt (V c main_v6) (V c main_v7) i cl := by
  rw [Cert.KernelIdeal.Region0.final_lp]
  rfl

/-- The second result array holds, at `(i, c)`, the dot product of row `i` of the selected rows with row `c` of the
    right half of the weights. -/
theorem rp_at (c : Dev nD) (i : Fin 512) (cl : Fin 4) :
    (dat0 (F := Ideal) V c).arrAt 4 cfg0.N (ix2 i cl) = Cert.PairSpec.mmAt (V c main_v6) (V c main_v8) i cl := by
  rw [Cert.KernelIdeal.Region0.final_rp]
  rfl

end Cert.KernelIdeal.RegionValue

end
-- ==== Proof.KRegion1.lean ====
/-
  The pair table the second region leaves behind, over the extended reals.

  The second region has two grid points; point `t` takes rows `256 t … 256 t + 255` of the left projection
  `lp : [512, 4]`, the whole right projection `rp : [512, 4]` and the bias row `b : [1, 4]`, and fills rows
  `256 t … 256 t + 255` of the result `[512, 4, 512]`. For a row `r` of the block and a row `j` of `rp` the body
  forms the four logits `lp(r, c') + rp(j, c') + b(0, c')` (a column spread along the second axis, a row of the
  transposed `rp` spread along the first, a cell of `b` spread everywhere), their maximum taken left to right, the
  logarithm of the sum of the four exponentials of (logit − maximum) taken left to right, and stores, for each class
  `c`, (logit − maximum) − that logarithm into the slab `[:, c, :]`. So the result holds at `(i, c, j)` the
  log-softmax over `c'` of `lp(i, c') + rp(j, c') + b(0, c')` at class `c`, in exactly the association the
  specification writes.

  The steps: the layout operations read at an entry; each logit array at an entry; each stored slab at an entry; the
  four slabs tile the block, so the block is one function of its index; each input block read at an entry is the array
  at the entry the block index names; what a point writes back is its block of one function of the result's index;
  the two blocks cover the result; hence the array after the region.
-/
import proofs.«160593_j4922032521468_2_alg».proof.Proof.Gen.KernelIdeal.Frame
import proofs.«160593_j4922032521468_2_alg».proof.Proof.Spec
import proofs.«160593_j4922032521468_2_alg».proof.Proof.LibTransposeMatrix
import Idealize.ShloMosaic.Lib.Pipeline.Value

noncomputable section

open scoped BigOperators

namespace Cert.KernelIdeal.Region1

open Cert.KernelIdeal Cert.KernelIdeal.Gen Idealize.ShloMosaic Idealize.ShloMosaic.ValueIdx
open Idealize.ShloMosaic.TcCoe
open Idealize.ShloMosaic.Pipeline (Dat)

/-- The zero offsets of a rank-2 rectangle, as a constant function. -/
theorem zero2 : (![0, 0] : Fin 2 → Nat) = fun _ => 0 := funext fun a => by fin_cases a <;> rfl

/-! ## Layout operations at an entry -/

/-- A column `[256, 1]` spread over `[256, 512]` reads, at `(r, j)`, the column at row `r`. -/
theorem spread_col (v : S256x1.Idx → EReal) (h : S256x1.Broadcasts S256x512) (r : Fin 256) (j : Fin 512) :
    broadcastTo S256x512 v h (ix2 r j) = v (ix2 r (0 : Fin 1)) :=
  broadcastTo_apply v h (ix2 r j) (ix2 r (0 : Fin 1)) fun a => by
    match a with
    | ⟨0, _⟩ => rfl
    | ⟨1, _⟩ => rfl

/-- A row `[1, 512]` spread over `[256, 512]` reads, at `(r, j)`, the row at column `j`. -/
theorem spread_row (v : S1x512.Idx → EReal) (h : S1x512.Broadcasts S256x512) (r : Fin 256) (j : Fin 512) :
    broadcastTo S256x512 v h (ix2 r j) = v (ix2 (0 : Fin 1) j) :=
  broadcastTo_apply v h (ix2 r j) (ix2 (0 : Fin 1) j) fun a => by
    match a with
    | ⟨0, _⟩ => rfl
    | ⟨1, _⟩ => rfl

/-- Row `c` of a `[4, 512]` matrix, cut out as a `[1, 512]` row, reads at column `j` the matrix at `(c, j)`. -/
theorem cut_row (c : Fin 4) (x : S4x512.Idx → EReal) (h : S4x512.Slices ![c.val, 0] S1x512) (j : Fin 512) :
    extractStridedSlice S1x512 ![c.val, 0] x h (ix2 (0 : Fin 1) j) = x (ix2 c j) :=
  extractStridedSlice_apply _ x h _ _ fun a => by
    match a with
    | ⟨0, _⟩ => rfl
    | ⟨1, _⟩ => show j.val = 0 + j.val; omega

/-- Entry `c` of a `[1, 4]` row, cut out as a `[1, 1]` cell and read as a number, is the row at `(0, c)`. -/
theorem cut_cell (c : Fin 4) (x : S1x4.Idx → EReal) (h : S1x4.Slices ![0, c.val] S1x1) (hp : ∀ a, (![0, 0] : Fin 2 → Nat) a < S1x1.size a) :
    extractAt ![0, 0] (extractStridedSlice S1x1 ![0, c.val] x h) hp = x (ix2 (0 : Fin 1) c) := by
  unfold extractAt
  refine extractStridedSlice_apply _ x h _ _ fun a => ?_
  match a with
  | ⟨0, _⟩ => rfl
  | ⟨1, _⟩ => show c.val = c.val + 0; omega

/-- Column `c` of a `[256, 4]` block, loaded as a `[256, 1]` column, reads at row `r` the block at `(r, c)`. -/
theorem load_col (c : Fin 4) (x : S256x4.Idx → EReal) (inb : ∀ a, (![0, c.val] : Fin 2 → Nat) a + S256x1.size a ≤ S256x4.size a) (r : Fin 256) :
    View.ld (Val := Elt Ideal) (e' := .f32) x (Rect.unit (s := S256x4) ![0, c.val] S256x1.size inb) (ix2 r (0 : Fin 1)) = x (ix2 r c) := by
  show x _ = x _
  refine congrArg x (funext fun a => Fin.ext ?_)
  match a with
  | ⟨0, _⟩ => show 0 + 1 * r.val = r.val; omega
  | ⟨1, _⟩ => show c.val + 1 * 0 = c.val; omega

/-- A `[256, 512]` array recast as `[256, 1, 512]` reads, at `(r, u, j)`, the array at `(r, j)`. -/
theorem lift_mid (x : S256x512.Idx → EReal) (h : S256x512.ShapeCasts S256x1x512) (r : Fin 256) (u : Fin 1) (j : Fin 512) :
    shapeCast S256x1x512 x h (ix3 r u j) = x (ix2 r j) :=
  shapeCast_apply x h _ _ (by
    have hu : u.val = 0 := by omega
    rw [Shape.rowMajor_val_three, Shape.rowMajor_val_two]
    show r.val * 512 + j.val = (r.val * 1 + u.val) * 512 + j.val
    rw [hu]; omega)

/-! ## The four logits of a pair -/

/-- The four logits of the pair (row `r` of the left block `x0`, row `j` of the right projection `x1`), with the bias
    row `x2`: at class `c'`, `x0(r, c') + x1(j, c') + x2(0, c')`. -/
def logit (x0 : S256x4.Idx → EReal) (x1 : S512x4.Idx → EReal) (x2 : S1x4.Idx → EReal) (r : Fin 256) (j : Fin 512) :
    Fin 4 → EReal :=
  fun c' => x0 (ix2 r c') + x1 (ix2 j c') + x2 (ix2 (0 : Fin 1) c')

theorem logit0_at (x0 : Vec Ideal S256x4 .f32) (x1 : Vec Ideal S512x4 .f32) (x2 : Vec Ideal S1x4 .f32) (r : Fin 256) (j : Fin 512) :
    k1_pay10 (F := Ideal) (View.ld x1 r1_0) (View.ld x2 r1_1) (View.ld x0 r1_2) (ix2 r j) = logit x0 x1 x2 r j 0 := by
  rw [View.ld_unit_zero (S := S512x4) zero2, View.ld_unit_zero (S := S1x4) zero2]
  unfold k1_pay10 k1_pay8 k1_pay9
  simp only [shapeCast_self]
  rw [addf_apply, addf_apply, broadcast_apply]
  refine congrArg₂ (· + ·) (congrArg₂ (· + ·) ?_ ?_) ?_
  · exact (spread_col _ _ r j).trans (load_col 0 x0 _ r)
  · refine (spread_row _ _ r j).trans ?_
    refine (cut_row 0 _ _ j).trans ?_
    exact Cert.LibTransposeMatrix.transpose_ab_ba_apply _ _ 0 j
  · exact cut_cell 0 x2 _ _

theorem logit1_at (x0 : Vec Ideal S256x4 .f32) (x1 : Vec Ideal S512x4 .f32) (x2 : Vec Ideal S1x4 .f32) (r : Fin 256) (j : Fin 512) :
    k1_pay11 (F := Ideal) (View.ld x1 r1_0) (View.ld x2 r1_1) (View.ld x0 r1_3) (ix2 r j) = logit x0 x1 x2 r j 1 := by
  rw [View.ld_unit_zero (S := S512x4) zero2, View.ld_unit_zero (S := S1x4) zero2]
  unfold k1_pay11 k1_pay8 k1_pay9
  simp only [shapeCast_self]
  rw [addf_apply, addf_apply, broadcast_apply]
  refine congrArg₂ (· + ·) (congrArg₂ (· + ·) ?_ ?_) ?_
  · exact (spread_col _ _ r j).trans (load_col 1 x0 _ r)
  · refine (spread_row _ _ r j).trans ?_
    refine (cut_row 1 _ _ j).trans ?_
    exact Cert.LibTransposeMatrix.transpose_ab_ba_apply _ _ 1 j
  · exact cut_cell 1 x2 _ _

theorem logit2_at (x0 : Vec Ideal S256x4 .f32) (x1 : Vec Ideal S512x4 .f32) (x2 : Vec Ideal S1x4 .f32) (r : Fin 256) (j : Fin 512) :
    k1_pay12 (F := Ideal) (View.ld x1 r1_0) (View.ld x2 r1_1) (View.ld x0 r1_4) (ix2 r j) = logit x0 x1 x2 r j 2 := by
  rw [View.ld_unit_zero (S := S512x4) zero2, View.ld_unit_zero (S := S1x4) zero2]
  unfold k1_pay12 k1_pay8 k1_pay9
  simp only [shapeCast_self]
  rw [addf_apply, addf_apply, broadcast_apply]
  refine congrArg₂ (· + ·) (congrArg₂ (· + ·) ?_ ?_) ?_
  · exact (spread_col _ _ r j).trans (load_col 2 x0 _ r)
  · refine (spread_row _ _ r j).trans ?_
    refine (cut_row 2 _ _ j).trans ?_
    exact Cert.LibTransposeMatrix.transpose_ab_ba_apply _ _ 2 j
  · exact cut_cell 2 x2 _ _

theorem logit3_at (x0 : Vec Ideal S256x4 .f32) (x1 : Vec Ideal S512x4 .f32) (x2 : Vec Ideal S1x4 .f32) (r : Fin 256) (j : Fin 512) :
    k1_pay1 (F := Ideal) (k1_pay13 (View.ld x1 r1_0)) (k1_pay14 (View.ld x2 r1_1)) (k1_pay15 (View.ld x0 r1_5)) (ix2 r j)
      = logit x0 x1 x2 r j 3 := by
  rw [View.ld_unit_zero (S := S512x4) zero2, View.ld_unit_zero (S := S1x4) zero2]
  unfold k1_pay1 k1_pay13 k1_pay14 k1_pay15 k1_pay8 k1_pay9
  simp only [shapeCast_self]
  rw [addf_apply, addf_apply, broadcast_apply]
  refine congrArg₂ (· + ·) (congrArg₂ (· + ·) ?_ ?_) ?_
  · exact (spread_col _ _ r j).trans (load_col 3 x0 _ r)
  · refine (spread_row _ _ r j).trans ?_
    refine (cut_row 3 _ _ j).trans ?_
    exact Cert.LibTransposeMatrix.transpose_ab_ba_apply _ _ 3 j
  · exact cut_cell 3 x2 _ _

/-! ## The stored values: the log-softmax of the four logits -/

section Stored
variable (l0 l1 l2 : FVec Ideal S256x512 .f32) (v43 : FVec Ideal S1x512 .f32) (v45 : Ideal .f32) (v46 : FVec Ideal S256x1 .f32)

/-- The four logit arrays at an entry, as a function of the class. -/
def four (y : S256x512.Idx) : Fin 4 → EReal := ![l0 y, l1 y, l2 y, k1_pay1 (F := Ideal) v43 v45 v46 y]

/-- The maximum array at an entry is the largest of the four logits, taken left to right. -/
theorem max_at (y : S256x512.Idx) :
    k1_pay2 (F := Ideal) l0 l1 l2 v43 v45 v46 y = Cert.PairSpec.max4 (four l0 l1 l2 v43 v45 v46 y) := rfl

/-- The class-0 store at `(r, 0, j)`: the log-softmax of the four logits at class 0. -/
theorem store0_at (r : Fin 256) (u : Fin 1) (j : Fin 512) :
    k1_pay4 (F := Ideal) l0 l1 l2 v43 v45 v46 (ix3 r u j) = Cert.PairSpec.lsm4 (four l0 l1 l2 v43 v45 v46 (ix2 r j)) 0 := by
  unfold k1_pay4
  exact lift_mid _ _ r u j

theorem store1_at (r : Fin 256) (u : Fin 1) (j : Fin 512) :
    k1_pay5 (F := Ideal) l0 l1 l2 v43 v45 v46 (ix3 r u j) = Cert.PairSpec.lsm4 (four l0 l1 l2 v43 v45 v46 (ix2 r j)) 1 := by
  unfold k1_pay5
  exact lift_mid _ _ r u j

theorem store2_at (r : Fin 256) (u : Fin 1) (j : Fin 512) :
    k1_pay6 (F := Ideal) l0 l1 l2 v43 v45 v46 (ix3 r u j) = Cert.PairSpec.lsm4 (four l0 l1 l2 v43 v45 v46 (ix2 r j)) 2 := by
  unfold k1_pay6
  exact lift_mid _ _ r u j

theorem store3_at (r : Fin 256) (u : Fin 1) (j : Fin 512) :
    k1_pay7 (F := Ideal) l0 l1 l2 v43 v45 v46 (ix3 r u j) = Cert.PairSpec.lsm4 (four l0 l1 l2 v43 v45 v46 (ix2 r j)) 3 := by
  unfold k1_pay7
  exact lift_mid _ _ r u j

end Stored

/-! ## The block the body leaves -/

section Block
variable (x0 : Vec Ideal S256x4 .f32) (x1 : Vec Ideal S512x4 .f32) (x2 : Vec Ideal S1x4 .f32)

/-- The four logit arrays the body computes from its loads are the four logits of the pair, at every entry. -/
theorem four_eq (r : Fin 256) (j : Fin 512) :
    four (k1_pay10 (F := Ideal) (View.ld x1 r1_0) (View.ld x2 r1_1) (View.ld x0 r1_2))
        (k1_pay11 (F := Ideal) (View.ld x1 r1_0) (View.ld x2 r1_1) (View.ld x0 r1_3))
        (k1_pay12 (F := Ideal) (View.ld x1 r1_0) (View.ld x2 r1_1) (View.ld x0 r1_4))
        (k1_pay13 (F := Ideal) (View.ld x1 r1_0)) (k1_pay14 (F := Ideal) (View.ld x2 r1_1)) (k1_pay15 (F := Ideal) (View.ld x0 r1_5))
        (ix2 r j)
      = logit x0 x1 x2 r j := by
  funext c'
  match c' with
  | ⟨0, _⟩ => exact logit0_at x0 x1 x2 r j
  | ⟨1, _⟩ => exact logit1_at x0 x1 x2 r j
  | ⟨2, _⟩ => exact logit2_at x0 x1 x2 r j
  | ⟨3, _⟩ => exact logit3_at x0 x1 x2 r j

/-- The log-softmax of the pair's logits at `(r, c, j)`. -/
def blockAt (r : Fin 256) (c : Fin 4) (j : Fin 512) : EReal := Cert.PairSpec.lsm4 (logit x0 x1 x2 r j) c

theorem blockAt_congr {r r' : Fin 256} {c c' : Fin 4} {j j' : Fin 512} (hr : r.val = r'.val) (hc : c.val = c'.val)
    (hj : j.val = j'.val) : blockAt x0 x1 x2 r c j = blockAt x0 x1 x2 r' c' j' := by
  obtain rfl := Fin.ext hr; obtain rfl := Fin.ext hc; obtain rfl := Fin.ext hj; rfl

/-- The same as one function of the block's index. -/
def blockFun : S256x4x512.Idx → EReal := fun y =>
  blockAt x0 x1 x2 ⟨(y 0).val, (y 0).isLt⟩ ⟨(y 1).val, (y 1).isLt⟩ ⟨(y 2).val, (y 2).isLt⟩

/-- Each of the four stores writes the slab of `blockFun` its rectangle names, so the block the body leaves is
    `blockFun`: at `(r, c, j)` the log-softmax of the pair's logits at class `c`. -/
theorem out_eq : out1_3 (F := Ideal) x0 x1 x2 = blockFun x0 x1 x2 := by
  funext y
  unfold out1_3
  refine View.canon_apply_of_pieces (Val := Elt Ideal) (S := S256x4x512) (e := .f32) (blockFun x0 x1 x2) _ ?_ y (cover1_3 _ _ _ _ y)
  intro p hp
  simp only [List.mem_cons, List.not_mem_nil, or_false] at hp
  rcases hp with rfl | rfl | rfl | rfl
  · intro (x : S256x1x512.Idx)
    obtain ⟨a, u, b, rfl⟩ : ∃ (a : Fin 256) (u : Fin 1) (b : Fin 512), x = ix3 a u b := ⟨x 0, x 1, x 2, eq_ix3 x⟩
    have hu : u.val = 0 := by omega
    refine (store3_at _ _ _ _ _ _ a u b).trans ?_
    rw [four_eq]
    refine blockAt_congr x0 x1 x2 (c := 3) ?_ ?_ ?_
    · show a.val = 0 + 1 * a.val; omega
    · show 3 = 3 + 1 * u.val; omega
    · show b.val = 0 + 1 * b.val; omega
  · intro (x : S256x1x512.Idx)
    obtain ⟨a, u, b, rfl⟩ : ∃ (a : Fin 256) (u : Fin 1) (b : Fin 512), x = ix3 a u b := ⟨x 0, x 1, x 2, eq_ix3 x⟩
    have hu : u.val = 0 := by omega
    refine (store2_at _ _ _ _ _ _ a u b).trans ?_
    rw [four_eq]
    refine blockAt_congr x0 x1 x2 (c := 2) ?_ ?_ ?_
    · show a.val = 0 + 1 * a.val; omega
    · show 2 = 2 + 1 * u.val; omega
    · show b.val = 0 + 1 * b.val; omega
  · intro (x : S256x1x512.Idx)
    obtain ⟨a, u, b, rfl⟩ : ∃ (a : Fin 256) (u : Fin 1) (b : Fin 512), x = ix3 a u b := ⟨x 0, x 1, x 2, eq_ix3 x⟩
    have hu : u.val = 0 := by omega
    refine (store1_at _ _ _ _ _ _ a u b).trans ?_
    rw [four_eq]
    refine blockAt_congr x0 x1 x2 (c := 1) ?_ ?_ ?_
    · show a.val = 0 + 1 * a.val; omega
    · show 1 = 1 + 1 * u.val; omega
    · show b.val = 0 + 1 * b.val; omega
  · intro (x : S256x1x512.Idx)
    obtain ⟨a, u, b, rfl⟩ : ∃ (a : Fin 256) (u : Fin 1) (b : Fin 512), x = ix3 a u b := ⟨x 0, x 1, x 2, eq_ix3 x⟩
    have hu : u.val = 0 := by omega
    refine (store0_at _ _ _ _ _ _ a u b).trans ?_
    rw [four_eq]
    refine blockAt_congr x0 x1 x2 (c := 0) ?_ ?_ ?_
    · show a.val = 0 + 1 * a.val; omega
    · show 0 = 0 + 1 * u.val; omega
    · show b.val = 0 + 1 * b.val; omega

end Block

/-! ## From blocks to the array -/

/-- The block indices at a grid point `t`: the left projection and the result move with `t` along the rows, everything
    else stays at zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

variable (V : (c : Dev nD) → (b : Ref sig .tc) → Buf (Elt Ideal) ((c : Thread nD τ).loc b))

/-- Row `r` of the left projection's block at point `t` is row `256 t + r` of the array. -/
theorem blk1_0_at (c : Dev nD) (t : Fin cfg1.N) (r : Fin 256) (c' : Fin 4) (i : Fin 512) (hi : i.val = t.val * 256 + r.val) :
    (iblk1 (F := Ideal) V c 0 t : S256x4.Idx → EReal) (ix2 r c') = (V c main_v9_0 : S512x4.Idx → EReal) (ix2 i c') := by
  obtain ⟨e0, e1, -⟩ := idx1 t
  unfold iblk1
  rw [View.read_apply]
  show V c main_v9_0 (((cfg1.win 0).blk t).view.emb (ix2 r c')) = V c main_v9_0 (ix2 i c')
  refine congrArg _ (funext fun a => Fin.ext ?_)
  match a with
  | ⟨0, _⟩ => show win1_0.index t (0 : Fin 2) * 256 + 1 * r.val = i.val; omega
  | ⟨1, _⟩ => show win1_0.index t (1 : Fin 2) * 4 + 1 * c'.val = c'.val; omega

/-- The right projection's block is the whole array. -/
theorem blk1_1_at (c : Dev nD) (t : Fin cfg1.N) (j : Fin 512) (c' : Fin 4) :
    (iblk1 (F := Ideal) V c 1 t : S512x4.Idx → EReal) (ix2 j c') = (V c main_v9_1 : S512x4.Idx → EReal) (ix2 j c') := by
  obtain ⟨-, -, e0, e1, -⟩ := idx1 t
  unfold iblk1
  rw [View.read_apply]
  show V c main_v9_1 (((cfg1.win 1).blk t).view.emb (ix2 j c')) = V c main_v9_1 (ix2 j c')
  refine congrArg _ (funext fun a => Fin.ext ?_)
  match a with
  | ⟨0, _⟩ => show win1_1.index t (0 : Fin 2) * 512 + 1 * j.val = j.val; omega
  | ⟨1, _⟩ => show win1_1.index t (1 : Fin 2) * 4 + 1 * c'.val = c'.val; omega

/-- The bias row's block is the whole row. -/
theorem blk1_2_at (c : Dev nD) (t : Fin cfg1.N) (u : Fin 1) (c' : Fin 4) :
    (iblk1 (F := Ideal) V c 2 t : S1x4.Idx → EReal) (ix2 u c') = (V c main_v10 : S1x4.Idx → EReal) (ix2 u c') := by
  obtain ⟨-, -, -, -, e0, e1, -⟩ := idx1 t
  unfold iblk1
  rw [View.read_apply]
  show V c main_v10 (((cfg1.win 2).blk t).view.emb (ix2 u c')) = V c main_v10 (ix2 u c')
  refine congrArg _ (funext fun a => Fin.ext ?_)
  match a with
  | ⟨0, _⟩ => show win1_2.index t (0 : Fin 2) * 1 + 1 * u.val = u.val; omega
  | ⟨1, _⟩ => show win1_2.index t (1 : Fin 2) * 4 + 1 * c'.val = c'.val; omega

/-- The pair table as one function of the entry `(i, c, j)`. -/
def pairFun (c : Dev nD) : S512x4x512.Idx → EReal := fun y =>
  Cert.PairSpec.pairAt (V c main_v9_0) (V c main_v9_1) (V c main_v10)
    ⟨(y 0).val, (y 0).isLt⟩ ⟨(y 1).val, (y 1).isLt⟩ ⟨(y 2).val, (y 2).isLt⟩

/-- What point `t` writes back is block `t` of `pairFun`: rows `256 t … 256 t + 255`. -/
theorem flushed_pair (c : Dev nD) (t : Fin cfg1.N) :
    (dat1 (F := Ideal) V c).flushed 3 t = ((cfg1.win 3).blk t).view.read (Elt Ideal) (pairFun V c) := by
  show (cfg1.win 3).cut (grid1.coords t) ((dat1 V c).after 3 t) = _
  rw [after1_3]
  obtain ⟨-, -, -, -, -, -, e0, e1, e2⟩ := idx1 t
  have hN : cfg1.N = 2 := N_1
  have ht : t.val < 2 := by have := t.isLt; omega
  funext y
  obtain ⟨r, cl, j, rfl⟩ : ∃ (r : Fin 256) (cl : Fin 4) (j : Fin 512), y = ix3 r cl j := ⟨y 0, y 1, y 2, eq_ix3 y⟩
  refine (congrFun (out_eq (iblk1 (F := Ideal) V c 0 t) (iblk1 (F := Ideal) V c 1 t) (iblk1 (F := Ideal) V c 2 t)) (ix3 r cl j)).trans ?_
  rw [View.read_apply]
  have hi : t.val * 256 + r.val < 512 := by omega
  have h : ((cfg1.win 3).blk t).view.emb (ix3 r cl j) = ix3 (⟨t.val * 256 + r.val, hi⟩ : Fin 512) cl j := by
    funext a; apply Fin.ext
    match a with
    | ⟨0, _⟩ => show win1_3.index t (0 : Fin 3) * 256 + 1 * r.val = t.val * 256 + r.val; omega
    | ⟨1, _⟩ => show win1_3.index t (1 : Fin 3) * 4 + 1 * cl.val = cl.val; omega
    | ⟨2, _⟩ => show win1_3.index t (2 : Fin 3) * 512 + 1 * j.val = j.val; omega
  show _ = pairFun V c (((cfg1.win 3).blk t).view.emb (ix3 r cl j))
  rw [h]
  show blockAt (iblk1 (F := Ideal) V c 0 t) (iblk1 (F := Ideal) V c 1 t) (iblk1 (F := Ideal) V c 2 t) r cl j
    = Cert.PairSpec.pairAt (V c main_v9_0) (V c main_v9_1) (V c main_v10) ⟨t.val * 256 + r.val, hi⟩ cl j
  unfold blockAt Cert.PairSpec.pairAt
  refine congrArg (fun l => Cert.PairSpec.lsm4 l cl) (funext fun c' => ?_)
  exact congrArg₂ (· + ·) (congrArg₂ (· + ·) (blk1_0_at V c t r c' ⟨t.val * 256 + r.val, hi⟩ rfl) (blk1_1_at V c t j c'))
    (blk1_2_at V c t 0 c')

/-- An entry is in point `t`'s block of the result iff each coordinate is in the block's range. -/
theorem mem_blk_pair (t : Fin cfg1.N) (i : S512x4x512.Idx) :
    i ∈ ((cfg1.win 3).blk t).view.set ↔ ∀ a : Fin 3, win1_3.index t a * S256x4x512.size a ≤ (i a).val ∧ (i a).val < win1_3.index t a * S256x4x512.size a + S256x4x512.size a := by
  show i ∈ ((View.whole main_v11).slice (win1_3.rect t)).set ↔ _
  rw [View.set_slice_whole, Rect.mem_set_unit]
  exact Iff.rfl

/-- The two blocks cover the result: row `i` is in the block of point `i / 256`. -/
theorem cover_pair (i : S512x4x512.Idx) :
    ∃ t : Fin cfg1.N, (cfg1.win 3).flush t = true ∧ i ∈ ((cfg1.win 3).blk t).view.set := by
  have hN : cfg1.N = 2 := N_1
  have h0 : (i 0).val < 512 := (i 0).isLt
  have h1 : (i 1).val < 4 := (i 1).isLt
  have h2 : (i 2).val < 512 := (i 2).isLt
  have hq : (i 0).val / 256 < cfg1.N := by omega
  refine ⟨⟨(i 0).val / 256, hq⟩, flush1_3 _, ?_⟩
  rw [mem_blk_pair]
  obtain ⟨-, -, -, -, -, -, e0, e1, e2⟩ := idx1 ⟨(i 0).val / 256, hq⟩
  have e0' : win1_3.index ⟨(i 0).val / 256, hq⟩ (0 : Fin 3) = (i 0).val / 256 := e0
  intro a
  match a with
  | ⟨0, _⟩ => show win1_3.index ⟨(i 0).val / 256, hq⟩ (0 : Fin 3) * 256 ≤ (i 0).val ∧ (i 0).val < win1_3.index ⟨(i 0).val / 256, hq⟩ (0 : Fin 3) * 256 + 256; omega
  | ⟨1, _⟩ => show win1_3.index ⟨(i 0).val / 256, hq⟩ (1 : Fin 3) * 4 ≤ (i 1).val ∧ (i 1).val < win1_3.index ⟨(i 0).val / 256, hq⟩ (1 : Fin 3) * 4 + 4; omega
  | ⟨2, _⟩ => show win1_3.index ⟨(i 0).val / 256, hq⟩ (2 : Fin 3) * 512 ≤ (i 2).val ∧ (i 2).val < win1_3.index ⟨(i 0).val / 256, hq⟩ (2 : Fin 3) * 512 + 512; omega

/-- The result array after the region is `pairFun`. -/
theorem final_pair (c : Dev nD) : (dat1 (F := Ideal) V c).arrAt 3 cfg1.N = pairFun V c :=
  (dat1 (F := Ideal) V c).arrAt_eq_of_cover 3 (pairFun V c) (fun t _ => flushed_pair V c t) cover_pair

end Cert.KernelIdeal.Region1

namespace Cert.KernelIdeal.RegionValue

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- The second region's result array holds, at `(i, c, j)`, the log-softmax over the classes of
    `lp(i, c') + rp(j, c') + b(0, c')`, at class `c`. -/
theorem pair_at (c : Dev nD) (i : Fin 512) (cl : Fin 4) (j : Fin 512) :
    (dat1 (F := Ideal) V c).arrAt 3 cfg1.N (ix3 i cl j)
      = Cert.PairSpec.pairAt (V c main_v9_0) (V c main_v9_1) (V c main_v10) i cl j := by
  rw [Cert.KernelIdeal.Region1.final_pair]
  rfl

end Cert.KernelIdeal.RegionValue

end
-- ==== Proof.KValue.lean ====
/-
  The idealized kernel's result at an entry, as the shared specification.

  Entry `(p, c)` of the kernel's result is the pair table at `(i, c, j)`, `i` and `j` the clamped index words of row
  `p`. The pair table is what the second region leaves: the log-softmax over the classes of `lp[i, ·] + rp[j, ·] +
  b`, where `lp` and `rp` — what the first region leaves — are the products of the selected rows with the left and
  the right half of the weight matrix. Reading the two halves as slices of `W` and the bias row as `b` gives the
  specification's `outAt` at the selected rows, `W`, `b` and the pair `(i, j)`.
-/
import proofs.«160593_j4922032521468_2_alg».proof.Proof.KTail
import proofs.«160593_j4922032521468_2_alg».proof.Proof.KLinks
import proofs.«160593_j4922032521468_2_alg».proof.Proof.KRegion0
import proofs.«160593_j4922032521468_2_alg».proof.Proof.KRegion1

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo Idealize.ShloMosaic.ValueIdx Cert.PairSpec
open scoped BigOperators

variable (m : (ℓ : Loc nD τ sig) → Buf (Elt Ideal) ℓ) (ρ : Dev nD → PrngReg)

/-- ENTRY `(p, cl)` OF THE KERNEL'S RESULT is the specification at the selected rows, the weights, the bias and the
    pair of rows that row `p` of the two index columns names. -/
theorem out_at (c : Dev nD) (p : Fin 130816) (cl : Fin 4) :
    W21 m ρ c (Proc.devRef .tc main_v45) (ix2 p cl)
      = outAt (V1 m ρ c main_v6) (m ((c.tc : Thread nD τ).loc main_arg2)) (m ((c.tc : Thread nD τ).loc main_arg3))
          (row (W21 m ρ c (Proc.devRef .tc main_v42) (ix2 p (0 : Fin 1))))
          (row (W21 m ρ c (Proc.devRef .tc main_v43) (ix2 p (0 : Fin 1)))) cl := by
  show after hostOps2_16 (W20 m ρ c) (Proc.devRef .tc main_v45) (ix2 p cl) = _
  rw [Cert.KernelIdeal.TailValue.out_read, Cert.KernelIdeal.Links.v11_kept m ρ c, Cert.KernelIdeal.RegionValue.pair_at]
  unfold pairAt outAt
  refine congrArg (fun l => lsm4 l cl) (funext fun c' => ?_)
  rw [Cert.KernelIdeal.Links.v9_0_eq m ρ c, Cert.KernelIdeal.Links.v9_1_eq m ρ c, Cert.KernelIdeal.RegionValue.lp_at,
    Cert.KernelIdeal.RegionValue.rp_at, Cert.KernelIdeal.Links.v10_at m ρ c c']
  unfold mmAt
  refine congrArg₂ (· + ·) (congrArg₂ (· + ·) ?_ ?_) rfl
  · exact Finset.sum_congr rfl fun k _ => by rw [Cert.KernelIdeal.Links.v7_at m ρ c c' k]
  · exact Finset.sum_congr rfl fun k _ => by rw [Cert.KernelIdeal.Links.v8_at m ρ c c' k]

end Cert.KernelIdeal.Value

end
-- ==== Proof.RefOps.lean ====
/-
  The reference computation as one straight line of array operations, and what its buffers hold once the line has run.

  The reference takes the rows of `embeds` named by `activity_index` (512 of them), forms every pair `i < j` of these
  rows side by side (130816 pairs, each a row of 1024 numbers), multiplies by the transpose of `W`, adds `b`, and takes
  the log-softmax over the four classes. The two columns of pair members are computed by integer array operations: the
  upper-triangle mask of a 512 by 512 square of ones, its running count, a scatter and a second running count that list
  the flat positions of the mask's entries, then a division and two remainders by 512.

  Here the program's operations are listed in their order, the operations of each function it calls written at the place of
  the call over that call's own buffers, in six consecutive stretches; the program is proved to be that line, the line is
  run (every weakly fair execution ends with each buffer at the fold of the operations over the launch contents), and the
  buffers no operation of a stretch writes are shown to keep their contents across it — in particular the four arguments
  across the whole line.
-/
import proofs.«160593_j4922032521468_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in six stretches -/

/-- Operations 1 to 39 of the 165: the upper-triangle mask of the 512 by 512 square, its row-major running count, and the scatter and second running count that turn the count into, for each pair number, the flat position of that pair in the square (through main_v15). -/
abbrev opsTri : List (HloOp τ sig (Elt F)) :=
  [ StableHlo.nullary main_cst (constant S_ .f32 0x3F800000#32),
    StableHlo.unary main_cst main_v0 (broadcastInDim S512x512 ![] bcast_S_S512x512 : (⟨S_, .f32⟩ : BufTy).Contents (Elt F) → (⟨S512x512, .f32⟩ : BufTy).Contents (Elt F)),
    StableHlo.TRef.nullary (.of main_call0_v0 : StableHlo.TRef sig ⟨S512x512, .i32⟩) (iotaInDim S512x512 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S512x512, .i32⟩) (broadcastInDim S512x512 ![] bcast_S_S512x512),
    StableHlo.TRef.binary (.of main_call0_v0 : StableHlo.TRef sig ⟨S512x512, .i32⟩) (.of main_call0_v1 : StableHlo.TRef sig ⟨S512x512, .i32⟩) (.of main_call0_v2 : StableHlo.TRef sig ⟨S512x512, .i32⟩) addi,
    StableHlo.TRef.nullary (.of main_call0_v3 : StableHlo.TRef sig ⟨S512x512, .i32⟩) (iotaInDim S512x512 32 1),
    StableHlo.TRef.binary (.of main_call0_v2 : StableHlo.TRef sig ⟨S512x512, .i32⟩) (.of main_call0_v3 : StableHlo.TRef sig ⟨S512x512, .i32⟩) (.of main_call0_v4 : StableHlo.TRef sig ⟨S512x512, .i1⟩) (cmpi .sge),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S512x512, .f32⟩) (broadcastInDim S512x512 ![] bcast_S_S512x512),
    StableHlo.TRef.ternary (.of main_call0_v4 : StableHlo.TRef sig ⟨S512x512, .i1⟩) (.of main_call0_v5 : StableHlo.TRef sig ⟨S512x512, .f32⟩) (.of main_v0 : StableHlo.TRef sig ⟨S512x512, .f32⟩) (.of main_v1 : StableHlo.TRef sig ⟨S512x512, .f32⟩) select,
    StableHlo.nullary main_cst_0 (constant S_ .f32 0x00000000#32),
    StableHlo.unary main_cst_0 main_v2 (broadcastInDim S512x512 ![] bcast_S_S512x512 : (⟨S_, .f32⟩ : BufTy).Contents (Elt F) → (⟨S512x512, .f32⟩ : BufTy).Contents (Elt F)),
    StableHlo.binary main_v1 main_v2 main_v3 (cmpf .une : (⟨S512x512, .f32⟩ : BufTy).Contents (Elt F) → (⟨S512x512, .f32⟩ : BufTy).Contents (Elt F) → (⟨S512x512, .i1⟩ : BufTy).Contents (Elt F)),
    StableHlo.TRef.reshape (.of main_v3 : StableHlo.TRef sig ⟨S512x512, .i1⟩) (.of main_call1_v0 : StableHlo.TRef sig ⟨S262144, .i1⟩) rfl shapeCasts_S512x512_S262144,
    StableHlo.TRef.unary (.of main_call1_v0 : StableHlo.TRef sig ⟨S262144, .i1⟩) (.of main_call1_v1 : StableHlo.TRef sig ⟨S262144, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S262144, .i32⟩) (.of main_call1_call0_v0 : StableHlo.TRef sig ⟨S_, .i32⟩) (.of main_v4 : StableHlo.TRef sig ⟨S262144, .i32⟩) (fun x v => Host.reduceWindow IntOp.addi ![262144] ![1] ![262143] ![0] x v reduceWindows_S262144_S262144_w262144s1p262143_0 h_S_),
    StableHlo.nullary main_c (constantI S_ 32 0#32),
    StableHlo.unary main_c main_v5 (broadcastInDim S130816 ![] bcast_S_S130816 : (⟨S_, .i32⟩ : BufTy).Contents (Elt F) → (⟨S130816, .i32⟩ : BufTy).Contents (Elt F)),
    StableHlo.nullary main_c_1 (constantI S_ 32 0#32),
    StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S262144, .i32⟩) (broadcastInDim S262144 ![] bcast_S_S262144),
    StableHlo.TRef.binary (.of main_call2_v1 : StableHlo.TRef sig ⟨S262144, .i32⟩) (.of main_v4 : StableHlo.TRef sig ⟨S262144, .i32⟩) (.of main_v6 : StableHlo.TRef sig ⟨S262144, .i32⟩) maxsi,
    StableHlo.nullary main_c_2 (constantI S_ 32 0#32),
    StableHlo.unary main_c_2 main_v7 (broadcastInDim S262144 ![] bcast_S_S262144 : (⟨S_, .i32⟩ : BufTy).Contents (Elt F) → (⟨S262144, .i32⟩ : BufTy).Contents (Elt F)),
    StableHlo.binary main_v6 main_v7 main_v8 (cmpi .slt : (⟨S262144, .i32⟩ : BufTy).Contents (Elt F) → (⟨S262144, .i32⟩ : BufTy).Contents (Elt F) → (⟨S262144, .i1⟩ : BufTy).Contents (Elt F)),
    StableHlo.nullary main_c_3 (constantI S_ 32 130816#32),
    StableHlo.unary main_c_3 main_v9 (broadcastInDim S262144 ![] bcast_S_S262144 : (⟨S_, .i32⟩ : BufTy).Contents (Elt F) → (⟨S262144, .i32⟩ : BufTy).Contents (Elt F)),
    StableHlo.binary main_v6 main_v9 main_v10 (addi : (⟨S262144, .i32⟩ : BufTy).Contents (Elt F) → (⟨S262144, .i32⟩ : BufTy).Contents (Elt F) → (⟨S262144, .i32⟩ : BufTy).Contents (Elt F)),
    StableHlo.ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v11 main_v12 (broadcastInDim S262144x1 ![0] bcast_S262144_S262144x1_0 : (⟨S262144, .i32⟩ : BufTy).Contents (Elt F) → (⟨S262144x1, .i32⟩ : BufTy).Contents (Elt F)),
    StableHlo.nullary main_c_4 (constantI S_ 32 1#32),
    StableHlo.unary main_c_4 main_v13 (broadcastInDim S262144 ![] bcast_S_S262144 : (⟨S_, .i32⟩ : BufTy).Contents (Elt F) → (⟨S262144, .i32⟩ : BufTy).Contents (Elt F)),
    StableHlo.ternary main_v5 main_v12 main_v13 main_v14 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S130816, .i32⟩) (.of main_call3_call0_v0 : StableHlo.TRef sig ⟨S_, .i32⟩) (.of main_v15 : StableHlo.TRef sig ⟨S130816, .i32⟩) (fun x v => Host.reduceWindow IntOp.addi ![130816] ![1] ![130815] ![0] x v reduceWindows_S130816_S130816_w130816s1p130815_0 h_S_) ]

theorem opsTri_sub : (opsTri : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

/-- Operations 40 to 78 of the 165: the first member of each pair: the flat position divided by 512 rounding down, then reduced modulo 512 (main_v16, main_v17). -/
abbrev opsI : List (HloOp τ sig (Elt F)) :=
  [ StableHlo.nullary main_c_5 (constantI S_ 32 512#32),
    StableHlo.TRef.unary (.of main_c_5 : StableHlo.TRef sig ⟨S_, .i32⟩) (.of main_call4_v0 : StableHlo.TRef sig ⟨S130816, .i32⟩) (broadcastInDim S130816 ![] bcast_S_S130816),
    StableHlo.TRef.binary (.of main_v15 : StableHlo.TRef sig ⟨S130816, .i32⟩) (.of main_call4_v0 : StableHlo.TRef sig ⟨S130816, .i32⟩) (.of main_call4_v1 : StableHlo.TRef sig ⟨S130816, .i32⟩) Host.divsi,
    StableHlo.TRef.unary (.of main_v15 : StableHlo.TRef sig ⟨S130816, .i32⟩) (.of main_call4_v2 : StableHlo.TRef sig ⟨S130816, .i32⟩) signi,
    StableHlo.TRef.unary (.of main_c_5 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S130816, .i32⟩) (broadcastInDim S130816 ![] bcast_S_S130816),
    StableHlo.TRef.binary (.of main_call4_v2 : StableHlo.TRef sig ⟨S130816, .i32⟩) (.of main_call4_v4 : StableHlo.TRef sig ⟨S130816, .i32⟩) (.of main_call4_v5 : StableHlo.TRef sig ⟨S130816, .i1⟩) (cmpi .ne),
    StableHlo.TRef.unary (.of main_c_5 : StableHlo.TRef sig ⟨S_, .i32⟩) (.of main_call4_v6 : StableHlo.TRef sig ⟨S130816, .i32⟩) (broadcastInDim S130816 ![] bcast_S_S130816),
    StableHlo.TRef.binary (.of main_v15 : StableHlo.TRef sig ⟨S130816, .i32⟩) (.of main_call4_v6 : StableHlo.TRef sig ⟨S130816, .i32⟩) (.of main_call4_v7 : StableHlo.TRef sig ⟨S130816, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S130816, .i32⟩) (broadcastInDim S130816 ![] bcast_S_S130816),
    StableHlo.TRef.binary (.of main_call4_v7 : StableHlo.TRef sig ⟨S130816, .i32⟩) (.of main_call4_v8 : StableHlo.TRef sig ⟨S130816, .i32⟩) (.of main_call4_v9 : StableHlo.TRef sig ⟨S130816, .i1⟩) (cmpi .ne),
    StableHlo.TRef.binary (.of main_call4_v5 : StableHlo.TRef sig ⟨S130816, .i1⟩) (.of main_call4_v9 : StableHlo.TRef sig ⟨S130816, .i1⟩) (.of main_call4_v10 : StableHlo.TRef sig ⟨S130816, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S130816, .i32⟩) (broadcastInDim S130816 ![] bcast_S_S130816),
    StableHlo.TRef.binary (.of main_call4_v1 : StableHlo.TRef sig ⟨S130816, .i32⟩) (.of main_call4_v11 : StableHlo.TRef sig ⟨S130816, .i32⟩) (.of main_call4_v12 : StableHlo.TRef sig ⟨S130816, .i32⟩) subi,
    StableHlo.TRef.ternary (.of main_call4_v10 : StableHlo.TRef sig ⟨S130816, .i1⟩) (.of main_call4_v12 : StableHlo.TRef sig ⟨S130816, .i32⟩) (.of main_call4_v1 : StableHlo.TRef sig ⟨S130816, .i32⟩) (.of main_v16 : StableHlo.TRef sig ⟨S130816, .i32⟩) select,
    StableHlo.nullary main_c_6 (constantI S_ 32 512#32),
    StableHlo.TRef.unary (.of main_c_6 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S130816, .i32⟩) (broadcastInDim S130816 ![] bcast_S_S130816),
    StableHlo.TRef.binary (.of main_v16 : StableHlo.TRef sig ⟨S130816, .i32⟩) (.of main_call5_v3 : StableHlo.TRef sig ⟨S130816, .i32⟩) (.of main_call5_v4 : StableHlo.TRef sig ⟨S130816, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S130816, .i32⟩) (broadcastInDim S130816 ![] bcast_S_S130816),
    StableHlo.TRef.binary (.of main_call5_v4 : StableHlo.TRef sig ⟨S130816, .i32⟩) (.of main_call5_v5 : StableHlo.TRef sig ⟨S130816, .i32⟩) (.of main_call5_v6 : StableHlo.TRef sig ⟨S130816, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S130816, .i32⟩) (broadcastInDim S130816 ![] bcast_S_S130816),
    StableHlo.TRef.binary (.of main_call5_v4 : StableHlo.TRef sig ⟨S130816, .i32⟩) (.of main_call5_v7 : StableHlo.TRef sig ⟨S130816, .i32⟩) (.of main_call5_v8 : StableHlo.TRef sig ⟨S130816, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S130816, .i1⟩) (broadcastInDim S130816 ![] bcast_S_S130816),
    StableHlo.TRef.binary (.of main_call5_v8 : StableHlo.TRef sig ⟨S130816, .i1⟩) (.of main_call5_v10 : StableHlo.TRef sig ⟨S130816, .i1⟩) (.of main_call5_v11 : StableHlo.TRef sig ⟨S130816, .i1⟩) (cmpi .ne),
    StableHlo.TRef.binary (.of main_call5_v11 : StableHlo.TRef sig ⟨S130816, .i1⟩) (.of main_call5_v6 : StableHlo.TRef sig ⟨S130816, .i1⟩) (.of main_call5_v12 : StableHlo.TRef sig ⟨S130816, .i1⟩) andi,
    StableHlo.TRef.unary (.of main_call5_v2 : StableHlo.TRef sig ⟨S_, .i32⟩) (.of main_call5_v13 : StableHlo.TRef sig ⟨S130816, .i32⟩) (broadcastInDim S130816 ![] bcast_S_S130816),
    StableHlo.TRef.binary (.of main_call5_v4 : StableHlo.TRef sig ⟨S130816, .i32⟩) (.of main_call5_v13 : StableHlo.TRef sig ⟨S130816, .i32⟩) (.of main_call5_v14 : StableHlo.TRef sig ⟨S130816, .i32⟩) addi,
    StableHlo.TRef.ternary (.of main_call5_v12 : StableHlo.TRef sig ⟨S130816, .i1⟩) (.of main_call5_v14 : StableHlo.TRef sig ⟨S130816, .i32⟩) (.of main_call5_v4 : StableHlo.TRef sig ⟨S130816, .i32⟩) (.of main_v17 : StableHlo.TRef sig ⟨S130816, .i32⟩) select ]

theorem opsI_sub : (opsI : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 79 to 117 of the 165: the second member of each pair: the flat position divided by 1 rounding down, then reduced modulo 512 (main_v18, main_v19). -/
abbrev opsJ : List (HloOp τ sig (Elt F)) :=
  [ StableHlo.nullary main_c_7 (constantI S_ 32 1#32),
    StableHlo.TRef.unary (.of main_c_7 : StableHlo.TRef sig ⟨S_, .i32⟩) (.of main_call6_v0 : StableHlo.TRef sig ⟨S130816, .i32⟩) (broadcastInDim S130816 ![] bcast_S_S130816),
    StableHlo.TRef.binary (.of main_v15 : StableHlo.TRef sig ⟨S130816, .i32⟩) (.of main_call6_v0 : StableHlo.TRef sig ⟨S130816, .i32⟩) (.of main_call6_v1 : StableHlo.TRef sig ⟨S130816, .i32⟩) Host.divsi,
    StableHlo.TRef.unary (.of main_v15 : StableHlo.TRef sig ⟨S130816, .i32⟩) (.of main_call6_v2 : StableHlo.TRef sig ⟨S130816, .i32⟩) signi,
    StableHlo.TRef.unary (.of main_c_7 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S130816, .i32⟩) (broadcastInDim S130816 ![] bcast_S_S130816),
    StableHlo.TRef.binary (.of main_call6_v2 : StableHlo.TRef sig ⟨S130816, .i32⟩) (.of main_call6_v4 : StableHlo.TRef sig ⟨S130816, .i32⟩) (.of main_call6_v5 : StableHlo.TRef sig ⟨S130816, .i1⟩) (cmpi .ne),
    StableHlo.TRef.unary (.of main_c_7 : StableHlo.TRef sig ⟨S_, .i32⟩) (.of main_call6_v6 : StableHlo.TRef sig ⟨S130816, .i32⟩) (broadcastInDim S130816 ![] bcast_S_S130816),
    StableHlo.TRef.binary (.of main_v15 : StableHlo.TRef sig ⟨S130816, .i32⟩) (.of main_call6_v6 : StableHlo.TRef sig ⟨S130816, .i32⟩) (.of main_call6_v7 : StableHlo.TRef sig ⟨S130816, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S130816, .i32⟩) (broadcastInDim S130816 ![] bcast_S_S130816),
    StableHlo.TRef.binary (.of main_call6_v7 : StableHlo.TRef sig ⟨S130816, .i32⟩) (.of main_call6_v8 : StableHlo.TRef sig ⟨S130816, .i32⟩) (.of main_call6_v9 : StableHlo.TRef sig ⟨S130816, .i1⟩) (cmpi .ne),
    StableHlo.TRef.binary (.of main_call6_v5 : StableHlo.TRef sig ⟨S130816, .i1⟩) (.of main_call6_v9 : StableHlo.TRef sig ⟨S130816, .i1⟩) (.of main_call6_v10 : StableHlo.TRef sig ⟨S130816, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S130816, .i32⟩) (broadcastInDim S130816 ![] bcast_S_S130816),
    StableHlo.TRef.binary (.of main_call6_v1 : StableHlo.TRef sig ⟨S130816, .i32⟩) (.of main_call6_v11 : StableHlo.TRef sig ⟨S130816, .i32⟩) (.of main_call6_v12 : StableHlo.TRef sig ⟨S130816, .i32⟩) subi,
    StableHlo.TRef.ternary (.of main_call6_v10 : StableHlo.TRef sig ⟨S130816, .i1⟩) (.of main_call6_v12 : StableHlo.TRef sig ⟨S130816, .i32⟩) (.of main_call6_v1 : StableHlo.TRef sig ⟨S130816, .i32⟩) (.of main_v18 : StableHlo.TRef sig ⟨S130816, .i32⟩) select,
    StableHlo.nullary main_c_8 (constantI S_ 32 512#32),
    StableHlo.TRef.unary (.of main_c_8 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary (.of main_call7_v2 : StableHlo.TRef sig ⟨S_, .i32⟩) (.of main_call7_v3 : StableHlo.TRef sig ⟨S130816, .i32⟩) (broadcastInDim S130816 ![] bcast_S_S130816),
    StableHlo.TRef.binary (.of main_v18 : StableHlo.TRef sig ⟨S130816, .i32⟩) (.of main_call7_v3 : StableHlo.TRef sig ⟨S130816, .i32⟩) (.of main_call7_v4 : StableHlo.TRef sig ⟨S130816, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S130816, .i32⟩) (broadcastInDim S130816 ![] bcast_S_S130816),
    StableHlo.TRef.binary (.of main_call7_v4 : StableHlo.TRef sig ⟨S130816, .i32⟩) (.of main_call7_v5 : StableHlo.TRef sig ⟨S130816, .i32⟩) (.of main_call7_v6 : StableHlo.TRef sig ⟨S130816, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S130816, .i32⟩) (broadcastInDim S130816 ![] bcast_S_S130816),
    StableHlo.TRef.binary (.of main_call7_v4 : StableHlo.TRef sig ⟨S130816, .i32⟩) (.of main_call7_v7 : StableHlo.TRef sig ⟨S130816, .i32⟩) (.of main_call7_v8 : StableHlo.TRef sig ⟨S130816, .i1⟩) (cmpi .slt),
    StableHlo.TRef.nullary (.of main_call7_c_3 : StableHlo.TRef sig ⟨S_, .i32⟩) (constantI S_ 32 0#32),
    StableHlo.TRef.binary (.of main_call7_v2 : StableHlo.TRef sig ⟨S_, .i32⟩) (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S130816, .i1⟩) (broadcastInDim S130816 ![] bcast_S_S130816),
    StableHlo.TRef.binary (.of main_call7_v8 : StableHlo.TRef sig ⟨S130816, .i1⟩) (.of main_call7_v10 : StableHlo.TRef sig ⟨S130816, .i1⟩) (.of main_call7_v11 : StableHlo.TRef sig ⟨S130816, .i1⟩) (cmpi .ne),
    StableHlo.TRef.binary (.of main_call7_v11 : StableHlo.TRef sig ⟨S130816, .i1⟩) (.of main_call7_v6 : StableHlo.TRef sig ⟨S130816, .i1⟩) (.of main_call7_v12 : StableHlo.TRef sig ⟨S130816, .i1⟩) andi,
    StableHlo.TRef.unary (.of main_call7_v2 : StableHlo.TRef sig ⟨S_, .i32⟩) (.of main_call7_v13 : StableHlo.TRef sig ⟨S130816, .i32⟩) (broadcastInDim S130816 ![] bcast_S_S130816),
    StableHlo.TRef.binary (.of main_call7_v4 : StableHlo.TRef sig ⟨S130816, .i32⟩) (.of main_call7_v13 : StableHlo.TRef sig ⟨S130816, .i32⟩) (.of main_call7_v14 : StableHlo.TRef sig ⟨S130816, .i32⟩) addi,
    StableHlo.TRef.ternary (.of main_call7_v12 : StableHlo.TRef sig ⟨S130816, .i1⟩) (.of main_call7_v14 : StableHlo.TRef sig ⟨S130816, .i32⟩) (.of main_call7_v4 : StableHlo.TRef sig ⟨S130816, .i32⟩) (.of main_v19 : StableHlo.TRef sig ⟨S130816, .i32⟩) select ]

theorem opsJ_sub : (opsJ : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 118 to 134 of the 165: the 512 selected rows (main_v26: negative row numbers wrapped by 4096, then the row gather) and the column of first members, negative ones wrapped by 512 (main_v32). -/
abbrev opsMidA : List (HloOp τ sig (Elt F)) :=
  [ StableHlo.nullary main_c_9 (constantI S_ 32 0#32),
    StableHlo.unary main_c_9 main_v20 (broadcastInDim S512 ![] bcast_S_S512 : (⟨S_, .i32⟩ : BufTy).Contents (Elt F) → (⟨S512, .i32⟩ : BufTy).Contents (Elt F)),
    StableHlo.binary main_arg1 main_v20 main_v21 (cmpi .slt : (⟨S512, .i32⟩ : BufTy).Contents (Elt F) → (⟨S512, .i32⟩ : BufTy).Contents (Elt F) → (⟨S512, .i1⟩ : BufTy).Contents (Elt F)),
    StableHlo.nullary main_c_10 (constantI S_ 32 4096#32),
    StableHlo.unary main_c_10 main_v22 (broadcastInDim S512 ![] bcast_S_S512 : (⟨S_, .i32⟩ : BufTy).Contents (Elt F) → (⟨S512, .i32⟩ : BufTy).Contents (Elt F)),
    StableHlo.binary main_arg1 main_v22 main_v23 (addi : (⟨S512, .i32⟩ : BufTy).Contents (Elt F) → (⟨S512, .i32⟩ : BufTy).Contents (Elt F) → (⟨S512, .i32⟩ : BufTy).Contents (Elt F)),
    StableHlo.ternary main_v21 main_v23 main_arg1 main_v24 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v24 main_v25 (broadcastInDim S512x1 ![0] bcast_S512_S512x1_0 : (⟨S512, .i32⟩ : BufTy).Contents (Elt F) → (⟨S512x1, .i32⟩ : BufTy).Contents (Elt F)),
    StableHlo.binary main_arg0 main_v25 main_v26 ((fun x i => Host.gather gather_S4096x512_S512x1_S512x512_1_0_n_n_0_1_1512 x i) : (⟨S4096x512, .f32⟩ : BufTy).Contents (Elt F) → (⟨S512x1, .i32⟩ : BufTy).Contents (Elt F) → (⟨S512x512, .f32⟩ : BufTy).Contents (Elt F)),
    StableHlo.nullary main_c_11 (constantI S_ 32 0#32),
    StableHlo.unary main_c_11 main_v27 (broadcastInDim S130816 ![] bcast_S_S130816 : (⟨S_, .i32⟩ : BufTy).Contents (Elt F) → (⟨S130816, .i32⟩ : BufTy).Contents (Elt F)),
    StableHlo.binary main_v17 main_v27 main_v28 (cmpi .slt : (⟨S130816, .i32⟩ : BufTy).Contents (Elt F) → (⟨S130816, .i32⟩ : BufTy).Contents (Elt F) → (⟨S130816, .i1⟩ : BufTy).Contents (Elt F)),
    StableHlo.nullary main_c_12 (constantI S_ 32 512#32),
    StableHlo.unary main_c_12 main_v29 (broadcastInDim S130816 ![] bcast_S_S130816 : (⟨S_, .i32⟩ : BufTy).Contents (Elt F) → (⟨S130816, .i32⟩ : BufTy).Contents (Elt F)),
    StableHlo.binary main_v17 main_v29 main_v30 (addi : (⟨S130816, .i32⟩ : BufTy).Contents (Elt F) → (⟨S130816, .i32⟩ : BufTy).Contents (Elt F) → (⟨S130816, .i32⟩ : BufTy).Contents (Elt F)),
    StableHlo.ternary main_v28 main_v30 main_v17 main_v31 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    StableHlo.unary main_v31 main_v32 (broadcastInDim S130816x1 ![0] bcast_S130816_S130816x1_0 : (⟨S130816, .i32⟩ : BufTy).Contents (Elt F) → (⟨S130816x1, .i32⟩ : BufTy).Contents (Elt F)) ]

theorem opsMidA_sub : (opsMidA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- Operations 135 to 144 of the 165: the rows of the first members (main_v33), the column of second members wrapped the same way (main_v39), and the rows of the second members (main_v40). -/
abbrev opsMidB : List (HloOp τ sig (Elt F)) :=
  [ StableHlo.binary main_v26 main_v32 main_v33 ((fun x i => Host.gather gather_S512x512_S130816x1_S130816x512_1_0_n_n_0_1_1512 x i) : (⟨S512x512, .f32⟩ : BufTy).Contents (Elt F) → (⟨S130816x1, .i32⟩ : BufTy).Contents (Elt F) → (⟨S130816x512, .f32⟩ : BufTy).Contents (Elt F)),
    StableHlo.nullary main_c_13 (constantI S_ 32 0#32),
    StableHlo.unary main_c_13 main_v34 (broadcastInDim S130816 ![] bcast_S_S130816 : (⟨S_, .i32⟩ : BufTy).Contents (Elt F) → (⟨S130816, .i32⟩ : BufTy).Contents (Elt F)),
    StableHlo.binary main_v19 main_v34 main_v35 (cmpi .slt : (⟨S130816, .i32⟩ : BufTy).Contents (Elt F) → (⟨S130816, .i32⟩ : BufTy).Contents (Elt F) → (⟨S130816, .i1⟩ : BufTy).Contents (Elt F)),
    StableHlo.nullary main_c_14 (constantI S_ 32 512#32),
    StableHlo.unary main_c_14 main_v36 (broadcastInDim S130816 ![] bcast_S_S130816 : (⟨S_, .i32⟩ : BufTy).Contents (Elt F) → (⟨S130816, .i32⟩ : BufTy).Contents (Elt F)),
    StableHlo.binary main_v19 main_v36 main_v37 (addi : (⟨S130816, .i32⟩ : BufTy).Contents (Elt F) → (⟨S130816, .i32⟩ : BufTy).Contents (Elt F) → (⟨S130816, .i32⟩ : BufTy).Contents (Elt F)),
    StableHlo.ternary main_v35 main_v37 main_v19 main_v38 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    StableHlo.unary main_v38 main_v39 (broadcastInDim S130816x1 ![0] bcast_S130816_S130816x1_0 : (⟨S130816, .i32⟩ : BufTy).Contents (Elt F) → (⟨S130816x1, .i32⟩ : BufTy).Contents (Elt F)),
    StableHlo.binary main_v26 main_v39 main_v40 ((fun x i => Host.gather gather_S512x512_S130816x1_S130816x512_1_0_n_n_0_1_1512 x i) : (⟨S512x512, .f32⟩ : BufTy).Contents (Elt F) → (⟨S130816x1, .i32⟩ : BufTy).Contents (Elt F) → (⟨S130816x512, .f32⟩ : BufTy).Contents (Elt F)) ]

theorem opsMidB_sub : (opsMidB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub ..⟩

/-- Operations 145 to 165 of the 165: the two row blocks side by side (main_v41), the transposed weights (main_v42), their product (main_v43), the bias along the classes (main_v44 to main_v46), and the log-softmax over the four classes (main_v47). -/
abbrev opsOut : List (HloOp τ sig (Elt F)) :=
  [ StableHlo.binary main_v33 main_v40 main_v41 ((fun a b => concatenate S130816x1024 1 [⟨S130816x512, a⟩, ⟨S130816x512, b⟩] concatenates_S130816x512_S130816x512_S130816x1024_d1) : (⟨S130816x512, .f32⟩ : BufTy).Contents (Elt F) → (⟨S130816x512, .f32⟩ : BufTy).Contents (Elt F) → (⟨S130816x1024, .f32⟩ : BufTy).Contents (Elt F)),
    StableHlo.unary main_arg2 main_v42 ((transpose S1024x4 [1, 0] · transposes_S4x1024_S1024x4_1_0) : (⟨S4x1024, .f32⟩ : BufTy).Contents (Elt F) → (⟨S1024x4, .f32⟩ : BufTy).Contents (Elt F)),
    StableHlo.binary main_v41 main_v42 main_v43 ((fun l r => Host.dotGeneral dot_S130816x1024_S1024x4_S130816x4_1_0_0_1_n_n none l r) : (⟨S130816x1024, .f32⟩ : BufTy).Contents (Elt F) → (⟨S1024x4, .f32⟩ : BufTy).Contents (Elt F) → (⟨S130816x4, .f32⟩ : BufTy).Contents (Elt F)),
    StableHlo.unary main_arg3 main_v44 (broadcastInDim S1x4 ![1] bcast_S4_S1x4_1 : (⟨S4, .f32⟩ : BufTy).Contents (Elt F) → (⟨S1x4, .f32⟩ : BufTy).Contents (Elt F)),
    StableHlo.unary main_v44 main_v45 (broadcastInDim S130816x4 ![0, 1] bcast_S1x4_S130816x4_0_1 : (⟨S1x4, .f32⟩ : BufTy).Contents (Elt F) → (⟨S130816x4, .f32⟩ : BufTy).Contents (Elt F)),
    StableHlo.binary main_v43 main_v45 main_v46 (addf : (⟨S130816x4, .f32⟩ : BufTy).Contents (Elt F) → (⟨S130816x4, .f32⟩ : BufTy).Contents (Elt F) → (⟨S130816x4, .f32⟩ : BufTy).Contents (Elt F)),
    StableHlo.TRef.nullary (.of main_call8_cst : StableHlo.TRef sig ⟨S_, .f32⟩) (constant S_ .f32 0xFF800000#32),
    StableHlo.TRef.binary (.of main_v46 : StableHlo.TRef sig ⟨S130816x4, .f32⟩) (.of main_call8_cst : StableHlo.TRef sig ⟨S_, .f32⟩) (.of main_call8_v0 : StableHlo.TRef sig ⟨S130816, .f32⟩) (fun x v => Host.reduce FloatOps.maximumf x v reducesTo_S130816x4_S130816_d1 h_S_),
    StableHlo.TRef.nullary (.of main_call8_cst_0 : StableHlo.TRef sig ⟨S_, .f32⟩) (constant S_ .f32 0xFF800000#32),
    StableHlo.TRef.unary (.of main_call8_cst_0 : StableHlo.TRef sig ⟨S_, .f32⟩) (.of main_call8_v1 : StableHlo.TRef sig ⟨S130816, .f32⟩) (broadcastInDim S130816 ![] bcast_S_S130816),
    StableHlo.TRef.binary (.of main_call8_v1 : StableHlo.TRef sig ⟨S130816, .f32⟩) (.of main_call8_v0 : StableHlo.TRef sig ⟨S130816, .f32⟩) (.of main_call8_v2 : StableHlo.TRef sig ⟨S130816, .f32⟩) maximumf,
    StableHlo.TRef.unary (.of main_call8_v2 : StableHlo.TRef sig ⟨S130816, .f32⟩) (.of main_call8_v3 : StableHlo.TRef sig ⟨S130816x1, .f32⟩) (broadcastInDim S130816x1 ![0] bcast_S130816_S130816x1_0),
    StableHlo.TRef.unary (.of main_call8_v3 : StableHlo.TRef sig ⟨S130816x1, .f32⟩) (.of main_call8_v4 : StableHlo.TRef sig ⟨S130816x4, .f32⟩) (broadcastInDim S130816x4 ![0, 1] bcast_S130816x1_S130816x4_0_1),
    StableHlo.TRef.binary (.of main_v46 : StableHlo.TRef sig ⟨S130816x4, .f32⟩) (.of main_call8_v4 : StableHlo.TRef sig ⟨S130816x4, .f32⟩) (.of main_call8_v5 : StableHlo.TRef sig ⟨S130816x4, .f32⟩) subf,
    StableHlo.TRef.unary (.of main_call8_v5 : StableHlo.TRef sig ⟨S130816x4, .f32⟩) (.of main_call8_v6 : StableHlo.TRef sig ⟨S130816x4, .f32⟩) Host.exp,
    StableHlo.TRef.nullary (.of main_call8_cst_1 : StableHlo.TRef sig ⟨S_, .f32⟩) (constant S_ .f32 0x00000000#32),
    StableHlo.TRef.binary (.of main_call8_v6 : StableHlo.TRef sig ⟨S130816x4, .f32⟩) (.of main_call8_cst_1 : StableHlo.TRef sig ⟨S_, .f32⟩) (.of main_call8_v7 : StableHlo.TRef sig ⟨S130816, .f32⟩) (fun x v => Host.reduceAdd x v reducesTo_S130816x4_S130816_d1 h_S_),
    StableHlo.TRef.unary (.of main_call8_v7 : StableHlo.TRef sig ⟨S130816, .f32⟩) (.of main_call8_v8 : StableHlo.TRef sig ⟨S130816x1, .f32⟩) (broadcastInDim S130816x1 ![0] bcast_S130816_S130816x1_0),
    StableHlo.TRef.unary (.of main_call8_v8 : StableHlo.TRef sig ⟨S130816x1, .f32⟩) (.of main_call8_v9 : StableHlo.TRef sig ⟨S130816x1, .f32⟩) Host.log,
    StableHlo.TRef.unary (.of main_call8_v9 : StableHlo.TRef sig ⟨S130816x1, .f32⟩) (.of main_call8_v10 : StableHlo.TRef sig ⟨S130816x4, .f32⟩) (broadcastInDim S130816x4 ![0, 1] bcast_S130816x1_S130816x4_0_1),
    StableHlo.TRef.binary (.of main_call8_v5 : StableHlo.TRef sig ⟨S130816x4, .f32⟩) (.of main_call8_v10 : StableHlo.TRef sig ⟨S130816x4, .f32⟩) (.of main_v47 : StableHlo.TRef sig ⟨S130816x4, .f32⟩) subf ]

theorem opsOut_sub : (opsOut : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffers the operations of `opsTri` write, in order (each exactly once). -/
abbrev opsTri_written : List (Ref sig .tc) :=
  [main_cst, main_v0, main_call0_v0, main_call0_c, main_call0_v1, main_call0_v2, main_call0_v3, main_call0_v4, main_call0_cst, main_call0_v5, main_v1, main_cst_0, main_v2, main_v3, main_call1_v0, main_call1_v1, main_call1_call0_c, main_call1_call0_v0, main_v4, main_c, main_v5, main_c_1, main_call2_v0, main_call2_v1, main_v6, main_c_2, main_v7, main_v8, main_c_3, main_v9, main_v10, main_v11, main_v12, main_c_4, main_v13, main_v14, main_call3_call0_c, main_call3_call0_v0, main_v15]

/-- The buffers the operations of `opsI` write, in order (each exactly once). -/
abbrev opsI_written : List (Ref sig .tc) :=
  [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v16, main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17]

/-- The buffers the operations of `opsJ` write, in order (each exactly once). -/
abbrev opsJ_written : List (Ref sig .tc) :=
  [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v18, main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v19]

/-- The buffers the operations of `opsMidA` write, in order (each exactly once). -/
abbrev opsMidA_written : List (Ref sig .tc) :=
  [main_c_9, main_v20, main_v21, main_c_10, main_v22, main_v23, main_v24, main_v25, main_v26, main_c_11, main_v27, main_v28, main_c_12, main_v29, main_v30, main_v31, main_v32]

/-- The buffers the operations of `opsMidB` write, in order (each exactly once). -/
abbrev opsMidB_written : List (Ref sig .tc) :=
  [main_v33, main_c_13, main_v34, main_v35, main_c_14, main_v36, main_v37, main_v38, main_v39, main_v40]

/-- The buffers the operations of `opsOut` write, in order (each exactly once). -/
abbrev opsOut_written : List (Ref sig .tc) :=
  [main_v41, main_v42, main_v43, main_v44, main_v45, main_v46, main_call8_cst, main_call8_v0, main_call8_cst_0, main_call8_v1, main_call8_v2, main_call8_v3, main_call8_v4, main_call8_v5, main_call8_v6, main_call8_cst_1, main_call8_v7, main_call8_v8, main_call8_v9, main_call8_v10, main_v47]

/-- The index chain: everything up to the two columns of pair members (through main_v19). -/
abbrev opsIdx : List (HloOp τ sig (Elt F)) := opsTri ++ (opsI ++ opsJ)

/-- The selected rows and their gathers by the two columns (main_v20 to main_v40). -/
abbrev opsMid : List (HloOp τ sig (Elt F)) := opsMidA ++ opsMidB

/-- The program's 165 operations, in order. -/
abbrev ops : List (HloOp τ sig (Elt F)) := opsIdx ++ (opsMid ++ opsOut)

/-! ## The program is that line -/

set_option maxRecDepth 16384 in
set_option maxHeartbeats 4000000 in
/-- The program is the straight line `ops`: the called functions' definitions unfolded at their calls, both sides are one
    chain of single operations once sequencing is reassociated. -/
theorem main_eq (c : Dev nD) : main (F := F) c = seq ops := by
  simp only [ops, opsIdx, opsMid, seq_append]
  simp only [main, main_part0, main_part1, fn_triu.body, fn_cumsum_0.body, fn_cumsum.body, fn_clip.body, fn_cumsum_2.body, fn_cumsum_1.body, fn_where.body, fn_floor_divide.body, fn_where_3.body, fn_remainder.body, fn_log_softmax.body,
    opsTri, opsI, opsJ, opsMidA, opsMidB, opsOut, seq, bind_assoc, pure_bind]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  List.forall_append.mpr ⟨List.forall_append.mpr ⟨opsTri_sub, List.forall_append.mpr ⟨opsI_sub, opsJ_sub⟩⟩,
    List.forall_append.mpr ⟨List.forall_append.mpr ⟨opsMidA_sub, opsMidB_sub⟩, opsOut_sub⟩⟩

theorem opsTri_fresh : ∀ op ∈ (opsTri : List (HloOp τ sig (Elt F))), op.fresh = ∅ := by
  intro _ h; (repeat (cases h with | head => rfl | tail _ h => ?_)); exact nomatch h
theorem opsI_fresh : ∀ op ∈ (opsI : List (HloOp τ sig (Elt F))), op.fresh = ∅ := by
  intro _ h; (repeat (cases h with | head => rfl | tail _ h => ?_)); exact nomatch h
theorem opsJ_fresh : ∀ op ∈ (opsJ : List (HloOp τ sig (Elt F))), op.fresh = ∅ := by
  intro _ h; (repeat (cases h with | head => rfl | tail _ h => ?_)); exact nomatch h
theorem opsMidA_fresh : ∀ op ∈ (opsMidA : List (HloOp τ sig (Elt F))), op.fresh = ∅ := by
  intro _ h; (repeat (cases h with | head => rfl | tail _ h => ?_)); exact nomatch h
theorem opsMidB_fresh : ∀ op ∈ (opsMidB : List (HloOp τ sig (Elt F))), op.fresh = ∅ := by
  intro _ h; (repeat (cases h with | head => rfl | tail _ h => ?_)); exact nomatch h
theorem opsOut_fresh : ∀ op ∈ (opsOut : List (HloOp τ sig (Elt F))), op.fresh = ∅ := by
  intro _ h; (repeat (cases h with | head => rfl | tail _ h => ?_)); exact nomatch h

/-- Every operation of the line determines its results. -/
theorem ops_fresh : ∀ op ∈ (ops : List (HloOp τ sig (Elt F))), op.fresh = ∅ := by
  intro op h
  simp only [ops, opsIdx, opsMid, List.mem_append] at h
  rcases h with (h | h | h) | (h | h) | h
  exacts [opsTri_fresh op h, opsI_fresh op h, opsJ_fresh op h, opsMidA_fresh op h, opsMidB_fresh op h, opsOut_fresh op h]

/-- For any float values, from any memory with zero counters: every weakly fair execution of the program terminates, and
    every final state has each buffer of the core at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What a stretch leaves alone

Each operation writes one buffer; a buffer that is not among those a stretch writes holds after the stretch what it held
before. -/

/-- An operation writing the single buffer `y`, `y` in the list `W`: what it writes is within `W`. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

theorem opsTri_writes : (opsTri : List (HloOp τ sig (Elt F))).Forall fun op => op.writes ⊆ ((opsTri_written).map (Proc.devRef (τ := τ) .tc)).toFinset :=
  ⟨writes_sub_of_mem (y := main_cst) rfl (by decide),
   writes_sub_of_mem (y := main_v0) rfl (by decide),
   writes_sub_of_mem (y := main_call0_v0) rfl (by decide),
   writes_sub_of_mem (y := main_call0_c) rfl (by decide),
   writes_sub_of_mem (y := main_call0_v1) rfl (by decide),
   writes_sub_of_mem (y := main_call0_v2) rfl (by decide),
   writes_sub_of_mem (y := main_call0_v3) rfl (by decide),
   writes_sub_of_mem (y := main_call0_v4) rfl (by decide),
   writes_sub_of_mem (y := main_call0_cst) rfl (by decide),
   writes_sub_of_mem (y := main_call0_v5) rfl (by decide),
   writes_sub_of_mem (y := main_v1) rfl (by decide),
   writes_sub_of_mem (y := main_cst_0) rfl (by decide),
   writes_sub_of_mem (y := main_v2) rfl (by decide),
   writes_sub_of_mem (y := main_v3) rfl (by decide),
   writes_sub_of_mem (y := main_call1_v0) rfl (by decide),
   writes_sub_of_mem (y := main_call1_v1) rfl (by decide),
   writes_sub_of_mem (y := main_call1_call0_c) rfl (by decide),
   writes_sub_of_mem (y := main_call1_call0_v0) rfl (by decide),
   writes_sub_of_mem (y := main_v4) rfl (by decide),
   writes_sub_of_mem (y := main_c) rfl (by decide),
   writes_sub_of_mem (y := main_v5) rfl (by decide),
   writes_sub_of_mem (y := main_c_1) rfl (by decide),
   writes_sub_of_mem (y := main_call2_v0) rfl (by decide),
   writes_sub_of_mem (y := main_call2_v1) rfl (by decide),
   writes_sub_of_mem (y := main_v6) rfl (by decide),
   writes_sub_of_mem (y := main_c_2) rfl (by decide),
   writes_sub_of_mem (y := main_v7) rfl (by decide),
   writes_sub_of_mem (y := main_v8) rfl (by decide),
   writes_sub_of_mem (y := main_c_3) rfl (by decide),
   writes_sub_of_mem (y := main_v9) rfl (by decide),
   writes_sub_of_mem (y := main_v10) rfl (by decide),
   writes_sub_of_mem (y := main_v11) rfl (by decide),
   writes_sub_of_mem (y := main_v12) rfl (by decide),
   writes_sub_of_mem (y := main_c_4) rfl (by decide),
   writes_sub_of_mem (y := main_v13) rfl (by decide),
   writes_sub_of_mem (y := main_v14) rfl (by decide),
   writes_sub_of_mem (y := main_call3_call0_c) rfl (by decide),
   writes_sub_of_mem (y := main_call3_call0_v0) rfl (by decide),
   writes_sub_of_mem (y := main_v15) rfl (by decide)⟩

/-- A buffer `opsTri` does not write keeps its contents across it. -/
theorem opsTri_frame {r : Ref sig .tc} (hr : r ∉ opsTri_written) (V : Valuation τ sig (Elt F)) :
    after opsTri V (r : DevRef τ sig) = V (r : DevRef τ sig) :=
  after_of_writes_sub opsTri V opsTri_writes hr

theorem opsI_writes : (opsI : List (HloOp τ sig (Elt F))).Forall fun op => op.writes ⊆ ((opsI_written).map (Proc.devRef (τ := τ) .tc)).toFinset :=
  ⟨writes_sub_of_mem (y := main_c_5) rfl (by decide),
   writes_sub_of_mem (y := main_call4_v0) rfl (by decide),
   writes_sub_of_mem (y := main_call4_v1) rfl (by decide),
   writes_sub_of_mem (y := main_call4_v2) rfl (by decide),
   writes_sub_of_mem (y := main_call4_v3) rfl (by decide),
   writes_sub_of_mem (y := main_call4_v4) rfl (by decide),
   writes_sub_of_mem (y := main_call4_v5) rfl (by decide),
   writes_sub_of_mem (y := main_call4_v6) rfl (by decide),
   writes_sub_of_mem (y := main_call4_v7) rfl (by decide),
   writes_sub_of_mem (y := main_call4_c) rfl (by decide),
   writes_sub_of_mem (y := main_call4_v8) rfl (by decide),
   writes_sub_of_mem (y := main_call4_v9) rfl (by decide),
   writes_sub_of_mem (y := main_call4_v10) rfl (by decide),
   writes_sub_of_mem (y := main_call4_c_0) rfl (by decide),
   writes_sub_of_mem (y := main_call4_v11) rfl (by decide),
   writes_sub_of_mem (y := main_call4_v12) rfl (by decide),
   writes_sub_of_mem (y := main_v16) rfl (by decide),
   writes_sub_of_mem (y := main_c_6) rfl (by decide),
   writes_sub_of_mem (y := main_call5_v0) rfl (by decide),
   writes_sub_of_mem (y := main_call5_c) rfl (by decide),
   writes_sub_of_mem (y := main_call5_v1) rfl (by decide),
   writes_sub_of_mem (y := main_call5_c_0) rfl (by decide),
   writes_sub_of_mem (y := main_call5_v2) rfl (by decide),
   writes_sub_of_mem (y := main_call5_v3) rfl (by decide),
   writes_sub_of_mem (y := main_call5_v4) rfl (by decide),
   writes_sub_of_mem (y := main_call5_c_1) rfl (by decide),
   writes_sub_of_mem (y := main_call5_v5) rfl (by decide),
   writes_sub_of_mem (y := main_call5_v6) rfl (by decide),
   writes_sub_of_mem (y := main_call5_c_2) rfl (by decide),
   writes_sub_of_mem (y := main_call5_v7) rfl (by decide),
   writes_sub_of_mem (y := main_call5_v8) rfl (by decide),
   writes_sub_of_mem (y := main_call5_c_3) rfl (by decide),
   writes_sub_of_mem (y := main_call5_v9) rfl (by decide),
   writes_sub_of_mem (y := main_call5_v10) rfl (by decide),
   writes_sub_of_mem (y := main_call5_v11) rfl (by decide),
   writes_sub_of_mem (y := main_call5_v12) rfl (by decide),
   writes_sub_of_mem (y := main_call5_v13) rfl (by decide),
   writes_sub_of_mem (y := main_call5_v14) rfl (by decide),
   writes_sub_of_mem (y := main_v17) rfl (by decide)⟩

/-- A buffer `opsI` does not write keeps its contents across it. -/
theorem opsI_frame {r : Ref sig .tc} (hr : r ∉ opsI_written) (V : Valuation τ sig (Elt F)) :
    after opsI V (r : DevRef τ sig) = V (r : DevRef τ sig) :=
  after_of_writes_sub opsI V opsI_writes hr

theorem opsJ_writes : (opsJ : List (HloOp τ sig (Elt F))).Forall fun op => op.writes ⊆ ((opsJ_written).map (Proc.devRef (τ := τ) .tc)).toFinset :=
  ⟨writes_sub_of_mem (y := main_c_7) rfl (by decide),
   writes_sub_of_mem (y := main_call6_v0) rfl (by decide),
   writes_sub_of_mem (y := main_call6_v1) rfl (by decide),
   writes_sub_of_mem (y := main_call6_v2) rfl (by decide),
   writes_sub_of_mem (y := main_call6_v3) rfl (by decide),
   writes_sub_of_mem (y := main_call6_v4) rfl (by decide),
   writes_sub_of_mem (y := main_call6_v5) rfl (by decide),
   writes_sub_of_mem (y := main_call6_v6) rfl (by decide),
   writes_sub_of_mem (y := main_call6_v7) rfl (by decide),
   writes_sub_of_mem (y := main_call6_c) rfl (by decide),
   writes_sub_of_mem (y := main_call6_v8) rfl (by decide),
   writes_sub_of_mem (y := main_call6_v9) rfl (by decide),
   writes_sub_of_mem (y := main_call6_v10) rfl (by decide),
   writes_sub_of_mem (y := main_call6_c_0) rfl (by decide),
   writes_sub_of_mem (y := main_call6_v11) rfl (by decide),
   writes_sub_of_mem (y := main_call6_v12) rfl (by decide),
   writes_sub_of_mem (y := main_v18) rfl (by decide),
   writes_sub_of_mem (y := main_c_8) rfl (by decide),
   writes_sub_of_mem (y := main_call7_v0) rfl (by decide),
   writes_sub_of_mem (y := main_call7_c) rfl (by decide),
   writes_sub_of_mem (y := main_call7_v1) rfl (by decide),
   writes_sub_of_mem (y := main_call7_c_0) rfl (by decide),
   writes_sub_of_mem (y := main_call7_v2) rfl (by decide),
   writes_sub_of_mem (y := main_call7_v3) rfl (by decide),
   writes_sub_of_mem (y := main_call7_v4) rfl (by decide),
   writes_sub_of_mem (y := main_call7_c_1) rfl (by decide),
   writes_sub_of_mem (y := main_call7_v5) rfl (by decide),
   writes_sub_of_mem (y := main_call7_v6) rfl (by decide),
   writes_sub_of_mem (y := main_call7_c_2) rfl (by decide),
   writes_sub_of_mem (y := main_call7_v7) rfl (by decide),
   writes_sub_of_mem (y := main_call7_v8) rfl (by decide),
   writes_sub_of_mem (y := main_call7_c_3) rfl (by decide),
   writes_sub_of_mem (y := main_call7_v9) rfl (by decide),
   writes_sub_of_mem (y := main_call7_v10) rfl (by decide),
   writes_sub_of_mem (y := main_call7_v11) rfl (by decide),
   writes_sub_of_mem (y := main_call7_v12) rfl (by decide),
   writes_sub_of_mem (y := main_call7_v13) rfl (by decide),
   writes_sub_of_mem (y := main_call7_v14) rfl (by decide),
   writes_sub_of_mem (y := main_v19) rfl (by decide)⟩

/-- A buffer `opsJ` does not write keeps its contents across it. -/
theorem opsJ_frame {r : Ref sig .tc} (hr : r ∉ opsJ_written) (V : Valuation τ sig (Elt F)) :
    after opsJ V (r : DevRef τ sig) = V (r : DevRef τ sig) :=
  after_of_writes_sub opsJ V opsJ_writes hr

theorem opsMidA_writes : (opsMidA : List (HloOp τ sig (Elt F))).Forall fun op => op.writes ⊆ ((opsMidA_written).map (Proc.devRef (τ := τ) .tc)).toFinset :=
  ⟨writes_sub_of_mem (y := main_c_9) rfl (by decide),
   writes_sub_of_mem (y := main_v20) rfl (by decide),
   writes_sub_of_mem (y := main_v21) rfl (by decide),
   writes_sub_of_mem (y := main_c_10) rfl (by decide),
   writes_sub_of_mem (y := main_v22) rfl (by decide),
   writes_sub_of_mem (y := main_v23) rfl (by decide),
   writes_sub_of_mem (y := main_v24) rfl (by decide),
   writes_sub_of_mem (y := main_v25) rfl (by decide),
   writes_sub_of_mem (y := main_v26) rfl (by decide),
   writes_sub_of_mem (y := main_c_11) rfl (by decide),
   writes_sub_of_mem (y := main_v27) rfl (by decide),
   writes_sub_of_mem (y := main_v28) rfl (by decide),
   writes_sub_of_mem (y := main_c_12) rfl (by decide),
   writes_sub_of_mem (y := main_v29) rfl (by decide),
   writes_sub_of_mem (y := main_v30) rfl (by decide),
   writes_sub_of_mem (y := main_v31) rfl (by decide),
   writes_sub_of_mem (y := main_v32) rfl (by decide)⟩

/-- A buffer `opsMidA` does not write keeps its contents across it. -/
theorem opsMidA_frame {r : Ref sig .tc} (hr : r ∉ opsMidA_written) (V : Valuation τ sig (Elt F)) :
    after opsMidA V (r : DevRef τ sig) = V (r : DevRef τ sig) :=
  after_of_writes_sub opsMidA V opsMidA_writes hr

theorem opsMidB_writes : (opsMidB : List (HloOp τ sig (Elt F))).Forall fun op => op.writes ⊆ ((opsMidB_written).map (Proc.devRef (τ := τ) .tc)).toFinset :=
  ⟨writes_sub_of_mem (y := main_v33) rfl (by decide),
   writes_sub_of_mem (y := main_c_13) rfl (by decide),
   writes_sub_of_mem (y := main_v34) rfl (by decide),
   writes_sub_of_mem (y := main_v35) rfl (by decide),
   writes_sub_of_mem (y := main_c_14) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_v40) rfl (by decide)⟩

/-- A buffer `opsMidB` does not write keeps its contents across it. -/
theorem opsMidB_frame {r : Ref sig .tc} (hr : r ∉ opsMidB_written) (V : Valuation τ sig (Elt F)) :
    after opsMidB V (r : DevRef τ sig) = V (r : DevRef τ sig) :=
  after_of_writes_sub opsMidB V opsMidB_writes hr

theorem opsOut_writes : (opsOut : List (HloOp τ sig (Elt F))).Forall fun op => op.writes ⊆ ((opsOut_written).map (Proc.devRef (τ := τ) .tc)).toFinset :=
  ⟨writes_sub_of_mem (y := main_v41) rfl (by decide),
   writes_sub_of_mem (y := main_v42) rfl (by decide),
   writes_sub_of_mem (y := main_v43) rfl (by decide),
   writes_sub_of_mem (y := main_v44) rfl (by decide),
   writes_sub_of_mem (y := main_v45) rfl (by decide),
   writes_sub_of_mem (y := main_v46) rfl (by decide),
   writes_sub_of_mem (y := main_call8_cst) rfl (by decide),
   writes_sub_of_mem (y := main_call8_v0) rfl (by decide),
   writes_sub_of_mem (y := main_call8_cst_0) rfl (by decide),
   writes_sub_of_mem (y := main_call8_v1) rfl (by decide),
   writes_sub_of_mem (y := main_call8_v2) rfl (by decide),
   writes_sub_of_mem (y := main_call8_v3) rfl (by decide),
   writes_sub_of_mem (y := main_call8_v4) rfl (by decide),
   writes_sub_of_mem (y := main_call8_v5) rfl (by decide),
   writes_sub_of_mem (y := main_call8_v6) rfl (by decide),
   writes_sub_of_mem (y := main_call8_cst_1) rfl (by decide),
   writes_sub_of_mem (y := main_call8_v7) rfl (by decide),
   writes_sub_of_mem (y := main_call8_v8) rfl (by decide),
   writes_sub_of_mem (y := main_call8_v9) rfl (by decide),
   writes_sub_of_mem (y := main_call8_v10) rfl (by decide),
   writes_sub_of_mem (y := main_v47) rfl (by decide)⟩

/-- A buffer `opsOut` does not write keeps its contents across it. -/
theorem opsOut_frame {r : Ref sig .tc} (hr : r ∉ opsOut_written) (V : Valuation τ sig (Elt F)) :
    after opsOut V (r : DevRef τ sig) = V (r : DevRef τ sig) :=
  after_of_writes_sub opsOut V opsOut_writes hr

/-- The line, run stretch after stretch. -/
theorem after_ops (V : Valuation τ sig (Elt F)) :
    after ops V = after opsOut (after opsMidB (after opsMidA (after opsJ (after opsI (after opsTri V))))) := by
  simp only [ops, opsIdx, opsMid, after_append]

/-- A buffer no stretch writes keeps its launch contents across the whole line. -/
theorem ops_frame {r : Ref sig .tc} (h1 : r ∉ opsTri_written) (h2 : r ∉ opsI_written) (h3 : r ∉ opsJ_written)
    (h4 : r ∉ opsMidA_written) (h5 : r ∉ opsMidB_written) (h6 : r ∉ opsOut_written) (V : Valuation τ sig (Elt F)) :
    after ops V (r : DevRef τ sig) = V (r : DevRef τ sig) := by
  rw [after_ops, opsOut_frame h6, opsMidB_frame h5, opsMidA_frame h4, opsJ_frame h3, opsI_frame h2, opsTri_frame h1]

/-! ## The arguments end as launched -/

theorem arg_eq0 (V : Valuation τ sig (Elt F)) : after ops V (main_arg0 : DevRef τ sig) = V (main_arg0 : DevRef τ sig) :=
  ops_frame (by decide) (by decide) (by decide) (by decide) (by decide) (by decide) V
theorem arg_eq1 (V : Valuation τ sig (Elt F)) : after ops V (main_arg1 : DevRef τ sig) = V (main_arg1 : DevRef τ sig) :=
  ops_frame (by decide) (by decide) (by decide) (by decide) (by decide) (by decide) V
theorem arg_eq2 (V : Valuation τ sig (Elt F)) : after ops V (main_arg2 : DevRef τ sig) = V (main_arg2 : DevRef τ sig) :=
  ops_frame (by decide) (by decide) (by decide) (by decide) (by decide) (by decide) V
theorem arg_eq3 (V : Valuation τ sig (Elt F)) : after ops V (main_arg3 : DevRef τ sig) = V (main_arg3 : DevRef τ sig) :=
  ops_frame (by decide) (by decide) (by decide) (by decide) (by decide) (by decide) V

end Cert.ReferenceIdeal.RefRun

end
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.Bridge.lean ====
/-
  What the two programs compute alike before their arithmetic differs.

  Both programs list the pairs `(i, j)`, `i < j`, of 512 rows by the same chain of integer host operations on
  constants (an upper-triangular mask, its running count, a scatter of ones, a second running count, a division
  and a remainder by 512), ending in two columns of 130816 row numbers; and both select the same 512 rows of the
  embedding table by the index argument (negative entries first moved up by 4096). The chains are the same
  operations applied to the same constants, so the columns are equal whatever they hold, and the selected rows are
  equal when the two programs are given the same table and the same index vector. Nothing here evaluates a chain.
-/
import proofs.«160593_j4922032521468_2_alg».proof.Proof.Gen.KernelIdeal.Frame
import proofs.«160593_j4922032521468_2_alg».proof.Proof.RefOps
import proofs.«160593_j4922032521468_2_alg».proof.Proof.LibTypedRefCasts
import Idealize.ShloMosaic.Lib.StableHlo.Run

set_option maxRecDepth 16384

noncomputable section

namespace Cert.Bridge

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxHeartbeats 4000000 in
/-- The column of first row numbers is the same array in both programs. -/
theorem idxI (c : Dev nD) (V' : Valuation Cert.ReferenceIdeal.τ Cert.ReferenceIdeal.sig (Elt F)) :
    (W21 m ρ c (Proc.devRef .tc main_v42) : (⟨2, ![130816, 1]⟩ : Shape).Idx → BitVec 32)
      = after Cert.ReferenceIdeal.RefRun.ops V' (Proc.devRef .tc Cert.ReferenceIdeal.main_v32) := by
  rw [Cert.ReferenceIdeal.RefRun.after_ops]
  dsimp only [W21, W20, W19, W18, W17, W16, W15, W14, W13, W12, W11, W10, W9, W8, W7, W6, W5,
    hostOps2_16, hostOps2_15, hostOps2_14, hostOps2_13, hostOps2_12, hostOps2_11, hostOps2_10, hostOps2_9, hostOps2_8,
    hostOps2_7, hostOps2_6, hostOps2_5, hostOps2_4, hostOps2_3, hostOps2_2, hostOps2_1, hostOps2,
    Cert.ReferenceIdeal.RefRun.opsOut, Cert.ReferenceIdeal.RefRun.opsMidB, Cert.ReferenceIdeal.RefRun.opsMidA,
    Cert.ReferenceIdeal.RefRun.opsJ, Cert.ReferenceIdeal.RefRun.opsI, Cert.ReferenceIdeal.RefRun.opsTri]
  after_results_simp
  simp only [Cert.LibTypedRefCasts.ofBuf_toBuf, Cert.LibTypedRefCasts.toBuf_ofBuf]
  rfl

set_option maxHeartbeats 4000000 in
/-- The column of second row numbers is the same array in both programs. -/
theorem idxJ (c : Dev nD) (V' : Valuation Cert.ReferenceIdeal.τ Cert.ReferenceIdeal.sig (Elt F)) :
    (W21 m ρ c (Proc.devRef .tc main_v43) : (⟨2, ![130816, 1]⟩ : Shape).Idx → BitVec 32)
      = after Cert.ReferenceIdeal.RefRun.ops V' (Proc.devRef .tc Cert.ReferenceIdeal.main_v39) := by
  rw [Cert.ReferenceIdeal.RefRun.after_ops]
  dsimp only [W21, W20, W19, W18, W17, W16, W15, W14, W13, W12, W11, W10, W9, W8, W7, W6, W5,
    hostOps2_16, hostOps2_15, hostOps2_14, hostOps2_13, hostOps2_12, hostOps2_11, hostOps2_10, hostOps2_9, hostOps2_8,
    hostOps2_7, hostOps2_6, hostOps2_5, hostOps2_4, hostOps2_3, hostOps2_2, hostOps2_1, hostOps2,
    Cert.ReferenceIdeal.RefRun.opsOut, Cert.ReferenceIdeal.RefRun.opsMidB, Cert.ReferenceIdeal.RefRun.opsMidA,
    Cert.ReferenceIdeal.RefRun.opsJ, Cert.ReferenceIdeal.RefRun.opsI, Cert.ReferenceIdeal.RefRun.opsTri]
  after_results_simp
  simp only [Cert.LibTypedRefCasts.ofBuf_toBuf, Cert.LibTypedRefCasts.toBuf_ofBuf]
  rfl

set_option maxHeartbeats 4000000 in
/-- The 512 selected rows of the embedding table are the same array in both programs, when the table and the index
    vector they are given are the same. -/
theorem acts (c : Dev nD) (V' : Valuation Cert.ReferenceIdeal.τ Cert.ReferenceIdeal.sig (Elt F))
    (h0 : V' (Proc.devRef .tc Cert.ReferenceIdeal.main_arg0) = m ((c.tc : Thread nD τ).loc main_arg0))
    (h1 : V' (Proc.devRef .tc Cert.ReferenceIdeal.main_arg1) = m ((c.tc : Thread nD τ).loc main_arg1)) :
    (V1 m ρ c main_v6 : (⟨2, ![512, 512]⟩ : Shape).Idx → Elt F .f32)
      = after Cert.ReferenceIdeal.RefRun.ops V' (Proc.devRef .tc Cert.ReferenceIdeal.main_v26) := by
  rw [Cert.ReferenceIdeal.RefRun.after_ops]
  dsimp only [V1, W1, W0, hostOps0,
    Cert.ReferenceIdeal.RefRun.opsOut, Cert.ReferenceIdeal.RefRun.opsMidB, Cert.ReferenceIdeal.RefRun.opsMidA,
    Cert.ReferenceIdeal.RefRun.opsJ, Cert.ReferenceIdeal.RefRun.opsI, Cert.ReferenceIdeal.RefRun.opsTri]
  after_results_simp
  rw [h0, h1]
  rfl

end Cert.Bridge

end
-- ==== Proof.LibConcatWide.lean ====
import Idealize.ShloMosaic.Lib.ValueIdx
import Idealize.ShloMosaic.Lib.Pipeline.Value

/-!
# Two matrices laid side by side, read at an index

For `a : [R, A]` and `b : [R, B]` concatenated along axis 1 into `[R, T]` (so `T = A + B`), entry `(r, j)` of the
result is `a (r, j)` for a column `j` of the first piece and `b (r, n)` at column `A + n`. No proof enumerates an extent.
-/

namespace Cert.LibConcatWide

open Idealize.ShloMosaic Idealize.ShloMosaic.ValueIdx

variable {α : Type}

/-- The widths of two pieces laid side by side add up to the whole's. -/
theorem concatWide_total {R A B T : Nat}
    (h : Shape.Concatenates [⟨2, ![R, A]⟩, ⟨2, ![R, B]⟩] ⟨2, ![R, T]⟩ 1) : A + B = T := by
  have e : A + (B + 0) = T := h.2.2
  omega

/-- A column of the first piece: entry `(r, j)` of the concatenation is the first piece's. -/
theorem concatWide_apply_left {R A B T : Nat} (a : (⟨2, ![R, A]⟩ : Shape).Idx → α) (b : (⟨2, ![R, B]⟩ : Shape).Idx → α)
    (h : Shape.Concatenates [⟨2, ![R, A]⟩, ⟨2, ![R, B]⟩] ⟨2, ![R, T]⟩ 1) (r : Fin R) (j : Fin A) (hj : j.val < T) :
    concatenate ⟨2, ![R, T]⟩ 1 [⟨⟨2, ![R, A]⟩, a⟩, ⟨⟨2, ![R, B]⟩, b⟩] h (ix2 r (⟨j.val, hj⟩ : Fin T)) = a (ix2 r j) :=
  concatenate_pair_apply_left 1 a b h (ix2 r (⟨j.val, hj⟩ : Fin T)) rfl (ix2 r j)
    (Fin.forall_fin_two.2 ⟨rfl, rfl⟩)

/-- A column of the second piece: entry `(r, A + n)` of the concatenation is the second piece's `(r, n)`. -/
theorem concatWide_apply_right {R A B T : Nat} (a : (⟨2, ![R, A]⟩ : Shape).Idx → α) (b : (⟨2, ![R, B]⟩ : Shape).Idx → α)
    (h : Shape.Concatenates [⟨2, ![R, A]⟩, ⟨2, ![R, B]⟩] ⟨2, ![R, T]⟩ 1) (r : Fin R) (n : Fin B) (hn : A + n.val < T) :
    concatenate ⟨2, ![R, T]⟩ 1 [⟨⟨2, ![R, A]⟩, a⟩, ⟨⟨2, ![R, B]⟩, b⟩] h (ix2 r (⟨A + n.val, hn⟩ : Fin T)) = b (ix2 r n) :=
  concatenate_pair_apply_right 1 a b h (ix2 r (⟨A + n.val, hn⟩ : Fin T)) rfl rfl (ix2 r n)
    (Fin.forall_fin_two.2 ⟨fun _ => rfl, fun hk => absurd rfl hk⟩) (by show n.val + A = A + n.val; omega)

end Cert.LibConcatWide
-- ==== Proof.RefTail.lean ====
/-
  The last stage of the reference computation as one function of its inputs, and its value at an index.

  From the 512 selected rows `A`, two columns of index words `Icol`, `Jcol` (one pair of rows per output row), the weights
  `W : [4, 1024]` and the bias `b : [4]`: row `p` of the pair matrix is row `i` of `A` followed by row `j` of `A`
  (`i`, `j` the two index words of `p`, clamped); it is multiplied by the transpose of `W`, the bias is added, and the
  log-softmax over the four classes is taken. At entry `(p, c)` this is the pair specification's `outAt`.
-/
import proofs.«160593_j4922032521468_2_alg».proof.ReferenceIdeal
import proofs.«160593_j4922032521468_2_alg».proof.Proof.Gen.ReferenceIdeal
import proofs.«160593_j4922032521468_2_alg».proof.Proof.Spec
import proofs.«160593_j4922032521468_2_alg».proof.Proof.LibIndexOps
import proofs.«160593_j4922032521468_2_alg».proof.Proof.LibConcatWide
import proofs.«160593_j4922032521468_2_alg».proof.Proof.LibTransposeMatrix
import proofs.«160593_j4922032521468_2_alg».proof.Proof.LibMatmulRowsByCols

noncomputable section

open scoped BigOperators

namespace Cert.ReferenceIdeal.Tail

open Idealize.ShloMosaic Idealize.ShloMosaic.ValueIdx
open Cert.ReferenceIdeal Cert.ReferenceIdeal.Facts₀

/-- The pair matrix `[130816, 1024]`: for each output row, the row of `A` named by its first index word followed by the
    row of `A` named by its second index word. -/
def pairRows (A : FVec Ideal S512x512 .f32) (Icol Jcol : IVec S130816x1 32) : FVec Ideal S130816x1024 .f32 :=
  concatenate S130816x1024 1
    [⟨S130816x512, Host.gather gather_S512x512_S130816x1_S130816x512_1_0_n_n_0_1_1512 A Icol⟩,
     ⟨S130816x512, Host.gather gather_S512x512_S130816x1_S130816x512_1_0_n_n_0_1_1512 A Jcol⟩]
    concatenates_S130816x512_S130816x512_S130816x1024_d1

/-- The logits `[130816, 4]`: the pair matrix times the transpose of `W`, plus the bias along the classes. -/
def logits (A : FVec Ideal S512x512 .f32) (Icol Jcol : IVec S130816x1 32) (W : FVec Ideal S4x1024 .f32)
    (b : FVec Ideal S4 .f32) : FVec Ideal S130816x4 .f32 :=
  addf
    (Host.dotGeneral dot_S130816x1024_S1024x4_S130816x4_1_0_0_1_n_n none (pairRows A Icol Jcol)
      (transpose S1024x4 [1, 0] W transposes_S4x1024_S1024x4_1_0))
    (broadcastInDim S130816x4 ![0, 1] bcast_S1x4_S130816x4_0_1 (broadcastInDim S1x4 ![1] bcast_S4_S1x4_1 b))

/-- The row maximum over the four classes, floored by minus infinity (which changes nothing). -/
def rowMax (x : FVec Ideal S130816x4 .f32) : FVec Ideal S130816 .f32 :=
  maximumf (broadcastInDim S130816 ![] bcast_S_S130816 (constant (F := Ideal) S_ .f32 0xFF800000#32))
    (Host.reduce FloatOps.maximumf x (constant (F := Ideal) S_ .f32 0xFF800000#32) reducesTo_S130816x4_S130816_d1 h_S_)

/-- Each entry minus its row's maximum. -/
def shifted (x : FVec Ideal S130816x4 .f32) : FVec Ideal S130816x4 .f32 :=
  subf x (broadcastInDim S130816x4 ![0, 1] bcast_S130816x1_S130816x4_0_1
    (broadcastInDim S130816x1 ![0] bcast_S130816_S130816x1_0 (rowMax x)))

/-- The sum over the four classes of the exponentials of the shifted entries, one per row. -/
def rowSumExp (x : FVec Ideal S130816x4 .f32) : FVec Ideal S130816 .f32 :=
  Host.reduceAdd (Host.exp (shifted x)) (constant (F := Ideal) S_ .f32 0x00000000#32) reducesTo_S130816x4_S130816_d1 h_S_

/-- The log-softmax over the four classes of each row. -/
def lsmHost (x : FVec Ideal S130816x4 .f32) : FVec Ideal S130816x4 .f32 :=
  subf (shifted x) (broadcastInDim S130816x4 ![0, 1] bcast_S130816x1_S130816x4_0_1
    (Host.log (broadcastInDim S130816x1 ![0] bcast_S130816_S130816x1_0 (rowSumExp x))))

/-- The reference's result `[130816, 4]` from the selected rows, the two index columns, the weights and the bias. -/
def refTail (A : FVec Ideal S512x512 .f32) (Icol Jcol : IVec S130816x1 32) (W : FVec Ideal S4x1024 .f32)
    (b : FVec Ideal S4 .f32) : FVec Ideal S130816x4 .f32 :=
  lsmHost (logits A Icol Jcol W b)

end Cert.ReferenceIdeal.Tail

end
-- ==== Proof.RefOut.lean ====
/-
  The reference's result buffer as its last stage applied to three earlier buffers.

  After all of the reference's host operations the result buffer holds the last stage of the computation — the two
  blocks of gathered rows set side by side, times the transposed weights, plus the bias, then the log-softmax of
  each row — of what the same operations leave in three earlier buffers: the selected rows and the two columns of
  row numbers; the weights and the bias are the arguments as given. Each buffer is written once, so reading the
  fold of the operations at the result and at the three buffers and comparing the two terms is all there is to it.
-/
import proofs.«160593_j4922032521468_2_alg».proof.Proof.RefOps
import proofs.«160593_j4922032521468_2_alg».proof.Proof.RefTail
import proofs.«160593_j4922032521468_2_alg».proof.Proof.LibTypedRefCasts
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem
open Idealize.ShloMosaic.StableHlo

-- the two terms compared are as deep as the chain of operations is long
set_option maxHeartbeats 8000000 in
set_option maxRecDepth 400000 in
/-- The result buffer after the reference's operations is the last stage at the selected rows, the two index columns,
    the weights and the bias. -/
theorem out_eq (V : Valuation τ sig (Elt Ideal)) :
    after ops V (main_v47 : DevRef τ sig)
      = Cert.ReferenceIdeal.Tail.refTail (after ops V (main_v26 : DevRef τ sig)) (after ops V (main_v32 : DevRef τ sig))
          (after ops V (main_v39 : DevRef τ sig)) (V (main_arg2 : DevRef τ sig)) (V (main_arg3 : DevRef τ sig)) := by
  unfold Cert.ReferenceIdeal.Tail.refTail Cert.ReferenceIdeal.Tail.lsmHost Cert.ReferenceIdeal.Tail.logits
    Cert.ReferenceIdeal.Tail.pairRows
  rw [after_ops]
  dsimp only [opsOut, opsMidB, opsMidA, opsJ, opsI, opsTri]
  after_results_simp
  simp only [Cert.LibTypedRefCasts.ofBuf_toBuf, Cert.LibTypedRefCasts.toBuf_ofBuf]
  rfl

end Cert.ReferenceIdeal.RefRun

end
-- ==== Proof.RefTailApply.lean ====
/-
  The last stage of the reference computation read at an index: entry `(p, c)` of the result is the pair
  specification's `outAt` at the two clamped index words of row `p`.

  Row `p` of the pair matrix is row `i` of `A` followed by row `j` of `A`; its product with the transpose of `W` at
  class `c` is a sum over 1024 columns that splits into the first 512 (against row `i`) and the last 512 (against row
  `j`); the bias adds `b c`. The maximum over the four classes from minus infinity is the plain maximum of four, the sum
  of the four exponentials from zero is their plain sum, and the result is the log-softmax of the four logits.
-/
import proofs.«160593_j4922032521468_2_alg».proof.Proof.RefTail
import Idealize.ShloMosaic.Lib.IdealHost
import Idealize.ShloMosaic.PureOps.Reduce
import Idealize.ShloMosaic.PureOps.Ideal.Laws

noncomputable section

open scoped BigOperators

namespace Cert.ReferenceIdeal.Tail

open Idealize.ShloMosaic Idealize.ShloMosaic.ValueIdx
open Cert.ReferenceIdeal Cert.ReferenceIdeal.Facts₀

/-! ## The pair matrix -/

/-- A column of the first half of row `p` of the pair matrix: row `i` of `A`, `i` the first index word of `p`, clamped. -/
theorem pairRows_left (A : FVec Ideal S512x512 .f32) (Icol Jcol : IVec S130816x1 32) (p : Fin 130816) (k : Fin 512) :
    pairRows A Icol Jcol (ix2 p (⟨k.val, by omega⟩ : Fin 1024))
      = A (ix2 (Cert.PairSpec.row (Icol (ix2 p (0 : Fin 1)))) k) := by
  unfold pairRows
  refine (Cert.LibConcatWide.concatWide_apply_left (R := 130816) (A := 512) (B := 512) (T := 1024) _ _ _ p k _).trans ?_
  exact Cert.LibIndexOps.gatherRows_apply (N := 512) (C := 512) (M := 130816) (by norm_num)
    gather_S512x512_S130816x1_S130816x512_1_0_n_n_0_1_1512_wf A Icol p k

/-- A column of the second half of row `p` of the pair matrix: row `j` of `A`, `j` the second index word of `p`, clamped. -/
theorem pairRows_right (A : FVec Ideal S512x512 .f32) (Icol Jcol : IVec S130816x1 32) (p : Fin 130816) (k : Fin 512) :
    pairRows A Icol Jcol (ix2 p (⟨512 + k.val, by omega⟩ : Fin 1024))
      = A (ix2 (Cert.PairSpec.row (Jcol (ix2 p (0 : Fin 1)))) k) := by
  unfold pairRows
  refine (Cert.LibConcatWide.concatWide_apply_right (R := 130816) (A := 512) (B := 512) (T := 1024) _ _ _ p k _).trans ?_
  exact Cert.LibIndexOps.gatherRows_apply (N := 512) (C := 512) (M := 130816) (by norm_num)
    gather_S512x512_S130816x1_S130816x512_1_0_n_n_0_1_1512_wf A Jcol p k

/-! ## The logits -/

/-- The bias broadcast along the rows, read at `(p, c)`, is `b c`. -/
theorem bias_apply (b : FVec Ideal S4 .f32) (p : Fin 130816) (c : Fin 4) :
    broadcastInDim S130816x4 ![0, 1] bcast_S1x4_S130816x4_0_1 (broadcastInDim S1x4 ![1] bcast_S4_S1x4_1 b) (ix2 p c)
      = b (ix1 c) := by
  refine (broadcastInDim_apply _ _ _ (ix2 p c) (ix2 (0 : Fin 1) c) (Fin.forall_fin_two.2 ⟨rfl, rfl⟩)).trans ?_
  exact broadcastInDim_apply _ _ b (ix2 (0 : Fin 1) c) (ix1 c) (fun a => by
    match a with
    | ⟨0, _⟩ => rfl)

/-- The logit of row `p` at class `c`: row `i` of `A` against the first 512 columns of row `c` of `W`, plus row `j` of `A`
    against its last 512 columns, plus `b c`. -/
theorem logits_apply (A : FVec Ideal S512x512 .f32) (Icol Jcol : IVec S130816x1 32) (W : FVec Ideal S4x1024 .f32)
    (b : FVec Ideal S4 .f32) (p : Fin 130816) (c : Fin 4) :
    logits A Icol Jcol W b (ix2 p c)
      = (∑ k : Fin 512, A (ix2 (Cert.PairSpec.row (Icol (ix2 p (0 : Fin 1)))) k) * W (ix2 c (⟨k.val, by omega⟩ : Fin 1024)))
        + (∑ k : Fin 512, A (ix2 (Cert.PairSpec.row (Jcol (ix2 p (0 : Fin 1)))) k) * W (ix2 c (⟨512 + k.val, by omega⟩ : Fin 1024)))
        + b (ix1 c) := by
  unfold logits
  rw [addf_apply, bias_apply]
  refine congrArg (· + b (ix1 c)) ?_
  refine (Cert.RowsByCols.dotGeneral_apply (N := 130816) (K := 1024) (M := 4)
    dot_S130816x1024_S1024x4_S130816x4_1_0_0_1_n_n ⟨rfl, rfl, rfl, rfl, rfl, rfl⟩ none _ _ p c).trans ?_
  rw [Cert.LibIndexOps.sum_fin_append 512 512 1024 rfl]
  refine congrArg₂ (· + ·) (Finset.sum_congr rfl fun k _ => ?_) (Finset.sum_congr rfl fun k _ => ?_)
  · rw [pairRows_left]
    exact congrArg (A (ix2 (Cert.PairSpec.row (Icol (ix2 p (0 : Fin 1)))) k) * ·)
      (Cert.LibTransposeMatrix.transpose_ab_ba_apply (a := 4) (b := 1024) W _ _ c)
  · rw [pairRows_right]
    exact congrArg (A (ix2 (Cert.PairSpec.row (Jcol (ix2 p (0 : Fin 1)))) k) * ·)
      (Cert.LibTransposeMatrix.transpose_ab_ba_apply (a := 4) (b := 1024) W _ _ c)

/-! ## The log-softmax over the four classes -/

/-- A fold of a commutative and associative operation over four terms, written out left to right. -/
theorem fold_univ_fin4 {α : Type} (f : α → α → α) [Std.Commutative f] [Std.Associative f] (z : α) (g : Fin 4 → α) :
    (Finset.univ : Finset (Fin 4)).fold f z g = f z (f (f (f (g 0) (g 1)) (g 2)) (g 3)) := by
  simp only [Fin.univ_succ, Finset.fold_cons, Finset.fold_map, Finset.univ_unique, Finset.fold_singleton]
  show f (g 0) (f (g 1) (f (g 2) (f (g 3) z))) = _
  ac_rfl

/-- Row `p` with the class `c` inserted is the entry `(p, c)`. -/
theorem lift_row (h : S130816x4.Reduces [1] S130816) (p : Fin 130816) (c : Fin 4) : h.lift (ix1 p) c = ix2 p c := by
  funext a
  refine Fin.ext ?_
  match a with
  | ⟨0, _⟩ => rfl
  | ⟨1, _⟩ => rfl

/-- Minus infinity as a 32-bit pattern is the least extended real. -/
theorem ofBits_neg_inf : Ideal.ofBits .f32 0xFF800000#32 = (⊥ : EReal) := by simp [Ideal.ofBits, Ideal.ieee]

/-- The row maximum is the maximum of the row's four entries. -/
theorem rowMax_apply (x : FVec Ideal S130816x4 .f32) (p : Fin 130816) :
    rowMax x (ix1 p) = Cert.PairSpec.max4 (fun c => x (ix2 p c)) := by
  have h : S130816x4.Reduces [1] S130816 := by decide
  unfold rowMax
  rw [maximumf_apply, broadcastInDim_scalar_apply, constant_apply,
    Host.reduce_eq_fold_single FloatOps.maximumf x _ reducesTo_S130816x4_S130816_d1 h h_S_, constant_apply]
  have hf : (x ∘ h.lift (ix1 p)) = fun c : Fin 4 => x (ix2 p c) := funext fun c => congrArg x (lift_row h p c)
  have e := fold_univ_fin4 (max : Ideal .f32 → Ideal .f32 → Ideal .f32) (Ideal.ofBits .f32 0xFF800000#32)
    (fun c : Fin 4 => x (ix2 p c))
  refine (congrArg (max (Ideal.ofBits .f32 0xFF800000#32))
    ((congrArg (fun g => Finset.fold max (Ideal.ofBits .f32 0xFF800000#32) g (Finset.univ : Finset (Fin 4))) hf).trans e)).trans ?_
  rw [ofBits_neg_inf]
  unfold Cert.PairSpec.max4
  show max (⊥ : EReal) (max ⊥ _) = _
  rw [max_eq_right bot_le, max_eq_right bot_le]

/-- Each entry minus its row's maximum. -/
theorem shifted_apply (x : FVec Ideal S130816x4 .f32) (p : Fin 130816) (c : Fin 4) :
    shifted x (ix2 p c) = x (ix2 p c) - Cert.PairSpec.max4 (fun c' => x (ix2 p c')) := by
  unfold shifted
  rw [subf_apply, ← rowMax_apply]
  refine congrArg (x (ix2 p c) - ·) ?_
  refine (broadcastInDim_apply _ _ _ (ix2 p c) (ix2 p (0 : Fin 1)) (Fin.forall_fin_two.2 ⟨rfl, rfl⟩)).trans ?_
  exact broadcastInDim_apply _ _ (rowMax x) (ix2 p (0 : Fin 1)) (ix1 p) (fun a => by
    match a with
    | ⟨0, _⟩ => rfl)

/-- The row sum of the exponentials, from zero, is the plain sum of the four, left to right. -/
theorem rowSumExp_apply (x : FVec Ideal S130816x4 .f32) (p : Fin 130816) :
    rowSumExp x (ix1 p)
      = Ideal.exp (shifted x (ix2 p 0)) + Ideal.exp (shifted x (ix2 p 1)) + Ideal.exp (shifted x (ix2 p 2))
        + Ideal.exp (shifted x (ix2 p 3)) := by
  have h : S130816x4.Reduces [1] S130816 := by decide
  unfold rowSumExp
  rw [hostReduceAdd_apply, Ideal.hostReduceAdd_single reducesTo_S130816x4_S130816_d1 h, constant_apply,
    Ideal.ofBits_zero_f32, zero_add]
  show ∑ k : Fin 4, Host.exp (shifted x) (h.lift (ix1 p) k) = _
  rw [Fin.sum_univ_four, lift_row, lift_row, lift_row, lift_row]
  rfl

/-- The log-softmax of each row, read at `(p, c)`. -/
theorem lsmHost_apply (x : FVec Ideal S130816x4 .f32) (p : Fin 130816) (c : Fin 4) :
    lsmHost x (ix2 p c) = Cert.PairSpec.lsm4 (fun c' => x (ix2 p c')) c := by
  unfold lsmHost
  rw [subf_apply]
  have hb : broadcastInDim S130816x4 ![0, 1] bcast_S130816x1_S130816x4_0_1
      (Host.log (broadcastInDim S130816x1 ![0] bcast_S130816_S130816x1_0 (rowSumExp x))) (ix2 p c)
      = Ideal.log (rowSumExp x (ix1 p)) := by
    refine (broadcastInDim_apply _ _ _ (ix2 p c) (ix2 p (0 : Fin 1)) (Fin.forall_fin_two.2 ⟨rfl, rfl⟩)).trans ?_
    unfold Host.log
    rw [Ideal.hostUnary_log_def]
    exact congrArg Ideal.log (broadcastInDim_apply _ _ (rowSumExp x) (ix2 p (0 : Fin 1)) (ix1 p) (fun a => by
      match a with
      | ⟨0, _⟩ => rfl))
  rw [hb, rowSumExp_apply, shifted_apply, shifted_apply, shifted_apply, shifted_apply, shifted_apply]
  rfl

/-! ## The result at an index -/

/-- Entry `(p, c)` of the reference's result is the pair specification at the two clamped index words of row `p`. -/
theorem refTail_apply (A : FVec Ideal S512x512 .f32) (Icol Jcol : IVec S130816x1 32) (W : FVec Ideal S4x1024 .f32)
    (b : FVec Ideal S4 .f32) (p : Fin 130816) (c : Fin 4) :
    refTail A Icol Jcol W b (ix2 p c)
      = Cert.PairSpec.outAt A W b (Cert.PairSpec.row (Icol (ix2 p (0 : Fin 1))))
          (Cert.PairSpec.row (Jcol (ix2 p (0 : Fin 1)))) c := by
  unfold refTail
  rw [lsmHost_apply]
  unfold Cert.PairSpec.outAt
  exact congrArg (fun l => Cert.PairSpec.lsm4 l c) (funext fun c' => logits_apply A Icol Jcol W b p c')

end Cert.ReferenceIdeal.Tail

end
-- ==== Proof.RefValue.lean ====
/-
  The reference program runs and leaves its four arguments as launched.

  The program is a straight line of array operations, none of which writes an argument: every weakly fair execution ends,
  and each argument's buffer then holds the fold of the operations over the launch contents, which at an argument is the
  launch contents.
-/
import proofs.«160593_j4922032521468_2_alg».proof.Defs
import proofs.«160593_j4922032521468_2_alg».proof.Proof.Gen.ReferenceIdeal
import proofs.«160593_j4922032521468_2_alg».proof.Proof.Gen.Pre_finite_inputs
import proofs.«160593_j4922032521468_2_alg».proof.Proof.RefOps

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

/-- The reference program terminates without fault from any memory with zero counters, and its argument arrays end
    unchanged. -/
theorem frame_ri : Cert.frame_ReferenceIdeal := fun m ρ _ =>
  (θ_run Cert.ReferenceIdeal.defs _ _).mono
    (fun _ h c => ⟨(h c main_arg0).trans (arg_eq0 _), (h c main_arg1).trans (arg_eq1 _),
      (h c main_arg2).trans (arg_eq2 _), (h c main_arg3).trans (arg_eq3 _)⟩)
    (run_main (F := Ideal) m ρ)

end Cert.ReferenceIdeal.RefValue

end
-- ==== Proof.lean ====
/-
  A pairwise classifier over 512 selected rows of an embedding table: the kernel and its reference are equal over
  the extended reals.

  Both programs select `acts = embeds[activity_index]` (512 rows of 512 numbers) and list the 130816 pairs `(i, j)`,
  `i < j`, of rows. For a pair the result is the log-softmax over four classes of the logits
  `(acts[i] ‖ acts[j]) · W[c]ᵀ + b[c]`, the concatenation of the two rows against row `c` of `W : [4, 1024]`.

  The reference forms the concatenated rows `[130816, 1024]`, multiplies by `Wᵀ`, adds `b` and applies log-softmax.
  The kernel splits the product: `(x ‖ y) · w = x · w[:512] + y · w[512:]`, a sum over 1024 terms cut into its two
  halves, which holds in any commutative additive monoid and so on the extended reals with no finiteness
  assumption. Its first region computes `lp = acts · W[:, :512]ᵀ` and `rp = acts · W[:, 512:]ᵀ` once (`[512, 4]`
  each), its second region the whole table `full[i, c, j] = log_softmax_c (lp[i, c] + rp[j, c] + b[c])` in two blocks
  of 256 rows, and a final gather picks `full[i, :, j]` for the listed pairs. The log-softmax is written the same
  way on both sides up to the association of a maximum and of a sum of four terms.

  The list of pairs is computed by both programs with the same chain of integer operations on constants, and the
  rows are selected by the same gather; neither is evaluated here: the two chains are equal as terms
  (`Bridge`), and both gathers clamp a row number into `0 … 511` in the same way.

  The modules: `Spec` (the shared formulas), `KRun` (the kernel's run with its result named), `KRegion0`,
  `KRegion1` (what the two regions leave), `KLinks`, `KTail`, `KValue` (the result read at an entry through the
  program's host operations), `RefOps`, `RefOut` (the reference's operations and its run), `RefTail`,
  `RefTailApply` (the reference's arithmetic at an entry), `RefValue` (the reference's frame), `Bridge`.
-/
import proofs.«160593_j4922032521468_2_alg».proof.Defs
import proofs.«160593_j4922032521468_2_alg».proof.Proof.Gen.Kernel
import proofs.«160593_j4922032521468_2_alg».proof.Proof.Gen.Kernel.Frame
import proofs.«160593_j4922032521468_2_alg».proof.Proof.Gen.KernelIdeal
import proofs.«160593_j4922032521468_2_alg».proof.Proof.Gen.KernelIdeal.Frame
import proofs.«160593_j4922032521468_2_alg».proof.Proof.Gen.ReferenceIdeal
import proofs.«160593_j4922032521468_2_alg».proof.Proof.Gen.Pre_finite_inputs
import proofs.«160593_j4922032521468_2_alg».proof.Proof.KRun
import proofs.«160593_j4922032521468_2_alg».proof.Proof.KValue
import proofs.«160593_j4922032521468_2_alg».proof.Proof.Bridge
import proofs.«160593_j4922032521468_2_alg».proof.Proof.RefOut
import proofs.«160593_j4922032521468_2_alg».proof.Proof.RefTailApply
import proofs.«160593_j4922032521468_2_alg».proof.Proof.RefValue
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.StableHlo Idealize.ShloMosaic.ValueIdx

/-- Entry `(p, cl)` of the reference's result is the specification at the rows it selected, its weights and bias,
    and the pair of rows that row `p` of its two index columns names. -/
theorem ref_out_at (V : Valuation Cert.ReferenceIdeal.τ Cert.ReferenceIdeal.sig (Elt Ideal)) (p : Fin 130816) (cl : Fin 4) :
    after Cert.ReferenceIdeal.RefRun.ops V (Proc.devRef .tc Cert.ReferenceIdeal.main_v47) (ix2 p cl)
      = Cert.PairSpec.outAt (after Cert.ReferenceIdeal.RefRun.ops V (Proc.devRef .tc Cert.ReferenceIdeal.main_v26))
          (V (Proc.devRef .tc Cert.ReferenceIdeal.main_arg2)) (V (Proc.devRef .tc Cert.ReferenceIdeal.main_arg3))
          (Cert.PairSpec.row (after Cert.ReferenceIdeal.RefRun.ops V (Proc.devRef .tc Cert.ReferenceIdeal.main_v32) (ix2 p (0 : Fin 1))))
          (Cert.PairSpec.row (after Cert.ReferenceIdeal.RefRun.ops V (Proc.devRef .tc Cert.ReferenceIdeal.main_v39) (ix2 p (0 : Fin 1)))) cl := by
  rw [Cert.ReferenceIdeal.RefRun.out_eq]
  exact Cert.ReferenceIdeal.Tail.refTail_apply _ _ _ _ _ p cl

/-- From memories that agree on the four arguments both idealized programs run to the same result, entry by entry:
    each is the specification at the same rows, weights, bias and pair of rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W21 m ρ c (Proc.devRef .tc Cert.KernelIdeal.main_v45),
    Cert.KernelIdeal.RunValue.run_named m ρ, ?_⟩
  refine (θ_run Cert.ReferenceIdeal.defs _ _).mono (fun r h c =>
      ⟨?_, (h c Cert.ReferenceIdeal.main_arg0).trans (Cert.ReferenceIdeal.RefRun.arg_eq0 _),
        (h c Cert.ReferenceIdeal.main_arg1).trans (Cert.ReferenceIdeal.RefRun.arg_eq1 _),
        (h c Cert.ReferenceIdeal.main_arg2).trans (Cert.ReferenceIdeal.RefRun.arg_eq2 _),
        (h c Cert.ReferenceIdeal.main_arg3).trans (Cert.ReferenceIdeal.RefRun.arg_eq3 _)⟩)
    (Cert.ReferenceIdeal.RefRun.run_main (F := Ideal) m' ρ')
  refine (h c Cert.ReferenceIdeal.main_v47).trans ?_
  funext y
  obtain ⟨p, cl, rfl⟩ : ∃ (p : Fin 130816) (cl : Fin 4), y = ix2 p cl := ⟨y 0, y 1, eq_ix2 y⟩
  have e2 : launchContents m' c (Proc.devRef .tc Cert.ReferenceIdeal.main_arg2)
      = m ((c.tc : Thread Cert.KernelIdeal.nD Cert.KernelIdeal.τ).loc Cert.KernelIdeal.main_arg2) := (hagree c).2.2.1
  have e3 : launchContents m' c (Proc.devRef .tc Cert.ReferenceIdeal.main_arg3)
      = m ((c.tc : Thread Cert.KernelIdeal.nD Cert.KernelIdeal.τ).loc Cert.KernelIdeal.main_arg3) := (hagree c).2.2.2
  rw [ref_out_at, e2, e3]
  refine Eq.trans ?_ (Cert.KernelIdeal.Value.out_at m ρ c p cl).symm
  rw [Cert.Bridge.idxI m ρ c (launchContents m' c), Cert.Bridge.idxJ m ρ c (launchContents m' c),
    Cert.Bridge.acts m ρ c (launchContents m' c) (hagree c).1 (hagree c).2.1]

/-- Everything the certificate claims: the three frames (the two kernels' are the generated ones, the reference's is
    its run with the result dropped), nothing to preserve (the idealization rewrote no operation), and the equality of
    the two idealized programs' results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefValue.frame_ri,
    trivial,
    algebraic⟩

end Cert.Proof

end
